-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S4096x4096 .f32) (main_arg8 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x4096 .f32) (main_arg1 : FVec F S4096x4096 .f32) (main_arg2 : FVec F S4096 .f32) (main_arg3 : FVec F S4096x4096 .f32) (main_arg4 : FVec F S4096 .f32) (main_arg5 : FVec F S4096x4096 .f32) (main_arg6 : FVec F S4096 .f32) (main_arg7 : FVec F S4096x4096 .f32) (main_arg8 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4096x4096 : Shape := ⟨2, ![4096, 4096]⟩
abbrev S4096 : Shape := ⟨1, ![4096]⟩
abbrev S1024x1024 : Shape := ⟨2, ![1024, 1024]⟩
abbrev S1024 : Shape := ⟨1, ![1024]⟩
abbrev S1x1024 : Shape := ⟨2, ![1, 1024]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩

abbrev nBuf : Space → Nat
  | .hbm => 19
  | .vmem => 44
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .bf16⟩
  | .hbm, ⟨10, _⟩ => ⟨S4096x4096, .bf16⟩
  | .hbm, ⟨11, _⟩ => ⟨S4096x4096, .bf16⟩
  | .hbm, ⟨12, _⟩ => ⟨S4096x4096, .bf16⟩
  | .hbm, ⟨13, _⟩ => ⟨S4096x4096, .bf16⟩
  | .hbm, ⟨14, _⟩ => ⟨S4096x4096, .bf16⟩
  | .hbm, ⟨15, _⟩ => ⟨S4096x4096, .bf16⟩
  | .hbm, ⟨16, _⟩ => ⟨S4096x4096, .bf16⟩
  | .hbm, ⟨17, _⟩ => ⟨S4096x4096, .bf16⟩
  | .hbm, ⟨18, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024, .f32⟩
  | .local _ .vmem, ⟨14, _⟩ => ⟨S1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024, .f32⟩
  | .local _ .vmem, ⟨23, _⟩ => ⟨S1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S256x4096, .bf16⟩
  | .local _ .vmem, ⟨31, _⟩ => ⟨S256x4096, .bf16⟩
  | .local _ .vmem, ⟨32, _⟩ => ⟨S256x4096, .bf16⟩
  | .local _ .vmem, ⟨33, _⟩ => ⟨S256x4096, .bf16⟩
  | .local _ .vmem, ⟨34, _⟩ => ⟨S256x4096, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024, .f32⟩
  | .local _ .vmem, ⟨40, _⟩ => ⟨S1024, .f32⟩
  | .local _ .vmem, ⟨41, _⟩ => ⟨S1024x1024, .f32⟩
  | .local _ .vmem, ⟨42, _⟩ => ⟨S1024x1024, .f32⟩
  | .local _ .vmem, ⟨43, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![4, 4, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x256_S256 : S256x256.Reduces [1] S256
  shapeCasts_S256_S256x1 : S256.ShapeCasts S256x1
  broadcasts_S256x1_S256x256 : S256x1.Broadcasts S256x256
  packedbf16_S256x4096_S256x4096_0_0 : (Rect.unit (s := S256x4096) ![0, 0] S256x4096.size inb_S256x4096_S256x4096_0_0).PackedRows (EltTy.packing .bf16)
  dot_S1024x1024_S1024x1024_S1024x1024_1_1_0_0_n_n_wf : DotDims.WF S1024x1024 S1024x1024 S1024x1024 [1] [1] [0] [0] [] []
  dot_S256x4096_S256x4096_S256x256_1_1_0_0_n_n_wf : DotDims.WF S256x4096 S256x4096 S256x256 [1] [1] [0] [0] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S4096.size a
  hwx2_2 : ∀ i : grid2.Coords, EltTy.bits .f32 = 32 ∨ (Rect.block (s := S4096) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .bf16 = 32 ∨ (Rect.block (s := S4096x4096) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .bf16 = 32 ∨ (Rect.block (s := S4096x4096) S256x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4096.size a ≤ S4096x4096.size a
  hwx3_1 : ∀ i : grid3.Coords, EltTy.bits .bf16 = 32 ∨ (Rect.block (s := S4096x4096) S256x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4096.size a ≤ S4096x4096.size a
  hwx3_2 : ∀ i : grid3.Coords, EltTy.bits .bf16 = 32 ∨ (Rect.block (s := S4096x4096) S256x4096.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x4096.size a ≤ S4096x4096.size a
  hwx3_3 : ∀ i : grid3.Coords, EltTy.bits .bf16 = 32 ∨ (Rect.block (s := S4096x4096) S256x4096.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .bf16 = 32 ∨ (Rect.block (s := S4096x4096) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S4096.size a
  hwx4_2 : ∀ i : grid4.Coords, EltTy.bits .f32 = 32 ∨ (Rect.block (s := S4096) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x4096.size a
  hwx4_3 : ∀ i : grid4.Coords, EltTy.bits .f32 = 32 ∨ (Rect.block (s := S4096x4096) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v7) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S256x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256x4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v8) S256x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v8) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S16x256x4096 : Shape := ⟨3, ![16, 256, 4096]⟩
abbrev S_ : Shape := ⟨0, ![]⟩
abbrev S16x256x256 : Shape := ⟨3, ![16, 256, 256]⟩
abbrev S16x256 : Shape := ⟨2, ![16, 256]⟩
abbrev S16x256x1 : Shape := ⟨3, ![16, 256, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S16x256x4096, .f32⟩
  | .hbm, ⟨25, _⟩ => ⟨S16x256x4096, .f32⟩
  | .hbm, ⟨26, _⟩ => ⟨S16x256x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16x256x256, .f32⟩
  | .hbm, ⟨32, _⟩ => ⟨S16x256x256, .f32⟩
  | .hbm, ⟨33, _⟩ => ⟨S16x256x256, .f32⟩
  | .hbm, ⟨34, _⟩ => ⟨S_, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | .hbm, ⟨39, _⟩ => ⟨S16x256x1, .f32⟩
  | .hbm, ⟨40, _⟩ => ⟨S16x256x256, .f32⟩
  | .hbm, ⟨41, _⟩ => ⟨S16x256x256, .f32⟩
  | .hbm, ⟨42, _⟩ => ⟨S16x256x256, .f32⟩
  | .hbm, ⟨43, _⟩ => ⟨S_, .f32⟩
  | .hbm, ⟨44, _⟩ => ⟨S16x256, .f32⟩
  | .hbm, ⟨45, _⟩ => ⟨S16x256x1, .f32⟩
  | .hbm, ⟨46, _⟩ => ⟨S16x256x256, .f32⟩
  | .hbm, ⟨47, _⟩ => ⟨S16x256x256, .f32⟩
  | .hbm, ⟨48, _⟩ => ⟨S16x256x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S1x4096, .f32⟩
  | .hbm, ⟨53, _⟩ => ⟨S4096x4096, .f32⟩
  | .hbm, ⟨54, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S16x256x4096 : S4096x4096.ShapeCasts S16x256x4096
  bcast_S_S16x256x256 : S_.BroadcastsInDim S16x256x256 (![] : Fin 0 → Fin S16x256x256.rank)
  reducesTo_S16x256x256_S16x256_d2 : S16x256x256.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x256_0_1_2 : S16x256x1.BroadcastsInDim S16x256x256 (![0, 1, 2] : Fin 3 → Fin S16x256x256.rank)
  shapeCasts_S16x256x4096_S4096x4096 : S16x256x4096.ShapeCasts S4096x4096
  dot_S4096x4096_S4096x4096_S4096x4096_1_0_0_1_n_n_wf : DotDims.WF S4096x4096 S4096x4096 S4096x4096 [1] [0] [0] [1] [] []
  dot_S16x256x4096_S16x256x4096_S16x256x256_2_2_1_1_0_0_wf : DotDims.WF S16x256x4096 S16x256x4096 S16x256x256 [2] [2] [1] [1] [0] [0]
  dot_S16x256x256_S16x256x4096_S16x256x4096_2_1_1_2_0_0_wf : DotDims.WF S16x256x256 S16x256x4096 S16x256x4096 [2] [1] [1] [2] [0] [0]

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S16x256x4096_S16x256x4096_S16x256x256_2_2_1_1_0_0 : DotDims S16x256x4096 S16x256x4096 S16x256x256 where
  lhsContracting := [2]
  rhsContracting := [2]
  lhsNonContracting := [1]
  rhsNonContracting := [1]
  lhsBatch := [0]
  rhsBatch := [0]
  wf := dot_S16x256x4096_S16x256x4096_S16x256x256_2_2_1_1_0_0_wf
def dot_S16x256x256_S16x256x4096_S16x256x4096_2_1_1_2_0_0 : DotDims S16x256x256 S16x256x4096 S16x256x4096 where
  lhsContracting := [2]
  rhsContracting := [1]
  lhsNonContracting := [1]
  rhsNonContracting := [2]
  lhsBatch := [0]
  rhsBatch := [0]
  wf := dot_S16x256x256_S16x256x4096_S16x256x4096_2_1_1_2_0_0_wf

class Facts : Prop extends Facts₀ where

variable [Facts]
-- ==== Proof.KLinFrame0.lean ====
import proofs.«160876_j7095285973076_1_alg».proof.Proof.Gen.Kernel.Launch
import proofs.«160876_j7095285973076_1_alg».proof.Proof.Gen.Kernel.Skeleton
import proofs.«160876_j7095285973076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 0: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input's block
    index does not move between two fetches, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an input's block
    index does not move between two fetches, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an input's block
    index does not move between two fetches, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "this is the first k-block": the reset branch is taken. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "this is the last k-block": the bias-and-store branch is taken. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last k-block nothing is stored into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1024 .bf16 := (Memref.whole cc0_stg3_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x1024 .f32 := Memref.whole cc0_scratch0
abbrev VS0 : View sig .tc .vmem S1024x1024 .f32 := scM0.view

/-- The region invariant as the launch hands it over: the accumulator at some contents, the other scoped buffers
    unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's run, case by case: the pieces each buffer ends with are found by the run -/

set_option maxHeartbeats 4000000 in
/-- First k-block: the accumulator, at anything, is reset and the first product added; the bias and output buffers are
    handed back untouched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi2 xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (xs0 : Vec F S1024x1024 .f32) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi2 xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA0 (c : Dev nD) (t : Fin cfg0.N) (h0 : t.val % 4 = 0) (h1 : ¬t.val % 4 = 3) : Vec F S1024x1024 .f32 :=
  VS0.read (Elt F) (VS0.writes (Elt F) VS0.junk (kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t)).2.1)
theorem scoverA0 (c : Dev nD) (t : Fin cfg0.N) (h0 : t.val % 4 = 0) (h1 : ¬t.val % 4 = 3) (y : S1024x1024.Idx) :
    ∃ pc ∈ (kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t)).2.1, y ∈ pc.1.set :=
  View.cover_of_tiledL _ S1024x1024.size (by sl_kernel_rfl) y

/-- The accumulator after a middle k-block, from what it held before. -/
def soutB0 (c : Dev nD) (t : Fin cfg0.N) (h0 : ¬t.val % 4 = 0) (h1 : ¬t.val % 4 = 3) (xs0 : Vec F S1024x1024 .f32) : Vec F S1024x1024 .f32 :=
  VS0.read (Elt F) (VS0.writes (Elt F) VS0.junk (kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) xs0).2.1)
theorem scoverB0 (c : Dev nD) (t : Fin cfg0.N) (h0 : ¬t.val % 4 = 0) (h1 : ¬t.val % 4 = 3) (xs0 : Vec F S1024x1024 .f32) (y : S1024x1024.Idx) :
    ∃ pc ∈ (kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) xs0).2.1, y ∈ pc.1.set :=
  View.cover_of_tiledL _ S1024x1024.size (by sl_kernel_rfl) y

/-- The accumulator and the output block after a last k-block. -/
def soutC0 (c : Dev nD) (t : Fin cfg0.N) (h0 : ¬t.val % 4 = 0) (h1 : t.val % 4 = 3) (xs0 : Vec F S1024x1024 .f32) : Vec F S1024x1024 .f32 :=
  VS0.read (Elt F) (VS0.writes (Elt F) VS0.junk (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).2.1)
theorem scoverC0 (c : Dev nD) (t : Fin cfg0.N) (h0 : ¬t.val % 4 = 0) (h1 : t.val % 4 = 3) (xs0 : Vec F S1024x1024 .f32) (y : S1024x1024.Idx) :
    ∃ pc ∈ (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).2.1, y ∈ pc.1.set :=
  View.cover_of_tiledL _ S1024x1024.size (by sl_kernel_rfl) y
def outC0 (c : Dev nD) (t : Fin cfg0.N) (h0 : ¬t.val % 4 = 0) (h1 : t.val % 4 = 3) (xs0 : Vec F S1024x1024 .f32) : Vec F S1024x1024 .bf16 :=
  VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).1)
theorem coverC0 (c : Dev nD) (t : Fin cfg0.N) (h0 : ¬t.val % 4 = 0) (h1 : t.val % 4 = 3) (xs0 : Vec F S1024x1024 .f32) (y : S1024x1024.Idx) :
    ∃ pc ∈ (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).1, y ∈ pc.1.set :=
  View.cover_of_tiledL _ S1024x1024.size (by sl_kernel_rfl) y

/-- A placeholder for the output window's buffer at the points that store nothing into it: nothing consults it. -/
def outIdle0 : Vec F S1024x1024 .bf16 := VO0_3.read (Elt F) VO0_3.junk

/-! ## The accumulation, point by point -/

/-- What the output window's buffer and the accumulator hold after the body at position `n`. -/
def outsAt0 (c : Dev nD) : (n : ℕ) → n < cfg0.N → Vec F S1024x1024 .bf16 × Vec F S1024x1024 .f32
  | 0, hn => (outIdle0, soutA0 V c ⟨0, hn⟩ (Nat.zero_mod _) (by show ¬((0 : ℕ) % 4 = 3); omega))
  | n + 1, hn =>
    if h0 : (n + 1) % 4 = 0 then (outIdle0, soutA0 V c ⟨n + 1, hn⟩ h0 (by show ¬((n + 1) % 4 = 3); omega))
    else if h1 : (n + 1) % 4 = 3 then
      (outC0 V c ⟨n + 1, hn⟩ h0 h1 (outsAt0 c n (Nat.lt_of_succ_lt hn)).2, soutC0 V c ⟨n + 1, hn⟩ h0 h1 (outsAt0 c n (Nat.lt_of_succ_lt hn)).2)
    else (outIdle0, soutB0 V c ⟨n + 1, hn⟩ h0 h1 (outsAt0 c n (Nat.lt_of_succ_lt hn)).2)

theorem outsAt0_A (c : Dev nD) (t : Fin cfg0.N) (h0 : t.val % 4 = 0) (h1 : ¬t.val % 4 = 3) :
    outsAt0 V c t.val t.isLt = (outIdle0, soutA0 V c t h0 h1) := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = (outIdle0, soutB0 V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (outC0 V c t h0 h1 (outsAt0 V c (t.val - 1) (Nat.lt_of_le_of_lt (Nat.sub_le _ _) t.isLt)).2, soutC0 V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4000000 in
/-- The body at any point: the closed forms say which case the point is in; the invariant hands the body the
    accumulator at what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold soutA0; (try dsimp only)
    by_cases hz : t.val = 0
    · rw [PhiS0_castSucc V c t, PhiS0_zero V c _ _ hz, PhiA0_eq]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA0 V c t h0 h1)
          iexact Hrb
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA0 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold outC0 soutC0; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC0 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC0 V c t h0 h1 _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold soutB0; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB0 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hrb⟩, Hg⟩
  isplitl [HS0 Hrb]
  · isplitl [HS0]
    · iexists _; iexact HS0
    iexact Hrb
  iexact Hg

end Cert.Kernel.Frames

end
-- ==== Proof.KLinFrame1.lean ====
import proofs.«160876_j7095285973076_1_alg».proof.Proof.Gen.Kernel.Launch
import proofs.«160876_j7095285973076_1_alg».proof.Proof.Gen.Kernel.Skeleton
import proofs.«160876_j7095285973076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 1: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an input's block
    index does not move between two fetches, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an input's block
    index does not move between two fetches, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an input's block
    index does not move between two fetches, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "this is the first k-block": the reset branch is taken. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "this is the last k-block": the bias-and-store branch is taken. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last k-block nothing is stored into the output window and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x1024 .bf16 := (Memref.whole cc1_stg3_0 : Memref sig .tc .vmem S1024x1024 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view

/-- The region invariant as the launch hands it over: the accumulator at some contents, the other scoped buffers
    unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run, case by case: the pieces each buffer ends with are found by the run -/

set_option maxHeartbeats 4000000 in
/-- First k-block: the accumulator, at anything, is reset and the first product added; the bias and output buffers are
    handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi2 xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (xs0 : Vec F S1024x1024 .f32) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi2 xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA1 (c : Dev nD) (t : Fin cfg1.N) (h0 : t.val % 4 = 0) (h1 : ¬t.val % 4 = 3) : Vec F S1024x1024 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2.1)
theorem scoverA1 (c : Dev nD) (t : Fin cfg1.N) (h0 : t.val % 4 = 0) (h1 : ¬t.val % 4 = 3) (y : S1024x1024.Idx) :
    ∃ pc ∈ (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2.1, y ∈ pc.1.set :=
  View.cover_of_tiledL _ S1024x1024.size (by sl_kernel_rfl) y

/-- The accumulator after a middle k-block, from what it held before. -/
def soutB1 (c : Dev nD) (t : Fin cfg1.N) (h0 : ¬t.val % 4 = 0) (h1 : ¬t.val % 4 = 3) (xs0 : Vec F S1024x1024 .f32) : Vec F S1024x1024 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) xs0).2.1)
theorem scoverB1 (c : Dev nD) (t : Fin cfg1.N) (h0 : ¬t.val % 4 = 0) (h1 : ¬t.val % 4 = 3) (xs0 : Vec F S1024x1024 .f32) (y : S1024x1024.Idx) :
    ∃ pc ∈ (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) xs0).2.1, y ∈ pc.1.set :=
  View.cover_of_tiledL _ S1024x1024.size (by sl_kernel_rfl) y

/-- The accumulator and the output block after a last k-block. -/
def soutC1 (c : Dev nD) (t : Fin cfg1.N) (h0 : ¬t.val % 4 = 0) (h1 : t.val % 4 = 3) (xs0 : Vec F S1024x1024 .f32) : Vec F S1024x1024 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).2.1)
theorem scoverC1 (c : Dev nD) (t : Fin cfg1.N) (h0 : ¬t.val % 4 = 0) (h1 : t.val % 4 = 3) (xs0 : Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).2.1, y ∈ pc.1.set :=
  View.cover_of_tiledL _ S1024x1024.size (by sl_kernel_rfl) y
def outC1 (c : Dev nD) (t : Fin cfg1.N) (h0 : ¬t.val % 4 = 0) (h1 : t.val % 4 = 3) (xs0 : Vec F S1024x1024 .f32) : Vec F S1024x1024 .bf16 :=
  VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).1)
theorem coverC1 (c : Dev nD) (t : Fin cfg1.N) (h0 : ¬t.val % 4 = 0) (h1 : t.val % 4 = 3) (xs0 : Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).1, y ∈ pc.1.set :=
  View.cover_of_tiledL _ S1024x1024.size (by sl_kernel_rfl) y

/-- A placeholder for the output window's buffer at the points that store nothing into it: nothing consults it. -/
def outIdle1 : Vec F S1024x1024 .bf16 := VO1_3.read (Elt F) VO1_3.junk

/-! ## The accumulation, point by point -/

/-- What the output window's buffer and the accumulator hold after the body at position `n`. -/
def outsAt1 (c : Dev nD) : (n : ℕ) → n < cfg1.N → Vec F S1024x1024 .bf16 × Vec F S1024x1024 .f32
  | 0, hn => (outIdle1, soutA1 V c ⟨0, hn⟩ (Nat.zero_mod _) (by show ¬((0 : ℕ) % 4 = 3); omega))
  | n + 1, hn =>
    if h0 : (n + 1) % 4 = 0 then (outIdle1, soutA1 V c ⟨n + 1, hn⟩ h0 (by show ¬((n + 1) % 4 = 3); omega))
    else if h1 : (n + 1) % 4 = 3 then
      (outC1 V c ⟨n + 1, hn⟩ h0 h1 (outsAt1 c n (Nat.lt_of_succ_lt hn)).2, soutC1 V c ⟨n + 1, hn⟩ h0 h1 (outsAt1 c n (Nat.lt_of_succ_lt hn)).2)
    else (outIdle1, soutB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, soutA1 V c t h0 h1) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (outIdle1, soutB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC1 V c t h0 h1 (outsAt1 V c (t.val - 1) (Nat.lt_of_le_of_lt (Nat.sub_le _ _) t.isLt)).2, soutC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4000000 in
/-- The body at any point: the closed forms say which case the point is in; the invariant hands the body the
    accumulator at what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold soutA1; (try dsimp only)
    by_cases hz : t.val = 0
    · rw [PhiS1_castSucc V c t, PhiS1_zero V c _ _ hz, PhiA1_eq]
      iintro ⟨⟨⟨HS0, Hrb⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA1 V c t h0 h1)
          iexact Hrb
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA1 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outC1 soutC1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC1 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC1 V c t h0 h1 _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold soutB1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB1 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's form back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrb⟩, Hg⟩
  isplitl [HS0 Hrb]
  · isplitl [HS0]
    · iexists _; iexact HS0
    iexact Hrb
  iexact Hg

end Cert.Kernel.Frames

end
-- ==== Proof.KLinFrame2.lean ====
import proofs.«160876_j7095285973076_1_alg».proof.Proof.Gen.Kernel.Launch
import proofs.«160876_j7095285973076_1_alg».proof.Proof.Gen.Kernel.Skeleton
import proofs.«160876_j7095285973076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 2: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an input's block
    index does not move between two fetches, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an input's block
    index does not move between two fetches, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an input's block
    index does not move between two fetches, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "this is the first k-block": the reset branch is taken. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "this is the last k-block": the bias-and-store branch is taken. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last k-block nothing is stored into the output window and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S1024x1024 .bf16 := (Memref.whole cc2_stg3_0 : Memref sig .tc .vmem S1024x1024 .bf16).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S1024x1024 .f32 := Memref.whole cc2_scratch0
abbrev VS2 : View sig .tc .vmem S1024x1024 .f32 := scM2.view

/-- The region invariant as the launch hands it over: the accumulator at some contents, the other scoped buffers
    unopened, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's run, case by case: the pieces each buffer ends with are found by the run -/

set_option maxHeartbeats 4000000 in
/-- First k-block: the accumulator, at anything, is reset and the first product added; the bias and output buffers are
    handed back untouched. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi2 xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (xs0 : Vec F S1024x1024 .f32) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi2 xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA2 (c : Dev nD) (t : Fin cfg2.N) (h0 : t.val % 4 = 0) (h1 : ¬t.val % 4 = 3) : Vec F S1024x1024 .f32 :=
  VS2.read (Elt F) (VS2.writes (Elt F) VS2.junk (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t)).2.1)
theorem scoverA2 (c : Dev nD) (t : Fin cfg2.N) (h0 : t.val % 4 = 0) (h1 : ¬t.val % 4 = 3) (y : S1024x1024.Idx) :
    ∃ pc ∈ (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t)).2.1, y ∈ pc.1.set :=
  View.cover_of_tiledL _ S1024x1024.size (by sl_kernel_rfl) y

/-- The accumulator after a middle k-block, from what it held before. -/
def soutB2 (c : Dev nD) (t : Fin cfg2.N) (h0 : ¬t.val % 4 = 0) (h1 : ¬t.val % 4 = 3) (xs0 : Vec F S1024x1024 .f32) : Vec F S1024x1024 .f32 :=
  VS2.read (Elt F) (VS2.writes (Elt F) VS2.junk (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) xs0).2.1)
theorem scoverB2 (c : Dev nD) (t : Fin cfg2.N) (h0 : ¬t.val % 4 = 0) (h1 : ¬t.val % 4 = 3) (xs0 : Vec F S1024x1024 .f32) (y : S1024x1024.Idx) :
    ∃ pc ∈ (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) xs0).2.1, y ∈ pc.1.set :=
  View.cover_of_tiledL _ S1024x1024.size (by sl_kernel_rfl) y

/-- The accumulator and the output block after a last k-block. -/
def soutC2 (c : Dev nD) (t : Fin cfg2.N) (h0 : ¬t.val % 4 = 0) (h1 : t.val % 4 = 3) (xs0 : Vec F S1024x1024 .f32) : Vec F S1024x1024 .f32 :=
  VS2.read (Elt F) (VS2.writes (Elt F) VS2.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).2.1)
theorem scoverC2 (c : Dev nD) (t : Fin cfg2.N) (h0 : ¬t.val % 4 = 0) (h1 : t.val % 4 = 3) (xs0 : Vec F S1024x1024 .f32) (y : S1024x1024.Idx) :
    ∃ pc ∈ (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).2.1, y ∈ pc.1.set :=
  View.cover_of_tiledL _ S1024x1024.size (by sl_kernel_rfl) y
def outC2 (c : Dev nD) (t : Fin cfg2.N) (h0 : ¬t.val % 4 = 0) (h1 : t.val % 4 = 3) (xs0 : Vec F S1024x1024 .f32) : Vec F S1024x1024 .bf16 :=
  VO2_3.read (Elt F) (VO2_3.writes (Elt F) VO2_3.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).1)
theorem coverC2 (c : Dev nD) (t : Fin cfg2.N) (h0 : ¬t.val % 4 = 0) (h1 : t.val % 4 = 3) (xs0 : Vec F S1024x1024 .f32) (y : S1024x1024.Idx) :
    ∃ pc ∈ (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).1, y ∈ pc.1.set :=
  View.cover_of_tiledL _ S1024x1024.size (by sl_kernel_rfl) y

/-- A placeholder for the output window's buffer at the points that store nothing into it: nothing consults it. -/
def outIdle2 : Vec F S1024x1024 .bf16 := VO2_3.read (Elt F) VO2_3.junk

/-! ## The accumulation, point by point -/

/-- What the output window's buffer and the accumulator hold after the body at position `n`. -/
def outsAt2 (c : Dev nD) : (n : ℕ) → n < cfg2.N → Vec F S1024x1024 .bf16 × Vec F S1024x1024 .f32
  | 0, hn => (outIdle2, soutA2 V c ⟨0, hn⟩ (Nat.zero_mod _) (by show ¬((0 : ℕ) % 4 = 3); omega))
  | n + 1, hn =>
    if h0 : (n + 1) % 4 = 0 then (outIdle2, soutA2 V c ⟨n + 1, hn⟩ h0 (by show ¬((n + 1) % 4 = 3); omega))
    else if h1 : (n + 1) % 4 = 3 then
      (outC2 V c ⟨n + 1, hn⟩ h0 h1 (outsAt2 c n (Nat.lt_of_succ_lt hn)).2, soutC2 V c ⟨n + 1, hn⟩ h0 h1 (outsAt2 c n (Nat.lt_of_succ_lt hn)).2)
    else (outIdle2, soutB2 V c ⟨n + 1, hn⟩ h0 h1 (outsAt2 c n (Nat.lt_of_succ_lt hn)).2)

theorem outsAt2_A (c : Dev nD) (t : Fin cfg2.N) (h0 : t.val % 4 = 0) (h1 : ¬t.val % 4 = 3) :
    outsAt2 V c t.val t.isLt = (outIdle2, soutA2 V c t h0 h1) := by
  obtain ⟨n, hn⟩ := t
  cases n with
  | zero => rfl
  | succ n => exact (dif_pos h0).trans rfl

theorem outsAt2_B (c : Dev nD) (t : Fin cfg2.N) (h0 : ¬t.val % 4 = 0) (h1 : ¬t.val % 4 = 3) :
    outsAt2 V c t.val t.isLt = (outIdle2, soutB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (outC2 V c t h0 h1 (outsAt2 V c (t.val - 1) (Nat.lt_of_le_of_lt (Nat.sub_le _ _) t.isLt)).2, soutC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4000000 in
/-- The body at any point: the closed forms say which case the point is in; the invariant hands the body the
    accumulator at what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 64 := lt_of_lt_of_eq t.isLt (show cfg2.N = 64 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold soutA2; (try dsimp only)
    by_cases hz : t.val = 0
    · rw [PhiS2_castSucc V c t, PhiS2_zero V c _ _ hz, PhiA2_eq]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA2 V c t h0 h1)
          iexact Hrb
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA2 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold outC2 soutC2; (try dsimp only)
      rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC2 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC2 V c t h0 h1 _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold soutB2; (try dsimp only)
      rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB2 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's form back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hrb⟩, Hg⟩
  isplitl [HS0 Hrb]
  · isplitl [HS0]
    · iexists _; iexact HS0
    iexact Hrb
  iexact Hg

end Cert.Kernel.Frames

end
-- ==== Proof.KAttnFrame.lean ====
import proofs.«160876_j7095285973076_1_alg».proof.Proof.Gen.Kernel.Launch
import proofs.«160876_j7095285973076_1_alg».proof.Proof.Gen.Kernel.Skeleton
import proofs.«160876_j7095285973076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention region: one chunk of 256 rows per grid point, three input blocks, one output block stored whole -/

/-- Window `w`'s block at chunk `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an input's block
    index does not move between two fetches, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an input's block
    index does not move between two fetches, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: an input's block
    index does not move between two fetches, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 256 x 4096 block: every load and the one store of the body go through it. -/
abbrev r3 : Rect S256x4096 := Rect.unit (s := S256x4096) ![0, 0] S256x4096.size inb_S256x4096_S256x4096_0_0

/-- What the body leaves in the output block: its single store, the body's arithmetic of the three input blocks. -/
def out3_3 (x0 x1 x2 : Vec F S256x4096 .bf16) : Vec F S256x4096 .bf16 :=
  View.canon [⟨r3, k3_pay1 (View.ld x0 r3) (View.ld x1 r3) (View.ld x2 r3)⟩]

/-- The single store covers the block. -/
theorem cover3_3 (p0 : Vec F S256x4096 .bf16) (y : S256x4096.Idx) :
    ∃ pc ∈ ([⟨r3, p0⟩] : List (View.Piece (Elt F) S256x4096 .bf16)), y ∈ pc.1.set :=
  View.cover_of_tiled [⟨r3, p0⟩] S256x4096.size (by rfl) y

set_option maxHeartbeats 2000000 in
/-- The body on whole staging memrefs: the three inputs at read contents, the output at anything, runs to the
    continuation holding the inputs as they were and the output at `out3_3` of them. -/
theorem sound_kernel3 (c : Dev nD) (E : Set ℕ) (i : grid3.Coords)
    (arg1 : Memref sig .tc .vmem S256x4096 .bf16) (harg1 : arg1.IsWhole) (arg2 : Memref sig .tc .vmem S256x4096 .bf16) (harg2 : arg2.IsWhole)
    (arg3 : Memref sig .tc .vmem S256x4096 .bf16) (harg3 : arg3.IsWhole) (arg4 : Memref sig .tc .vmem S256x4096 .bf16) (harg4 : arg4.IsWhole)
    (x0 x1 x2 : Vec F S256x4096 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__attn_kernel i arg1 harg1 arg2 harg2 arg3 harg3 arg4 harg4) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the attention region on core `c`: the arrays as the region finds them; after the body at
    chunk `t` each input's buffer at its block and the output's at `out3_3` of the three blocks; the invariant the
    scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at chunk `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention region, at every chunk. -/
theorem body_obligation3 (c : Dev nD) : BodyObligation (dat3 (F := F) V c) (defs₀ (F := F)) Variants.none () Set.univ := fun t => by
  rw [bigSep_W3, bigSep_W3]
  exact sound_body3 V c t

end Cert.Kernel.Frames

end
-- ==== Proof.KLinFrame4.lean ====
import proofs.«160876_j7095285973076_1_alg».proof.Proof.Gen.Kernel.Launch
import proofs.«160876_j7095285973076_1_alg».proof.Proof.Gen.Kernel.Skeleton
import proofs.«160876_j7095285973076_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 4: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an input's block
    index does not move between two fetches, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an input's block
    index does not move between two fetches, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an input's block
    index does not move between two fetches, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, decided over the grid -/

/-- "this is the first k-block": the reset branch is taken. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- "this is the last k-block": the bias-and-store branch is taken. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last k-block nothing is stored into the output window and its block is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

abbrev VO4_3 : View sig .tc .vmem S1024x1024 .f32 := (Memref.whole cc4_stg3_0 : Memref sig .tc .vmem S1024x1024 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4 : Memref sig .tc .vmem S1024x1024 .f32 := Memref.whole cc4_scratch0
abbrev VS4 : View sig .tc .vmem S1024x1024 .f32 := scM4.view

/-- The region invariant as the launch hands it over: the accumulator at some contents, the other scoped buffers
    unopened, the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body's run, case by case: the pieces each buffer ends with are found by the run -/

set_option maxHeartbeats 4000000 in
/-- First k-block: the accumulator, at anything, is reset and the first product added; the bias and output buffers are
    handed back untouched. -/
noncomputable def kernelRun4_A (c : Dev nD) (i : grid4.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .bf16) (x1 : Vec F S1024x1024 .bf16) :
    Σ' (L3 : List (View.Piece (Elt F) S1024x1024 .f32)), { LS0 : List (View.Piece (Elt F) S1024x1024 .f32) //
      ∀ (xi2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi2 xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun4_B (c : Dev nD) (i : grid4.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .bf16) (x1 : Vec F S1024x1024 .bf16) (xs0 : Vec F S1024x1024 .f32) :
    Σ' (L3 : List (View.Piece (Elt F) S1024x1024 .f32)), { LS0 : List (View.Piece (Elt F) S1024x1024 .f32) //
      ∀ (xi2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi2 xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun4_C (c : Dev nD) (i : grid4.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA4 (c : Dev nD) (t : Fin cfg4.N) (h0 : t.val % 4 = 0) (h1 : ¬t.val % 4 = 3) : Vec F S1024x1024 .f32 :=
  VS4.read (Elt F) (VS4.writes (Elt F) VS4.junk (kernelRun4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t)).2.1)
theorem scoverA4 (c : Dev nD) (t : Fin cfg4.N) (h0 : t.val % 4 = 0) (h1 : ¬t.val % 4 = 3) (y : S1024x1024.Idx) :
    ∃ pc ∈ (kernelRun4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t)).2.1, y ∈ pc.1.set :=
  View.cover_of_tiledL _ S1024x1024.size (by sl_kernel_rfl) y

/-- The accumulator after a middle k-block, from what it held before. -/
def soutB4 (c : Dev nD) (t : Fin cfg4.N) (h0 : ¬t.val % 4 = 0) (h1 : ¬t.val % 4 = 3) (xs0 : Vec F S1024x1024 .f32) : Vec F S1024x1024 .f32 :=
  VS4.read (Elt F) (VS4.writes (Elt F) VS4.junk (kernelRun4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) xs0).2.1)
theorem scoverB4 (c : Dev nD) (t : Fin cfg4.N) (h0 : ¬t.val % 4 = 0) (h1 : ¬t.val % 4 = 3) (xs0 : Vec F S1024x1024 .f32) (y : S1024x1024.Idx) :
    ∃ pc ∈ (kernelRun4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) xs0).2.1, y ∈ pc.1.set :=
  View.cover_of_tiledL _ S1024x1024.size (by sl_kernel_rfl) y

/-- The accumulator and the output block after a last k-block. -/
def soutC4 (c : Dev nD) (t : Fin cfg4.N) (h0 : ¬t.val % 4 = 0) (h1 : t.val % 4 = 3) (xs0 : Vec F S1024x1024 .f32) : Vec F S1024x1024 .f32 :=
  VS4.read (Elt F) (VS4.writes (Elt F) VS4.junk (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).2.1)
theorem scoverC4 (c : Dev nD) (t : Fin cfg4.N) (h0 : ¬t.val % 4 = 0) (h1 : t.val % 4 = 3) (xs0 : Vec F S1024x1024 .f32) (y : S1024x1024.Idx) :
    ∃ pc ∈ (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).2.1, y ∈ pc.1.set :=
  View.cover_of_tiledL _ S1024x1024.size (by sl_kernel_rfl) y
def outC4 (c : Dev nD) (t : Fin cfg4.N) (h0 : ¬t.val % 4 = 0) (h1 : t.val % 4 = 3) (xs0 : Vec F S1024x1024 .f32) : Vec F S1024x1024 .f32 :=
  VO4_3.read (Elt F) (VO4_3.writes (Elt F) VO4_3.junk (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).1)
theorem coverC4 (c : Dev nD) (t : Fin cfg4.N) (h0 : ¬t.val % 4 = 0) (h1 : t.val % 4 = 3) (xs0 : Vec F S1024x1024 .f32) (y : S1024x1024.Idx) :
    ∃ pc ∈ (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).1, y ∈ pc.1.set :=
  View.cover_of_tiledL _ S1024x1024.size (by sl_kernel_rfl) y

/-- A placeholder for the output window's buffer at the points that store nothing into it: nothing consults it. -/
def outIdle4 : Vec F S1024x1024 .f32 := VO4_3.read (Elt F) VO4_3.junk

/-! ## The accumulation, point by point -/

/-- What the output window's buffer and the accumulator hold after the body at position `n`. -/
def outsAt4 (c : Dev nD) : (n : ℕ) → n < cfg4.N → Vec F S1024x1024 .f32 × Vec F S1024x1024 .f32
  | 0, hn => (outIdle4, soutA4 V c ⟨0, hn⟩ (Nat.zero_mod _) (by show ¬((0 : ℕ) % 4 = 3); omega))
  | n + 1, hn =>
    if h0 : (n + 1) % 4 = 0 then (outIdle4, soutA4 V c ⟨n + 1, hn⟩ h0 (by show ¬((n + 1) % 4 = 3); omega))
    else if h1 : (n + 1) % 4 = 3 then
      (outC4 V c ⟨n + 1, hn⟩ h0 h1 (outsAt4 c n (Nat.lt_of_succ_lt hn)).2, soutC4 V c ⟨n + 1, hn⟩ h0 h1 (outsAt4 c n (Nat.lt_of_succ_lt hn)).2)
    else (outIdle4, soutB4 V c ⟨n + 1, hn⟩ h0 h1 (outsAt4 c n (Nat.lt_of_succ_lt hn)).2)

theorem outsAt4_A (c : Dev nD) (t : Fin cfg4.N) (h0 : t.val % 4 = 0) (h1 : ¬t.val % 4 = 3) :
    outsAt4 V c t.val t.isLt = (outIdle4, soutA4 V c t h0 h1) := by
  obtain ⟨n, hn⟩ := t
  cases n with
  | zero => rfl
  | succ n => exact (dif_pos h0).trans rfl

theorem outsAt4_B (c : Dev nD) (t : Fin cfg4.N) (h0 : ¬t.val % 4 = 0) (h1 : ¬t.val % 4 = 3) :
    outsAt4 V c t.val t.isLt = (outIdle4, soutB4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (outC4 V c t h0 h1 (outsAt4 V c (t.val - 1) (Nat.lt_of_le_of_lt (Nat.sub_le _ _) t.isLt)).2, soutC4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4000000 in
/-- The body at any point: the closed forms say which case the point is in; the invariant hands the body the
    accumulator at what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 64 := lt_of_lt_of_eq t.isLt (show cfg4.N = 64 from N_4)
  by_cases h0 : t.val % 4 = 0
  · have h1 : ¬t.val % 4 = 3 := by omega
    rw [Dat.leavesExact_idle (dat4 V c) 3 t (idleAt4_3 t (fun h => h1 ((hcond4_1 t).mp h))) (noFlush4_3 t (fun h => h1 ((hcond4_1 t).mp h)))]
    rw [outsAt4_A V c t h0 h1]
    unfold soutA4; (try dsimp only)
    by_cases hz : t.val = 0
    · rw [PhiS4_castSucc V c t, PhiS4_zero V c _ _ hz, PhiA4_eq]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA4 V c t h0 h1)
          iexact Hrb
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA4 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold outC4 soutC4; (try dsimp only)
      rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC4 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC4 V c t h0 h1 _)
    · rw [Dat.leavesExact_idle (dat4 V c) 3 t (idleAt4_3 t (fun h => h1 ((hcond4_1 t).mp h))) (noFlush4_3 t (fun h => h1 ((hcond4_1 t).mp h)))]
      rw [outsAt4_B V c t h0 h1]
      unfold soutB4; (try dsimp only)
      rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB4 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the launch's form back: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), PhiA4_eq]
  iintro ⟨⟨HS0, Hrb⟩, Hg⟩
  isplitl [HS0 Hrb]
  · isplitl [HS0]
    · iexists _; iexact HS0
    iexact Hrb
  iexact Hg

end Cert.Kernel.Frames

end
-- ==== Proof.KRunFrame.lean ====
import proofs.«160876_j7095285973076_1_alg».proof.Proof.Gen.Kernel.Launch
import proofs.«160876_j7095285973076_1_alg».proof.Proof.Gen.Kernel.Skeleton
import proofs.«160876_j7095285973076_1_alg».proof.Proof.Gen.Kernel.Points
import proofs.«160876_j7095285973076_1_alg».proof.Proof.KLinFrame0
import proofs.«160876_j7095285973076_1_alg».proof.Proof.KLinFrame1
import proofs.«160876_j7095285973076_1_alg».proof.Proof.KLinFrame2
import proofs.«160876_j7095285973076_1_alg».proof.Proof.KAttnFrame
import proofs.«160876_j7095285973076_1_alg».proof.Proof.KLinFrame4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's six items from the launch to the return

## The buffer contents at each boundary, a fold through @main -/

/-- Core `c`'s buffers at launch. -/
abbrev W0 : Dev nD → Valuation τ sig (Elt F) := fun c b => (s₀ m ρ).mem ((c : Dev nD), b)
/-- After the host stretch (the five changes of format): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-! ### The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := (W4_arr m ρ c 2).trans (((dat2 (V3 m ρ) c).arrAt_in 2 rfl _).trans (A_eq2 (V3 m ρ) c 2))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 2).trans (((dat4 (V5 m ρ) c).arrAt_in 2 rfl _).trans (A_eq4 (V5 m ρ) c 2))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg8) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`; its arrays split
    out of the unscoped buffers and put back at the exit contents; the generator register and the scoped buffers into the
    region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split
    out of the unscoped buffers and put back at the exit contents; the generator register and the scoped buffers into the
    region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`; its arrays split
    out of the unscoped buffers and put back at the exit contents; the generator register and the scoped buffers into the
    region invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`; its arrays split
    out of the unscoped buffers and put back at the exit contents; the generator register and the scoped buffers into the
    region invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`; its arrays split
    out of the unscoped buffers and put back at the exit contents; the generator register and the scoped buffers into the
    region invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec4 c ⊢ (pdats m ρ 4 c).Φ 0 from hin4 (V5 m ρ) c)
    unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

/-- The run with the result named: the last region's output array after its write-backs, beside the arguments as launched. -/
theorem run_value : θ_run defs (onTc (τ := τ) (main (F := F))) ⟨m, fun _ => 0, ρ⟩ (fun r => ∀ c : Dev nD,
      r.2.mem ((c.tc : Thread nD τ).loc main_v9) = (dat4 (V5 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (W6_arr m ρ c 3),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

end Cert.Kernel.Frames

end
-- ==== Proof.LinFrame0.lean ====
import proofs.«160876_j7095285973076_1_alg».proof.Proof.Gen.KernelIdeal.Launch
import proofs.«160876_j7095285973076_1_alg».proof.Proof.Gen.KernelIdeal.Skeleton
import proofs.«160876_j7095285973076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 0: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input's block
    index does not move between two fetches, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an input's block
    index does not move between two fetches, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an input's block
    index does not move between two fetches, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "this is the first k-block": the reset branch is taken. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "this is the last k-block": the bias-and-store branch is taken. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last k-block nothing is stored into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1024 .bf16 := (Memref.whole cc0_stg3_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x1024 .f32 := Memref.whole cc0_scratch0
abbrev VS0 : View sig .tc .vmem S1024x1024 .f32 := scM0.view

/-- The region invariant as the launch hands it over: the accumulator at some contents, the other scoped buffers
    unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's run, case by case: the pieces each buffer ends with are found by the run -/

set_option maxHeartbeats 4000000 in
/-- First k-block: the accumulator, at anything, is reset and the first product added; the bias and output buffers are
    handed back untouched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi2 xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (xs0 : Vec F S1024x1024 .f32) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi2 xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA0 (c : Dev nD) (t : Fin cfg0.N) (h0 : t.val % 4 = 0) (h1 : ¬t.val % 4 = 3) : Vec F S1024x1024 .f32 :=
  VS0.read (Elt F) (VS0.writes (Elt F) VS0.junk (kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t)).2.1)
theorem scoverA0 (c : Dev nD) (t : Fin cfg0.N) (h0 : t.val % 4 = 0) (h1 : ¬t.val % 4 = 3) (y : S1024x1024.Idx) :
    ∃ pc ∈ (kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t)).2.1, y ∈ pc.1.set :=
  View.cover_of_tiledL _ S1024x1024.size (by sl_kernel_rfl) y

/-- The accumulator after a middle k-block, from what it held before. -/
def soutB0 (c : Dev nD) (t : Fin cfg0.N) (h0 : ¬t.val % 4 = 0) (h1 : ¬t.val % 4 = 3) (xs0 : Vec F S1024x1024 .f32) : Vec F S1024x1024 .f32 :=
  VS0.read (Elt F) (VS0.writes (Elt F) VS0.junk (kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) xs0).2.1)
theorem scoverB0 (c : Dev nD) (t : Fin cfg0.N) (h0 : ¬t.val % 4 = 0) (h1 : ¬t.val % 4 = 3) (xs0 : Vec F S1024x1024 .f32) (y : S1024x1024.Idx) :
    ∃ pc ∈ (kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) xs0).2.1, y ∈ pc.1.set :=
  View.cover_of_tiledL _ S1024x1024.size (by sl_kernel_rfl) y

/-- The accumulator and the output block after a last k-block. -/
def soutC0 (c : Dev nD) (t : Fin cfg0.N) (h0 : ¬t.val % 4 = 0) (h1 : t.val % 4 = 3) (xs0 : Vec F S1024x1024 .f32) : Vec F S1024x1024 .f32 :=
  VS0.read (Elt F) (VS0.writes (Elt F) VS0.junk (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).2.1)
theorem scoverC0 (c : Dev nD) (t : Fin cfg0.N) (h0 : ¬t.val % 4 = 0) (h1 : t.val % 4 = 3) (xs0 : Vec F S1024x1024 .f32) (y : S1024x1024.Idx) :
    ∃ pc ∈ (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).2.1, y ∈ pc.1.set :=
  View.cover_of_tiledL _ S1024x1024.size (by sl_kernel_rfl) y
def outC0 (c : Dev nD) (t : Fin cfg0.N) (h0 : ¬t.val % 4 = 0) (h1 : t.val % 4 = 3) (xs0 : Vec F S1024x1024 .f32) : Vec F S1024x1024 .bf16 :=
  VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).1)
theorem coverC0 (c : Dev nD) (t : Fin cfg0.N) (h0 : ¬t.val % 4 = 0) (h1 : t.val % 4 = 3) (xs0 : Vec F S1024x1024 .f32) (y : S1024x1024.Idx) :
    ∃ pc ∈ (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs0).1, y ∈ pc.1.set :=
  View.cover_of_tiledL _ S1024x1024.size (by sl_kernel_rfl) y

/-- A placeholder for the output window's buffer at the points that store nothing into it: nothing consults it. -/
def outIdle0 : Vec F S1024x1024 .bf16 := VO0_3.read (Elt F) VO0_3.junk

/-! ## The accumulation, point by point -/

/-- What the output window's buffer and the accumulator hold after the body at position `n`. -/
def outsAt0 (c : Dev nD) : (n : ℕ) → n < cfg0.N → Vec F S1024x1024 .bf16 × Vec F S1024x1024 .f32
  | 0, hn => (outIdle0, soutA0 V c ⟨0, hn⟩ (Nat.zero_mod _) (by show ¬((0 : ℕ) % 4 = 3); omega))
  | n + 1, hn =>
    if h0 : (n + 1) % 4 = 0 then (outIdle0, soutA0 V c ⟨n + 1, hn⟩ h0 (by show ¬((n + 1) % 4 = 3); omega))
    else if h1 : (n + 1) % 4 = 3 then
      (outC0 V c ⟨n + 1, hn⟩ h0 h1 (outsAt0 c n (Nat.lt_of_succ_lt hn)).2, soutC0 V c ⟨n + 1, hn⟩ h0 h1 (outsAt0 c n (Nat.lt_of_succ_lt hn)).2)
    else (outIdle0, soutB0 V c ⟨n + 1, hn⟩ h0 h1 (outsAt0 c n (Nat.lt_of_succ_lt hn)).2)

theorem outsAt0_A (c : Dev nD) (t : Fin cfg0.N) (h0 : t.val % 4 = 0) (h1 : ¬t.val % 4 = 3) :
    outsAt0 V c t.val t.isLt = (outIdle0, soutA0 V c t h0 h1) := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = (outIdle0, soutB0 V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (outC0 V c t h0 h1 (outsAt0 V c (t.val - 1) (Nat.lt_of_le_of_lt (Nat.sub_le _ _) t.isLt)).2, soutC0 V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4000000 in
/-- The body at any point: the closed forms say which case the point is in; the invariant hands the body the
    accumulator at what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold soutA0; (try dsimp only)
    by_cases hz : t.val = 0
    · rw [PhiS0_castSucc V c t, PhiS0_zero V c _ _ hz, PhiA0_eq]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA0 V c t h0 h1)
          iexact Hrb
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA0 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold outC0 soutC0; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC0 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC0 V c t h0 h1 _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold soutB0; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB0 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hrb⟩, Hg⟩
  isplitl [HS0 Hrb]
  · isplitl [HS0]
    · iexists _; iexact HS0
    iexact Hrb
  iexact Hg

end Cert.KernelIdeal.Frames

end
-- ==== Proof.LinFrame1.lean ====
import proofs.«160876_j7095285973076_1_alg».proof.Proof.Gen.KernelIdeal.Launch
import proofs.«160876_j7095285973076_1_alg».proof.Proof.Gen.KernelIdeal.Skeleton
import proofs.«160876_j7095285973076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 1: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an input's block
    index does not move between two fetches, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an input's block
    index does not move between two fetches, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an input's block
    index does not move between two fetches, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "this is the first k-block": the reset branch is taken. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "this is the last k-block": the bias-and-store branch is taken. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last k-block nothing is stored into the output window and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x1024 .bf16 := (Memref.whole cc1_stg3_0 : Memref sig .tc .vmem S1024x1024 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view

/-- The region invariant as the launch hands it over: the accumulator at some contents, the other scoped buffers
    unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run, case by case: the pieces each buffer ends with are found by the run -/

set_option maxHeartbeats 4000000 in
/-- First k-block: the accumulator, at anything, is reset and the first product added; the bias and output buffers are
    handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi2 xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (xs0 : Vec F S1024x1024 .f32) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi2 xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA1 (c : Dev nD) (t : Fin cfg1.N) (h0 : t.val % 4 = 0) (h1 : ¬t.val % 4 = 3) : Vec F S1024x1024 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2.1)
theorem scoverA1 (c : Dev nD) (t : Fin cfg1.N) (h0 : t.val % 4 = 0) (h1 : ¬t.val % 4 = 3) (y : S1024x1024.Idx) :
    ∃ pc ∈ (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)).2.1, y ∈ pc.1.set :=
  View.cover_of_tiledL _ S1024x1024.size (by sl_kernel_rfl) y

/-- The accumulator after a middle k-block, from what it held before. -/
def soutB1 (c : Dev nD) (t : Fin cfg1.N) (h0 : ¬t.val % 4 = 0) (h1 : ¬t.val % 4 = 3) (xs0 : Vec F S1024x1024 .f32) : Vec F S1024x1024 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) xs0).2.1)
theorem scoverB1 (c : Dev nD) (t : Fin cfg1.N) (h0 : ¬t.val % 4 = 0) (h1 : ¬t.val % 4 = 3) (xs0 : Vec F S1024x1024 .f32) (y : S1024x1024.Idx) :
    ∃ pc ∈ (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) xs0).2.1, y ∈ pc.1.set :=
  View.cover_of_tiledL _ S1024x1024.size (by sl_kernel_rfl) y

/-- The accumulator and the output block after a last k-block. -/
def soutC1 (c : Dev nD) (t : Fin cfg1.N) (h0 : ¬t.val % 4 = 0) (h1 : t.val % 4 = 3) (xs0 : Vec F S1024x1024 .f32) : Vec F S1024x1024 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).2.1)
theorem scoverC1 (c : Dev nD) (t : Fin cfg1.N) (h0 : ¬t.val % 4 = 0) (h1 : t.val % 4 = 3) (xs0 : Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).2.1, y ∈ pc.1.set :=
  View.cover_of_tiledL _ S1024x1024.size (by sl_kernel_rfl) y
def outC1 (c : Dev nD) (t : Fin cfg1.N) (h0 : ¬t.val % 4 = 0) (h1 : t.val % 4 = 3) (xs0 : Vec F S1024x1024 .f32) : Vec F S1024x1024 .bf16 :=
  VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).1)
theorem coverC1 (c : Dev nD) (t : Fin cfg1.N) (h0 : ¬t.val % 4 = 0) (h1 : t.val % 4 = 3) (xs0 : Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) xs0).1, y ∈ pc.1.set :=
  View.cover_of_tiledL _ S1024x1024.size (by sl_kernel_rfl) y

/-- A placeholder for the output window's buffer at the points that store nothing into it: nothing consults it. -/
def outIdle1 : Vec F S1024x1024 .bf16 := VO1_3.read (Elt F) VO1_3.junk

/-! ## The accumulation, point by point -/

/-- What the output window's buffer and the accumulator hold after the body at position `n`. -/
def outsAt1 (c : Dev nD) : (n : ℕ) → n < cfg1.N → Vec F S1024x1024 .bf16 × Vec F S1024x1024 .f32
  | 0, hn => (outIdle1, soutA1 V c ⟨0, hn⟩ (Nat.zero_mod _) (by show ¬((0 : ℕ) % 4 = 3); omega))
  | n + 1, hn =>
    if h0 : (n + 1) % 4 = 0 then (outIdle1, soutA1 V c ⟨n + 1, hn⟩ h0 (by show ¬((n + 1) % 4 = 3); omega))
    else if h1 : (n + 1) % 4 = 3 then
      (outC1 V c ⟨n + 1, hn⟩ h0 h1 (outsAt1 c n (Nat.lt_of_succ_lt hn)).2, soutC1 V c ⟨n + 1, hn⟩ h0 h1 (outsAt1 c n (Nat.lt_of_succ_lt hn)).2)
    else (outIdle1, soutB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, soutA1 V c t h0 h1) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (outIdle1, soutB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC1 V c t h0 h1 (outsAt1 V c (t.val - 1) (Nat.lt_of_le_of_lt (Nat.sub_le _ _) t.isLt)).2, soutC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4000000 in
/-- The body at any point: the closed forms say which case the point is in; the invariant hands the body the
    accumulator at what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold soutA1; (try dsimp only)
    by_cases hz : t.val = 0
    · rw [PhiS1_castSucc V c t, PhiS1_zero V c _ _ hz, PhiA1_eq]
      iintro ⟨⟨⟨HS0, Hrb⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA1 V c t h0 h1)
          iexact Hrb
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA1 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outC1 soutC1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC1 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC1 V c t h0 h1 _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold soutB1; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB1 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's form back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrb⟩, Hg⟩
  isplitl [HS0 Hrb]
  · isplitl [HS0]
    · iexists _; iexact HS0
    iexact Hrb
  iexact Hg

end Cert.KernelIdeal.Frames

end
-- ==== Proof.LinFrame2.lean ====
import proofs.«160876_j7095285973076_1_alg».proof.Proof.Gen.KernelIdeal.Launch
import proofs.«160876_j7095285973076_1_alg».proof.Proof.Gen.KernelIdeal.Skeleton
import proofs.«160876_j7095285973076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 2: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an input's block
    index does not move between two fetches, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an input's block
    index does not move between two fetches, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an input's block
    index does not move between two fetches, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "this is the first k-block": the reset branch is taken. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "this is the last k-block": the bias-and-store branch is taken. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last k-block nothing is stored into the output window and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S1024x1024 .bf16 := (Memref.whole cc2_stg3_0 : Memref sig .tc .vmem S1024x1024 .bf16).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S1024x1024 .f32 := Memref.whole cc2_scratch0
abbrev VS2 : View sig .tc .vmem S1024x1024 .f32 := scM2.view

/-- The region invariant as the launch hands it over: the accumulator at some contents, the other scoped buffers
    unopened, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's run, case by case: the pieces each buffer ends with are found by the run -/

set_option maxHeartbeats 4000000 in
/-- First k-block: the accumulator, at anything, is reset and the first product added; the bias and output buffers are
    handed back untouched. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi2 xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (xs0 : Vec F S1024x1024 .f32) :
    Σ' (L3 : List (View.Piece (Elt F) S1024x1024 .bf16)), { LS0 : List (View.Piece (Elt F) S1024x1024 .f32) //
      ∀ (xi2 : Vec F S1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi2 xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA2 (c : Dev nD) (t : Fin cfg2.N) (h0 : t.val % 4 = 0) (h1 : ¬t.val % 4 = 3) : Vec F S1024x1024 .f32 :=
  VS2.read (Elt F) (VS2.writes (Elt F) VS2.junk (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t)).2.1)
theorem scoverA2 (c : Dev nD) (t : Fin cfg2.N) (h0 : t.val % 4 = 0) (h1 : ¬t.val % 4 = 3) (y : S1024x1024.Idx) :
    ∃ pc ∈ (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t)).2.1, y ∈ pc.1.set :=
  View.cover_of_tiledL _ S1024x1024.size (by sl_kernel_rfl) y

/-- The accumulator after a middle k-block, from what it held before. -/
def soutB2 (c : Dev nD) (t : Fin cfg2.N) (h0 : ¬t.val % 4 = 0) (h1 : ¬t.val % 4 = 3) (xs0 : Vec F S1024x1024 .f32) : Vec F S1024x1024 .f32 :=
  VS2.read (Elt F) (VS2.writes (Elt F) VS2.junk (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) xs0).2.1)
theorem scoverB2 (c : Dev nD) (t : Fin cfg2.N) (h0 : ¬t.val % 4 = 0) (h1 : ¬t.val % 4 = 3) (xs0 : Vec F S1024x1024 .f32) (y : S1024x1024.Idx) :
    ∃ pc ∈ (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) xs0).2.1, y ∈ pc.1.set :=
  View.cover_of_tiledL _ S1024x1024.size (by sl_kernel_rfl) y

/-- The accumulator and the output block after a last k-block. -/
def soutC2 (c : Dev nD) (t : Fin cfg2.N) (h0 : ¬t.val % 4 = 0) (h1 : t.val % 4 = 3) (xs0 : Vec F S1024x1024 .f32) : Vec F S1024x1024 .f32 :=
  VS2.read (Elt F) (VS2.writes (Elt F) VS2.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).2.1)
theorem scoverC2 (c : Dev nD) (t : Fin cfg2.N) (h0 : ¬t.val % 4 = 0) (h1 : t.val % 4 = 3) (xs0 : Vec F S1024x1024 .f32) (y : S1024x1024.Idx) :
    ∃ pc ∈ (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).2.1, y ∈ pc.1.set :=
  View.cover_of_tiledL _ S1024x1024.size (by sl_kernel_rfl) y
def outC2 (c : Dev nD) (t : Fin cfg2.N) (h0 : ¬t.val % 4 = 0) (h1 : t.val % 4 = 3) (xs0 : Vec F S1024x1024 .f32) : Vec F S1024x1024 .bf16 :=
  VO2_3.read (Elt F) (VO2_3.writes (Elt F) VO2_3.junk (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).1)
theorem coverC2 (c : Dev nD) (t : Fin cfg2.N) (h0 : ¬t.val % 4 = 0) (h1 : t.val % 4 = 3) (xs0 : Vec F S1024x1024 .f32) (y : S1024x1024.Idx) :
    ∃ pc ∈ (kernelRun2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs0).1, y ∈ pc.1.set :=
  View.cover_of_tiledL _ S1024x1024.size (by sl_kernel_rfl) y

/-- A placeholder for the output window's buffer at the points that store nothing into it: nothing consults it. -/
def outIdle2 : Vec F S1024x1024 .bf16 := VO2_3.read (Elt F) VO2_3.junk

/-! ## The accumulation, point by point -/

/-- What the output window's buffer and the accumulator hold after the body at position `n`. -/
def outsAt2 (c : Dev nD) : (n : ℕ) → n < cfg2.N → Vec F S1024x1024 .bf16 × Vec F S1024x1024 .f32
  | 0, hn => (outIdle2, soutA2 V c ⟨0, hn⟩ (Nat.zero_mod _) (by show ¬((0 : ℕ) % 4 = 3); omega))
  | n + 1, hn =>
    if h0 : (n + 1) % 4 = 0 then (outIdle2, soutA2 V c ⟨n + 1, hn⟩ h0 (by show ¬((n + 1) % 4 = 3); omega))
    else if h1 : (n + 1) % 4 = 3 then
      (outC2 V c ⟨n + 1, hn⟩ h0 h1 (outsAt2 c n (Nat.lt_of_succ_lt hn)).2, soutC2 V c ⟨n + 1, hn⟩ h0 h1 (outsAt2 c n (Nat.lt_of_succ_lt hn)).2)
    else (outIdle2, soutB2 V c ⟨n + 1, hn⟩ h0 h1 (outsAt2 c n (Nat.lt_of_succ_lt hn)).2)

theorem outsAt2_A (c : Dev nD) (t : Fin cfg2.N) (h0 : t.val % 4 = 0) (h1 : ¬t.val % 4 = 3) :
    outsAt2 V c t.val t.isLt = (outIdle2, soutA2 V c t h0 h1) := by
  obtain ⟨n, hn⟩ := t
  cases n with
  | zero => rfl
  | succ n => exact (dif_pos h0).trans rfl

theorem outsAt2_B (c : Dev nD) (t : Fin cfg2.N) (h0 : ¬t.val % 4 = 0) (h1 : ¬t.val % 4 = 3) :
    outsAt2 V c t.val t.isLt = (outIdle2, soutB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (outC2 V c t h0 h1 (outsAt2 V c (t.val - 1) (Nat.lt_of_le_of_lt (Nat.sub_le _ _) t.isLt)).2, soutC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4000000 in
/-- The body at any point: the closed forms say which case the point is in; the invariant hands the body the
    accumulator at what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 64 := lt_of_lt_of_eq t.isLt (show cfg2.N = 64 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold soutA2; (try dsimp only)
    by_cases hz : t.val = 0
    · rw [PhiS2_castSucc V c t, PhiS2_zero V c _ _ hz, PhiA2_eq]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA2 V c t h0 h1)
          iexact Hrb
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA2 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold outC2 soutC2; (try dsimp only)
      rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC2 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC2 V c t h0 h1 _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold soutB2; (try dsimp only)
      rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB2 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's form back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hrb⟩, Hg⟩
  isplitl [HS0 Hrb]
  · isplitl [HS0]
    · iexists _; iexact HS0
    iexact Hrb
  iexact Hg

end Cert.KernelIdeal.Frames

end
-- ==== Proof.AttnFrame.lean ====
import proofs.«160876_j7095285973076_1_alg».proof.Proof.Gen.KernelIdeal.Launch
import proofs.«160876_j7095285973076_1_alg».proof.Proof.Gen.KernelIdeal.Skeleton
import proofs.«160876_j7095285973076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention region: one chunk of 256 rows per grid point, three input blocks, one output block stored whole -/

/-- Window `w`'s block at chunk `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an input's block
    index does not move between two fetches, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an input's block
    index does not move between two fetches, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: an input's block
    index does not move between two fetches, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 256 x 4096 block: every load and the one store of the body go through it. -/
abbrev r3 : Rect S256x4096 := Rect.unit (s := S256x4096) ![0, 0] S256x4096.size inb_S256x4096_S256x4096_0_0

/-- What the body leaves in the output block: its single store, the body's arithmetic of the three input blocks. -/
def out3_3 (x0 x1 x2 : Vec F S256x4096 .bf16) : Vec F S256x4096 .bf16 :=
  View.canon [⟨r3, k3_pay1 (View.ld x0 r3) (View.ld x1 r3) (View.ld x2 r3)⟩]

/-- The single store covers the block. -/
theorem cover3_3 (p0 : Vec F S256x4096 .bf16) (y : S256x4096.Idx) :
    ∃ pc ∈ ([⟨r3, p0⟩] : List (View.Piece (Elt F) S256x4096 .bf16)), y ∈ pc.1.set :=
  View.cover_of_tiled [⟨r3, p0⟩] S256x4096.size (by rfl) y

set_option maxHeartbeats 2000000 in
/-- The body on whole staging memrefs: the three inputs at read contents, the output at anything, runs to the
    continuation holding the inputs as they were and the output at `out3_3` of them. -/
theorem sound_kernel3 (c : Dev nD) (E : Set ℕ) (i : grid3.Coords)
    (arg1 : Memref sig .tc .vmem S256x4096 .bf16) (harg1 : arg1.IsWhole) (arg2 : Memref sig .tc .vmem S256x4096 .bf16) (harg2 : arg2.IsWhole)
    (arg3 : Memref sig .tc .vmem S256x4096 .bf16) (harg3 : arg3.IsWhole) (arg4 : Memref sig .tc .vmem S256x4096 .bf16) (harg4 : arg4.IsWhole)
    (x0 x1 x2 : Vec F S256x4096 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__attn_kernel i arg1 harg1 arg2 harg2 arg3 harg3 arg4 harg4) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the attention region on core `c`: the arrays as the region finds them; after the body at
    chunk `t` each input's buffer at its block and the output's at `out3_3` of the three blocks; the invariant the
    scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at chunk `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention region, at every chunk. -/
theorem body_obligation3 (c : Dev nD) : BodyObligation (dat3 (F := F) V c) (defs₀ (F := F)) Variants.none () Set.univ := fun t => by
  rw [bigSep_W3, bigSep_W3]
  exact sound_body3 V c t

end Cert.KernelIdeal.Frames

end
-- ==== Proof.LinFrame4.lean ====
import proofs.«160876_j7095285973076_1_alg».proof.Proof.Gen.KernelIdeal.Launch
import proofs.«160876_j7095285973076_1_alg».proof.Proof.Gen.KernelIdeal.Skeleton
import proofs.«160876_j7095285973076_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Linear region 4: a 1024 x 1024 output block per (i, j), accumulated over the four k-blocks of the contracted
    axis in a scratch buffer the kernel carries between grid points; the point is `t = 16 i + 4 j + k`. At `k = 0` the
    scratch is reset and the first product added, at `k = 1, 2` a product is added, at `k = 3` the last product is
    added, the bias row joined and the block stored to the output window. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an input's block
    index does not move between two fetches, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an input's block
    index does not move between two fetches, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an input's block
    index does not move between two fetches, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, decided over the grid -/

/-- "this is the first k-block": the reset branch is taken. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- "this is the last k-block": the bias-and-store branch is taken. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last k-block nothing is stored into the output window and its block is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

abbrev VO4_3 : View sig .tc .vmem S1024x1024 .f32 := (Memref.whole cc4_stg3_0 : Memref sig .tc .vmem S1024x1024 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4 : Memref sig .tc .vmem S1024x1024 .f32 := Memref.whole cc4_scratch0
abbrev VS4 : View sig .tc .vmem S1024x1024 .f32 := scM4.view

/-- The region invariant as the launch hands it over: the accumulator at some contents, the other scoped buffers
    unopened, the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## The body's run, case by case: the pieces each buffer ends with are found by the run -/

set_option maxHeartbeats 4000000 in
/-- First k-block: the accumulator, at anything, is reset and the first product added; the bias and output buffers are
    handed back untouched. -/
noncomputable def kernelRun4_A (c : Dev nD) (i : grid4.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .bf16) (x1 : Vec F S1024x1024 .bf16) :
    Σ' (L3 : List (View.Piece (Elt F) S1024x1024 .f32)), { LS0 : List (View.Piece (Elt F) S1024x1024 .f32) //
      ∀ (xi2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi2 xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A middle k-block: a product is added to what the point before left in the accumulator. -/
noncomputable def kernelRun4_B (c : Dev nD) (i : grid4.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .bf16) (x1 : Vec F S1024x1024 .bf16) (xs0 : Vec F S1024x1024 .f32) :
    Σ' (L3 : List (View.Piece (Elt F) S1024x1024 .f32)), { LS0 : List (View.Piece (Elt F) S1024x1024 .f32) //
      ∀ (xi2 : Vec F S1024 .f32) (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi2 xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Last k-block: the last product is added, then the accumulator plus the bias row is stored into the output buffer,
    which enters at anything. -/
noncomputable def kernelRun4_C (c : Dev nD) (i : grid4.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves, at a grid point -/

/-- The accumulator after a first k-block. -/
def soutA4 (c : Dev nD) (t : Fin cfg4.N) (h0 : t.val % 4 = 0) (h1 : ¬t.val % 4 = 3) : Vec F S1024x1024 .f32 :=
  VS4.read (Elt F) (VS4.writes (Elt F) VS4.junk (kernelRun4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t)).2.1)
theorem scoverA4 (c : Dev nD) (t : Fin cfg4.N) (h0 : t.val % 4 = 0) (h1 : ¬t.val % 4 = 3) (y : S1024x1024.Idx) :
    ∃ pc ∈ (kernelRun4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t)).2.1, y ∈ pc.1.set :=
  View.cover_of_tiledL _ S1024x1024.size (by sl_kernel_rfl) y

/-- The accumulator after a middle k-block, from what it held before. -/
def soutB4 (c : Dev nD) (t : Fin cfg4.N) (h0 : ¬t.val % 4 = 0) (h1 : ¬t.val % 4 = 3) (xs0 : Vec F S1024x1024 .f32) : Vec F S1024x1024 .f32 :=
  VS4.read (Elt F) (VS4.writes (Elt F) VS4.junk (kernelRun4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) xs0).2.1)
theorem scoverB4 (c : Dev nD) (t : Fin cfg4.N) (h0 : ¬t.val % 4 = 0) (h1 : ¬t.val % 4 = 3) (xs0 : Vec F S1024x1024 .f32) (y : S1024x1024.Idx) :
    ∃ pc ∈ (kernelRun4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) xs0).2.1, y ∈ pc.1.set :=
  View.cover_of_tiledL _ S1024x1024.size (by sl_kernel_rfl) y

/-- The accumulator and the output block after a last k-block. -/
def soutC4 (c : Dev nD) (t : Fin cfg4.N) (h0 : ¬t.val % 4 = 0) (h1 : t.val % 4 = 3) (xs0 : Vec F S1024x1024 .f32) : Vec F S1024x1024 .f32 :=
  VS4.read (Elt F) (VS4.writes (Elt F) VS4.junk (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).2.1)
theorem scoverC4 (c : Dev nD) (t : Fin cfg4.N) (h0 : ¬t.val % 4 = 0) (h1 : t.val % 4 = 3) (xs0 : Vec F S1024x1024 .f32) (y : S1024x1024.Idx) :
    ∃ pc ∈ (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).2.1, y ∈ pc.1.set :=
  View.cover_of_tiledL _ S1024x1024.size (by sl_kernel_rfl) y
def outC4 (c : Dev nD) (t : Fin cfg4.N) (h0 : ¬t.val % 4 = 0) (h1 : t.val % 4 = 3) (xs0 : Vec F S1024x1024 .f32) : Vec F S1024x1024 .f32 :=
  VO4_3.read (Elt F) (VO4_3.writes (Elt F) VO4_3.junk (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).1)
theorem coverC4 (c : Dev nD) (t : Fin cfg4.N) (h0 : ¬t.val % 4 = 0) (h1 : t.val % 4 = 3) (xs0 : Vec F S1024x1024 .f32) (y : S1024x1024.Idx) :
    ∃ pc ∈ (kernelRun4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) xs0).1, y ∈ pc.1.set :=
  View.cover_of_tiledL _ S1024x1024.size (by sl_kernel_rfl) y

/-- A placeholder for the output window's buffer at the points that store nothing into it: nothing consults it. -/
def outIdle4 : Vec F S1024x1024 .f32 := VO4_3.read (Elt F) VO4_3.junk

/-! ## The accumulation, point by point -/

/-- What the output window's buffer and the accumulator hold after the body at position `n`. -/
def outsAt4 (c : Dev nD) : (n : ℕ) → n < cfg4.N → Vec F S1024x1024 .f32 × Vec F S1024x1024 .f32
  | 0, hn => (outIdle4, soutA4 V c ⟨0, hn⟩ (Nat.zero_mod _) (by show ¬((0 : ℕ) % 4 = 3); omega))
  | n + 1, hn =>
    if h0 : (n + 1) % 4 = 0 then (outIdle4, soutA4 V c ⟨n + 1, hn⟩ h0 (by show ¬((n + 1) % 4 = 3); omega))
    else if h1 : (n + 1) % 4 = 3 then
      (outC4 V c ⟨n + 1, hn⟩ h0 h1 (outsAt4 c n (Nat.lt_of_succ_lt hn)).2, soutC4 V c ⟨n + 1, hn⟩ h0 h1 (outsAt4 c n (Nat.lt_of_succ_lt hn)).2)
    else (outIdle4, soutB4 V c ⟨n + 1, hn⟩ h0 h1 (outsAt4 c n (Nat.lt_of_succ_lt hn)).2)

theorem outsAt4_A (c : Dev nD) (t : Fin cfg4.N) (h0 : t.val % 4 = 0) (h1 : ¬t.val % 4 = 3) :
    outsAt4 V c t.val t.isLt = (outIdle4, soutA4 V c t h0 h1) := by
  obtain ⟨n, hn⟩ := t
  cases n with
  | zero => rfl
  | succ n => exact (dif_pos h0).trans rfl

theorem outsAt4_B (c : Dev nD) (t : Fin cfg4.N) (h0 : ¬t.val % 4 = 0) (h1 : ¬t.val % 4 = 3) :
    outsAt4 V c t.val t.isLt = (outIdle4, soutB4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (outC4 V c t h0 h1 (outsAt4 V c (t.val - 1) (Nat.lt_of_le_of_lt (Nat.sub_le _ _) t.isLt)).2, soutC4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point what the launch hands over; afterwards the
    accumulator at what the point before left in it, the other scoped buffers unopened, the generator register. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4000000 in
/-- The body at any point: the closed forms say which case the point is in; the invariant hands the body the
    accumulator at what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 64 := lt_of_lt_of_eq t.isLt (show cfg4.N = 64 from N_4)
  by_cases h0 : t.val % 4 = 0
  · have h1 : ¬t.val % 4 = 3 := by omega
    rw [Dat.leavesExact_idle (dat4 V c) 3 t (idleAt4_3 t (fun h => h1 ((hcond4_1 t).mp h))) (noFlush4_3 t (fun h => h1 ((hcond4_1 t).mp h)))]
    rw [outsAt4_A V c t h0 h1]
    unfold soutA4; (try dsimp only)
    by_cases hz : t.val = 0
    · rw [PhiS4_castSucc V c t, PhiS4_zero V c _ _ hz, PhiA4_eq]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA4 V c t h0 h1)
          iexact Hrb
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t)).2.2 _ _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverA4 V c t h0 h1)
          iexact Hrb
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold outC4 soutC4; (try dsimp only)
      rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverC4 V c t h0 h1 _)
          iexact Hrb
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC4 V c t h0 h1 _)
    · rw [Dat.leavesExact_idle (dat4 V c) 3 t (idleAt4_3 t (fun h => h1 ((hcond4_1 t).mp h))) (noFlush4_3 t (fun h => h1 ((hcond4_1 t).mp h)))]
      rw [outsAt4_B V c t h0 h1]
      unfold soutB4; (try dsimp only)
      rw [PhiS4_castSucc V c t, PhiS4_pos V c _ _ hz]
      iintro ⟨⟨⟨HS0, Hrb⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) _).2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scoverB4 V c t h0 h1 _)
          iexact Hrb
        iexact Hg
      isplitl [Ho]; · iexact Ho
      isplitl [H0]; · iexact H0
      isplitl [H1]; · iexact H1
      isplitl [H2]; · iexact H2
      iexists _; iexact H3

/-- The body obligation of linear region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the launch's form back: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), PhiA4_eq]
  iintro ⟨⟨HS0, Hrb⟩, Hg⟩
  isplitl [HS0 Hrb]
  · isplitl [HS0]
    · iexists _; iexact HS0
    iexact Hrb
  iexact Hg

end Cert.KernelIdeal.Frames

end
-- ==== Proof.RunFrame.lean ====
import proofs.«160876_j7095285973076_1_alg».proof.Proof.Gen.KernelIdeal.Launch
import proofs.«160876_j7095285973076_1_alg».proof.Proof.Gen.KernelIdeal.Skeleton
import proofs.«160876_j7095285973076_1_alg».proof.Proof.Gen.KernelIdeal.Points
import proofs.«160876_j7095285973076_1_alg».proof.Proof.LinFrame0
import proofs.«160876_j7095285973076_1_alg».proof.Proof.LinFrame1
import proofs.«160876_j7095285973076_1_alg».proof.Proof.LinFrame2
import proofs.«160876_j7095285973076_1_alg».proof.Proof.AttnFrame
import proofs.«160876_j7095285973076_1_alg».proof.Proof.LinFrame4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's six items from the launch to the return

## The buffer contents at each boundary, a fold through @main -/

/-- Core `c`'s buffers at launch. -/
abbrev W0 : Dev nD → Valuation τ sig (Elt F) := fun c b => (s₀ m ρ).mem ((c : Dev nD), b)
/-- After the host stretch (the five changes of format): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-! ### The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := (W4_arr m ρ c 2).trans (((dat2 (V3 m ρ) c).arrAt_in 2 rfl _).trans (A_eq2 (V3 m ρ) c 2))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 2).trans (((dat4 (V5 m ρ) c).arrAt_in 2 rfl _).trans (A_eq4 (V5 m ρ) c 2))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg8) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`; its arrays split
    out of the unscoped buffers and put back at the exit contents; the generator register and the scoped buffers into the
    region invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split
    out of the unscoped buffers and put back at the exit contents; the generator register and the scoped buffers into the
    region invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`; its arrays split
    out of the unscoped buffers and put back at the exit contents; the generator register and the scoped buffers into the
    region invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`; its arrays split
    out of the unscoped buffers and put back at the exit contents; the generator register and the scoped buffers into the
    region invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`; its arrays split
    out of the unscoped buffers and put back at the exit contents; the generator register and the scoped buffers into the
    region invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec4 c ⊢ (pdats m ρ 4 c).Φ 0 from hin4 (V5 m ρ) c)
    unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

/-- The run with the result named: the last region's output array after its write-backs, beside the arguments as launched. -/
theorem run_value : θ_run defs (onTc (τ := τ) (main (F := F))) ⟨m, fun _ => 0, ρ⟩ (fun r => ∀ c : Dev nD,
      r.2.mem ((c.tc : Thread nD τ).loc main_v9) = (dat4 (V5 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (W6_arr m ρ c 3),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

end Cert.KernelIdeal.Frames

end
-- ==== Proof.Spec.lean ====
/-
  The multi-head attention block as ONE function of its nine argument arrays, on the extended reals, index by
  index over the literal shapes: SEQ = D = 4096, sixteen chunks of 256 ROWS.

  Three linear layers of the same input, `y(i, j) = (∑ k, x(i, k) · W(j, k)) + b(j)`, give the projections with
  (Wq, bq), (Wk, bk), (Wv, bv). The sequence is cut into sixteen chunks of 256 consecutive rows, row `256 h + a`
  being row `a` of chunk `h`. Inside chunk `h` the rows of the (Wv, bv) projection play the queries, the rows of
  the (Wk, bk) projection the keys and the rows of the (Wq, bq) projection the values:
    score(h, a, b)  = (∑ d, v(256 h + a, d) · k(256 h + b, d)) · (1 / 64)
    rowMax(h, a)    = max(−∞, max over b of score(h, a, b))
    expo(h, a, b)   = exp(score(h, a, b) − rowMax(h, a))
    rowSum(h, a)    = ∑ b, expo(h, a, b)
    weight(h, a, b) = expo(h, a, b) / rowSum(h, a)
    mixed(h, a, d)  = ∑ b, weight(h, a, b) · q(256 h + b, d)
  and the chunks, stacked again, go through a fourth linear layer with (Wo, bo). The scale 1 / 64 is
  1 / √4096. The maximum starts from the word of −∞ and is taken once more against it; the word is kept as the
  pattern it is, and `negInf_eq_bot` says which extended real it denotes.
-/
import Idealize.ShloMosaic.PureOps.Ideal
import Idealize.ShloMosaic.Lib.ValueIdx

noncomputable section

namespace Cert.Spec

open Idealize.ShloMosaic Idealize.ShloMosaic.ValueIdx

/-- A 4096 × 4096 array of extended reals. -/
abbrev Mat : Type := FVec Ideal (⟨2, ![4096, 4096]⟩ : Shape) .f32
/-- A vector of 4096 extended reals. -/
abbrev Row : Type := FVec Ideal (⟨1, ![4096]⟩ : Shape) .f32

/-! ## Rows and chunks -/

/-- Row `a` of chunk `h` is row `256 h + a` of the sequence. -/
def row (h : Fin 16) (a : Fin 256) : Fin 4096 :=
  ⟨h.val * 256 + a.val, by have := h.isLt; have := a.isLt; omega⟩
/-- The chunk a row of the sequence lies in. -/
def chunkOf (i : Fin 4096) : Fin 16 := ⟨i.val / 256, by have := i.isLt; omega⟩
/-- A row's position inside its chunk. -/
def within (i : Fin 4096) : Fin 256 := ⟨i.val % 256, by omega⟩

theorem row_val (h : Fin 16) (a : Fin 256) : (row h a).val = h.val * 256 + a.val := rfl
theorem chunkOf_val (i : Fin 4096) : (chunkOf i).val = i.val / 256 := rfl
theorem within_val (i : Fin 4096) : (within i).val = i.val % 256 := rfl

theorem chunkOf_row (h : Fin 16) (a : Fin 256) : chunkOf (row h a) = h :=
  Fin.ext (by have := a.isLt; rw [chunkOf_val, row_val]; omega)
theorem within_row (h : Fin 16) (a : Fin 256) : within (row h a) = a :=
  Fin.ext (by have := a.isLt; rw [within_val, row_val]; omega)
theorem row_chunkOf_within (i : Fin 4096) : row (chunkOf i) (within i) = i :=
  Fin.ext (by rw [row_val, chunkOf_val, within_val]; omega)

/-! ## The stages -/

/-- A linear layer: entry (i, j) is row `i` of the input against row `j` of the weight, plus the bias at `j`. -/
def linear (x W : Mat) (b : Row) (i j : Fin 4096) : EReal :=
  (∑ k : Fin 4096, x (ix2 i k) * W (ix2 j k)) + b (ix1 j)

/-- The scale of the scores, 1 / √4096. -/
def scale : EReal := ((1 / 64 : ℝ) : EReal)

/-- The word of −∞ the row maximum starts from. -/
def negInf : EReal := Ideal.ofBits .f32 0xFF800000#32

theorem negInf_eq_bot : negInf = ⊥ := by simp [negInf, Ideal.ofBits, Ideal.ieee]

section Attention

variable (x Wq : Mat) (bq : Row) (Wk : Mat) (bk : Row) (Wv : Mat) (bv : Row) (Wo : Mat) (bo : Row)

/-- The score of row `a` against row `b` of chunk `h`: the (Wv, bv) projection's row `256 h + a` against the
    (Wk, bk) projection's row `256 h + b`, scaled. -/
def score (h : Fin 16) (a b : Fin 256) : EReal :=
  (∑ d : Fin 4096, linear x Wv bv (row h a) d * linear x Wk bk (row h b) d) * scale

/-- The largest score of row `a` of chunk `h`, from −∞ and once more against −∞. -/
def rowMax (h : Fin 16) (a : Fin 256) : EReal :=
  max negInf ((Finset.univ : Finset (Fin 256)).fold max negInf fun b => score x Wk bk Wv bv h a b)

/-- The exponential of a score less its row's maximum. -/
def expo (h : Fin 16) (a b : Fin 256) : EReal :=
  Ideal.exp (score x Wk bk Wv bv h a b - rowMax x Wk bk Wv bv h a)

/-- The sum of a row's exponentials. -/
def rowSum (h : Fin 16) (a : Fin 256) : EReal :=
  ∑ b : Fin 256, expo x Wk bk Wv bv h a b

/-- The attention weight: an exponential over its row's sum. -/
def weight (h : Fin 16) (a b : Fin 256) : EReal :=
  Ideal.div (expo x Wk bk Wv bv h a b) (rowSum x Wk bk Wv bv h a)

/-- Chunk `h`'s weights against its rows of the (Wq, bq) projection. -/
def mixed (h : Fin 16) (a : Fin 256) (d : Fin 4096) : EReal :=
  ∑ b : Fin 256, weight x Wk bk Wv bv h a b * linear x Wq bq (row h b) d

/-- The chunks stacked again: row `i` is row `i % 256` of chunk `i / 256`. -/
def stacked (i d : Fin 4096) : EReal :=
  mixed x Wq bq Wk bk Wv bv (chunkOf i) (within i) d

theorem stacked_row (h : Fin 16) (a : Fin 256) (d : Fin 4096) :
    stacked x Wq bq Wk bk Wv bv (row h a) d = mixed x Wq bq Wk bk Wv bv h a d := by
  unfold stacked; rw [chunkOf_row, within_row]

/-- The block's result at (i, j): the output layer on the stacked chunks. -/
def outAt (i j : Fin 4096) : EReal :=
  (∑ k : Fin 4096, stacked x Wq bq Wk bk Wv bv i k * Wo (ix2 j k)) + bo (ix1 j)

/-- THE RESULT: the whole block as one array, a function of the nine argument arrays in the programs' order. -/
def out : Mat := fun i => outAt x Wq bq Wk bk Wv bv Wo bo (i 0) (i 1)

theorem out_apply (i j : Fin 4096) :
    out x Wq bq Wk bk Wv bv Wo bo (ix2 i j) = outAt x Wq bq Wk bk Wv bv Wo bo i j := rfl

end Attention

end Cert.Spec

end
-- ==== Proof.RefIsSpec.lean ====
/-
  The reference program's result IS the attention block of `Cert.Spec`.

  The reference computes, on the host, three linear layers of the same input (a transposed weight, a product, a
  broadcast bias, a sum), cuts each 4096 × 4096 projection into sixteen chunks of 256 rows (a reshape to
  16 × 256 × 4096: row `256 h + a` becomes row `a` of chunk `h`, since (256 h + a) · 4096 + d divided by 4096 is
  256 h + a), takes per chunk the batched product of the third projection with the second over the feature axis,
  scales it by 1 / √4096 = 1 / 64 (√4096 = 64 because 64² = 4096), normalizes each row by a softmax (a maximum over
  the last axis from −∞, the exponential of the difference, a sum from zero, a quotient), multiplies the weights
  with the chunk of the first projection, stacks the chunks again (the inverse reshape: row `i` is row `i % 256` of
  chunk `i / 256`) and applies a fourth linear layer. Each stage is read here at coordinates, one lemma per stage,
  each resting on the one before; the indices the stages compose are identified with coordinate tuples once each.
  The three projections are one term at different arguments, and so are their three reshapes and the output layer,
  so the linear layer and the reshape are read once.
-/
import proofs.«160876_j7095285973076_1_alg».proof.Proof.Gen.ReferenceIdeal.Read
import proofs.«160876_j7095285973076_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.ValueIdx Cert.Spec

/-- The reference program's 4096 × 4096 arrays and its vectors of 4096, as it types them. -/
abbrev MatC : Type := (⟨S4096x4096, .f32⟩ : BufTy).Contents (Elt Ideal)
abbrev RowC : Type := (⟨S4096, .f32⟩ : BufTy).Contents (Elt Ideal)

/-! ## A linear layer -/

theorem lidx_v1 (i j k : Fin 4096) : lidx_main_v1 (ix2 i j) k = ix2 i k :=
  funext fun a => by match a with | ⟨0, _⟩ => rfl | ⟨1, _⟩ => rfl
theorem ridx_v1 (i j k : Fin 4096) : idx_main_v0 (ridx_main_v1 (ix2 i j) k) = ix2 j k :=
  funext fun a => by match a with | ⟨0, _⟩ => rfl | ⟨1, _⟩ => rfl
theorem bias_idx (i j : Fin 4096) : idx_main_v2 (idx_main_v3 (ix2 i j)) = ix1 j :=
  funext fun a => by match a with | ⟨0, _⟩ => rfl

/-- The transposed weight, the product, the broadcast bias and the sum: entry (i, j) of a linear layer. -/
theorem linear_v4 (x W : MatC) (b : RowC) (i j : Fin 4096) :
    val_main_v4 (F := Ideal) x W b (ix2 i j) = linear x W b i j := by
  rw [val_main_v4_apply, val_main_v1_apply, val_main_v3_apply, val_main_v2_apply, bias_idx, Ideal.addf_def]
  unfold linear
  refine congrArg (· + b (ix1 j)) (Finset.sum_congr rfl fun k _ => ?_)
  rw [val_main_v0_apply, lidx_v1, ridx_v1]

/-! ## A projection cut into chunks -/

theorem idx_v16 (h : Fin 16) (a : Fin 256) (d : Fin 4096) : idx_main_v16 (ix3 h a d) = ix2 (row h a) d :=
  funext fun c => Fin.ext (by
    have := d.isLt
    match c with
    | ⟨0, _⟩ => show ((h.val * 256 + a.val) * 4096 + d.val) / 4096 = h.val * 256 + a.val; omega
    | ⟨1, _⟩ => show ((h.val * 256 + a.val) * 4096 + d.val) % 4096 = d.val; omega)

theorem chunk_v16 (x W : MatC) (b : RowC) (h : Fin 16) (a : Fin 256) (d : Fin 4096) :
    val_main_v16 (F := Ideal) x W b (ix3 h a d) = linear x W b (row h a) d := by
  rw [val_main_v16_apply, idx_v16, linear_v4]
theorem chunk_v15 (x W : MatC) (b : RowC) (h : Fin 16) (a : Fin 256) (d : Fin 4096) :
    val_main_v15 (F := Ideal) x W b (ix3 h a d) = linear x W b (row h a) d := chunk_v16 x W b h a d
theorem chunk_v17 (x W : MatC) (b : RowC) (h : Fin 16) (a : Fin 256) (d : Fin 4096) :
    val_main_v17 (F := Ideal) x W b (ix3 h a d) = linear x W b (row h a) d := chunk_v16 x W b h a d

/-! ## The scale -/

theorem ofBits_4096 : Ideal.ofBits .f32 0x45800000#32 = ((4096 : ℝ) : EReal) := by
  simp [Ideal.ofBits, Ideal.ieee, -EReal.coe_mul]; norm_num

theorem sqrt_4096 : Ideal.sqrt ((4096 : ℝ) : EReal) = ((64 : ℝ) : EReal) := by
  rw [Ideal.sqrt_coe, if_neg (by norm_num), show (4096 : ℝ) = 64 ^ 2 by norm_num, Real.sqrt_sq (by norm_num)]

/-- One over the square root of 4096 is 1 / 64. -/
theorem scale_eq (j : S_.Idx) : val_main_v19 (F := Ideal) j = scale := by
  rw [val_main_v19_apply, val_main_v18_apply]
  show Ideal.div (Ideal.ofBits .f32 0x3F800000#32) (Ideal.sqrt (Ideal.ofBits .f32 0x45800000#32)) = _
  rw [Ideal.ofBits_one_f32, ofBits_4096, sqrt_4096, Ideal.div_coe (by norm_num), one_mul]
  rfl

/-! ## The scores -/

theorem lidx_v20 (h : Fin 16) (a b : Fin 256) (k : Fin 4096) : lidx_main_v20 (ix3 h a b) k = ix3 h a k :=
  funext fun c => by match c with | ⟨0, _⟩ => rfl | ⟨1, _⟩ => rfl | ⟨2, _⟩ => rfl
theorem ridx_v20 (h : Fin 16) (a b : Fin 256) (k : Fin 4096) : ridx_main_v20 (ix3 h a b) k = ix3 h b k :=
  funext fun c => by match c with | ⟨0, _⟩ => rfl | ⟨1, _⟩ => rfl | ⟨2, _⟩ => rfl

/-- Chunk `h`'s batched product of the two cut projections, scaled. -/
theorem score_eq (x Wk : MatC) (bk : RowC) (Wv : MatC) (bv : RowC) (h : Fin 16) (a b : Fin 256) :
    val_main_v22 (F := Ideal) x Wk bk Wv bv (ix3 h a b) = score x Wk bk Wv bv h a b := by
  rw [val_main_v22_apply, val_main_v20_apply, val_main_v21_apply, scale_eq, Ideal.mulf_def]
  unfold score
  refine congrArg (· * scale) (Finset.sum_congr rfl fun k _ => ?_)
  rw [lidx_v20, ridx_v20, chunk_v17, chunk_v15]

/-! ## The row maximum -/

theorem reduces_d2 : S16x256x256.Reduces [2] S16x256 := by decide

/-- Row (h, a) of the scores with column `k` put back is (h, a, k). -/
theorem lift_ix3 (h : Fin 16) (a : Fin 256) (k : Fin (S16x256x256.size 2)) :
    reduces_d2.lift (ix2 h a) k = ix3 h a (⟨k.val, k.isLt⟩ : Fin 256) := by
  funext c; apply Fin.ext
  fin_cases c <;> rfl

/-- The reduce with a maximum body over the last axis, from −∞, then once more against −∞. -/
theorem rowMax_eq (x Wk : MatC) (bk : RowC) (Wv : MatC) (bv : RowC) (h : Fin 16) (a : Fin 256) :
    val_main_v25 (F := Ideal) x Wk bk Wv bv (ix2 h a) = rowMax x Wk bk Wv bv h a := by
  rw [val_main_v25_apply, val_main_v24_apply]
  unfold val_main_v23
  rw [Host.reduce_eq_fold_single FloatOps.maximumf _ _ reducesTo_S16x256x256_S16x256_d2 reduces_d2 h_S_]
  have hf : (val_main_v22 (F := Ideal) x Wk bk Wv bv ∘ reduces_d2.lift (ix2 h a))
      = fun b : Fin 256 => score x Wk bk Wv bv h a b :=
    funext fun k => (congrArg (val_main_v22 (F := Ideal) x Wk bk Wv bv) (lift_ix3 h a k)).trans (score_eq x Wk bk Wv bv h a _)
  exact congrArg (fun f => max negInf (Finset.fold max negInf f (Finset.univ : Finset (Fin 256)))) hf

/-! ## Exponentials, row sums, weights -/

theorem idx_v27 (h : Fin 16) (a b : Fin 256) : idx_main_v26 (idx_main_v27 (ix3 h a b)) = ix2 h a :=
  funext fun c => by match c with | ⟨0, _⟩ => rfl | ⟨1, _⟩ => rfl
theorem idx_v32 (h : Fin 16) (a b : Fin 256) : idx_main_v31 (idx_main_v32 (ix3 h a b)) = ix2 h a :=
  funext fun c => by match c with | ⟨0, _⟩ => rfl | ⟨1, _⟩ => rfl
theorem idx_v30 (h : Fin 16) (a k : Fin 256) : idx_main_v30 (ix2 h a) k = ix3 h a k :=
  funext fun c => by match c with | ⟨0, _⟩ => rfl | ⟨1, _⟩ => rfl | ⟨2, _⟩ => rfl

theorem expo_eq (x Wk : MatC) (bk : RowC) (Wv : MatC) (bv : RowC) (h : Fin 16) (a b : Fin 256) :
    val_main_v29 (F := Ideal) x Wk bk Wv bv (ix3 h a b) = expo x Wk bk Wv bv h a b := by
  rw [val_main_v29_apply, val_main_v28_apply, val_main_v27_apply, val_main_v26_apply, score_eq, idx_v27, rowMax_eq]
  rfl

theorem rowSum_eq (x Wk : MatC) (bk : RowC) (Wv : MatC) (bv : RowC) (h : Fin 16) (a : Fin 256) :
    val_main_v30 (F := Ideal) x Wk bk Wv bv (ix2 h a) = rowSum x Wk bk Wv bv h a := by
  rw [val_main_v30_apply]
  show Ideal.ofBits .f32 0x00000000#32 + _ = _
  rw [Ideal.ofBits_zero_f32, zero_add]
  unfold rowSum
  exact Finset.sum_congr rfl fun k _ => by rw [idx_v30, expo_eq]

theorem weight_eq (x Wk : MatC) (bk : RowC) (Wv : MatC) (bv : RowC) (h : Fin 16) (a b : Fin 256) :
    val_main_v33 (F := Ideal) x Wk bk Wv bv (ix3 h a b) = weight x Wk bk Wv bv h a b := by
  rw [val_main_v33_apply, val_main_v32_apply, val_main_v31_apply, expo_eq, idx_v32, rowSum_eq]
  rfl

/-! ## The chunk products, stacked, and the output layer -/

theorem lidx_v34 (h : Fin 16) (a : Fin 256) (d : Fin 4096) (k : Fin 256) : lidx_main_v34 (ix3 h a d) k = ix3 h a k :=
  funext fun c => by match c with | ⟨0, _⟩ => rfl | ⟨1, _⟩ => rfl | ⟨2, _⟩ => rfl
theorem ridx_v34 (h : Fin 16) (a : Fin 256) (d : Fin 4096) (k : Fin 256) : ridx_main_v34 (ix3 h a d) k = ix3 h k d :=
  funext fun c => by match c with | ⟨0, _⟩ => rfl | ⟨1, _⟩ => rfl | ⟨2, _⟩ => rfl

theorem mixed_eq (x Wq : MatC) (bq : RowC) (Wk : MatC) (bk : RowC) (Wv : MatC) (bv : RowC)
    (h : Fin 16) (a : Fin 256) (d : Fin 4096) :
    val_main_v34 (F := Ideal) x Wq bq Wk bk Wv bv (ix3 h a d) = mixed x Wq bq Wk bk Wv bv h a d := by
  rw [val_main_v34_apply]
  unfold mixed
  exact Finset.sum_congr rfl fun k _ => by rw [lidx_v34, ridx_v34, weight_eq, chunk_v16]

theorem idx_v35 (i d : Fin 4096) : idx_main_v35 (ix2 i d) = ix3 (chunkOf i) (within i) d :=
  funext fun c => Fin.ext (by
    have := d.isLt; have := i.isLt
    match c with
    | ⟨0, _⟩ => show (i.val * 4096 + d.val) / 1048576 = i.val / 256; omega
    | ⟨1, _⟩ => show (i.val * 4096 + d.val) / 4096 % 256 = i.val % 256; omega
    | ⟨2, _⟩ => show (i.val * 4096 + d.val) % 4096 = d.val; omega)

theorem stacked_eq (x Wq : MatC) (bq : RowC) (Wk : MatC) (bk : RowC) (Wv : MatC) (bv : RowC) (i d : Fin 4096) :
    val_main_v35 (F := Ideal) x Wq bq Wk bk Wv bv (ix2 i d) = stacked x Wq bq Wk bk Wv bv i d := by
  rw [val_main_v35_apply, idx_v35, mixed_eq]
  rfl

/-- The output layer is the linear layer of the stacked chunks. -/
theorem v40_linear (x Wq : MatC) (bq : RowC) (Wk : MatC) (bk : RowC) (Wv : MatC) (bv : RowC) (Wo : MatC) (bo : RowC) :
    val_main_v40 (F := Ideal) x Wq bq Wk bk Wv bv Wo bo
      = val_main_v4 (F := Ideal) (val_main_v35 (F := Ideal) x Wq bq Wk bk Wv bv) Wo bo := rfl

/-- THE REFERENCE IS THE SPECIFICATION: the last stage of the reference's run, as a function of the nine argument
    arrays, is the attention block of `Cert.Spec`, index by index. -/
theorem ref_is_spec (x Wq : MatC) (bq : RowC) (Wk : MatC) (bk : RowC) (Wv : MatC) (bv : RowC) (Wo : MatC) (bo : RowC) :
    val_main_v40 (F := Ideal) x Wq bq Wk bk Wv bv Wo bo = Cert.Spec.out x Wq bq Wk bk Wv bv Wo bo := by
  funext i
  obtain ⟨p, q, rfl⟩ : ∃ (p q : Fin 4096), i = ix2 p q := ⟨i 0, i 1, eq_ix2 i⟩
  rw [v40_linear, linear_v4, out_apply]
  unfold outAt linear
  refine congrArg (· + bo (ix1 q)) (Finset.sum_congr rfl fun k _ => ?_)
  rw [stacked_eq]

/-- The same for the run's result term: what the reference leaves in its result buffer, from a memory `m`, is the
    attention block of the argument arrays `m` holds. -/
theorem res_is_spec (m : (ℓ : Loc nD τ sig) → Buf (Elt Ideal) ℓ) (c : Dev nD) :
    Cert.ReferenceIdeal.Value.res_main_v40 m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [val_main_v40_eq, ref_is_spec]

end Cert.ReferenceIdeal.RefValue

end
-- ==== Proof.Carry.lean ====
import proofs.«160876_j7095285973076_1_alg».proof.Proof.RunFrame
import Idealize.ShloMosaic.PureOps.Ideal
import Idealize.ShloMosaic.Lib.StableHlo.Run

set_option maxRecDepth 16384

noncomputable section

namespace Cert.KernelIdeal.Frames

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! # The buffers between the regions, read back to the launch memory

A change of float format is the identity on the extended reals, so after the host stretch the five converted arrays
hold the arguments' entries; a region changes only its output array, so every other buffer crosses it unchanged. -/

/-- The host stretch's change of format of argument `main_arg0` is the identity on the extended reals. -/
theorem W1_main_v0 (c : Dev nD) (y : S4096x4096.Idx) :
    (W1 (F := Ideal) m ρ c (Proc.devRef .tc main_v0) : S4096x4096.Idx → EReal) y = (m ((c : Thread nD τ).loc main_arg0) : S4096x4096.Idx → EReal) y := by
  have e : StableHlo.after (hostOps0 (F := Ideal)) (W0 m ρ c) (Proc.devRef .tc main_v0)
      = ((truncf (F := Ideal) .bf16 · Facts₀.bitsLt_bf16_f32) : (⟨S4096x4096, .f32⟩ : BufTy).Contents (Elt Ideal) → (⟨S4096x4096, .bf16⟩ : BufTy).Contents (Elt Ideal))
          (W0 m ρ c (Proc.devRef .tc main_arg0)) := by
    first | (after_results; done) | (after_results; rfl)
  show (StableHlo.after (hostOps0 (F := Ideal)) (W0 m ρ c) (Proc.devRef .tc main_v0) : S4096x4096.Idx → EReal) y = _
  rw [e]; rfl
/-- The host stretch's change of format of argument `main_arg1` is the identity on the extended reals. -/
theorem W1_main_v1 (c : Dev nD) (y : S4096x4096.Idx) :
    (W1 (F := Ideal) m ρ c (Proc.devRef .tc main_v1) : S4096x4096.Idx → EReal) y = (m ((c : Thread nD τ).loc main_arg1) : S4096x4096.Idx → EReal) y := by
  have e : StableHlo.after (hostOps0 (F := Ideal)) (W0 m ρ c) (Proc.devRef .tc main_v1)
      = ((truncf (F := Ideal) .bf16 · Facts₀.bitsLt_bf16_f32) : (⟨S4096x4096, .f32⟩ : BufTy).Contents (Elt Ideal) → (⟨S4096x4096, .bf16⟩ : BufTy).Contents (Elt Ideal))
          (W0 m ρ c (Proc.devRef .tc main_arg1)) := by
    first | (after_results; done) | (after_results; rfl)
  show (StableHlo.after (hostOps0 (F := Ideal)) (W0 m ρ c) (Proc.devRef .tc main_v1) : S4096x4096.Idx → EReal) y = _
  rw [e]; rfl
/-- The host stretch's change of format of argument `main_arg3` is the identity on the extended reals. -/
theorem W1_main_v2 (c : Dev nD) (y : S4096x4096.Idx) :
    (W1 (F := Ideal) m ρ c (Proc.devRef .tc main_v2) : S4096x4096.Idx → EReal) y = (m ((c : Thread nD τ).loc main_arg3) : S4096x4096.Idx → EReal) y := by
  have e : StableHlo.after (hostOps0 (F := Ideal)) (W0 m ρ c) (Proc.devRef .tc main_v2)
      = ((truncf (F := Ideal) .bf16 · Facts₀.bitsLt_bf16_f32) : (⟨S4096x4096, .f32⟩ : BufTy).Contents (Elt Ideal) → (⟨S4096x4096, .bf16⟩ : BufTy).Contents (Elt Ideal))
          (W0 m ρ c (Proc.devRef .tc main_arg3)) := by
    first | (after_results; done) | (after_results; rfl)
  show (StableHlo.after (hostOps0 (F := Ideal)) (W0 m ρ c) (Proc.devRef .tc main_v2) : S4096x4096.Idx → EReal) y = _
  rw [e]; rfl
/-- The host stretch's change of format of argument `main_arg5` is the identity on the extended reals. -/
theorem W1_main_v3 (c : Dev nD) (y : S4096x4096.Idx) :
    (W1 (F := Ideal) m ρ c (Proc.devRef .tc main_v3) : S4096x4096.Idx → EReal) y = (m ((c : Thread nD τ).loc main_arg5) : S4096x4096.Idx → EReal) y := by
  have e : StableHlo.after (hostOps0 (F := Ideal)) (W0 m ρ c) (Proc.devRef .tc main_v3)
      = ((truncf (F := Ideal) .bf16 · Facts₀.bitsLt_bf16_f32) : (⟨S4096x4096, .f32⟩ : BufTy).Contents (Elt Ideal) → (⟨S4096x4096, .bf16⟩ : BufTy).Contents (Elt Ideal))
          (W0 m ρ c (Proc.devRef .tc main_arg5)) := by
    first | (after_results; done) | (after_results; rfl)
  show (StableHlo.after (hostOps0 (F := Ideal)) (W0 m ρ c) (Proc.devRef .tc main_v3) : S4096x4096.Idx → EReal) y = _
  rw [e]; rfl
/-- The host stretch's change of format of argument `main_arg7` is the identity on the extended reals. -/
theorem W1_main_v4 (c : Dev nD) (y : S4096x4096.Idx) :
    (W1 (F := Ideal) m ρ c (Proc.devRef .tc main_v4) : S4096x4096.Idx → EReal) y = (m ((c : Thread nD τ).loc main_arg7) : S4096x4096.Idx → EReal) y := by
  have e : StableHlo.after (hostOps0 (F := Ideal)) (W0 m ρ c) (Proc.devRef .tc main_v4)
      = ((truncf (F := Ideal) .bf16 · Facts₀.bitsLt_bf16_f32) : (⟨S4096x4096, .f32⟩ : BufTy).Contents (Elt Ideal) → (⟨S4096x4096, .bf16⟩ : BufTy).Contents (Elt Ideal))
          (W0 m ρ c (Proc.devRef .tc main_arg7)) := by
    first | (after_results; done) | (after_results; rfl)
  show (StableHlo.after (hostOps0 (F := Ideal)) (W0 m ρ c) (Proc.devRef .tc main_v4) : S4096x4096.Idx → EReal) y = _
  rw [e]; rfl

theorem W1_main_arg2 (c : Dev nD) : W1 (F := Ideal) m ρ c (Proc.devRef .tc main_arg2) = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg4 (c : Dev nD) : W1 (F := Ideal) m ρ c (Proc.devRef .tc main_arg4) = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg6 (c : Dev nD) : W1 (F := Ideal) m ρ c (Proc.devRef .tc main_arg6) = m ((c : Thread nD τ).loc main_arg6) :=
  (StableHlo.after_of_forall_not_mem (b := Proc.devRef .tc main_arg6) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg8 (c : Dev nD) : W1 (F := Ideal) m ρ c (Proc.devRef .tc main_arg8) = m ((c : Thread nD τ).loc main_arg8) :=
  (StableHlo.after_of_forall_not_mem (b := Proc.devRef .tc main_arg8) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl

/-! ## What crosses each region unchanged -/

theorem V2_main_v0_eq_V1 (c : Dev nD) : W2 m ρ c (Proc.devRef .tc main_v0) = W1 m ρ c (Proc.devRef .tc main_v0) :=
  ((W2_arr m ρ c 0).trans (((dat0 (V1 m ρ) c).arrAt_in 0 rfl _).trans (A_eq0 (V1 m ρ) c 0)))
theorem V3_main_v0_eq_V1 (c : Dev nD) : W3 m ρ c (Proc.devRef .tc main_v0) = W1 m ρ c (Proc.devRef .tc main_v0) :=
  (((W3_arr m ρ c 0).trans (((dat1 (V2 m ρ) c).arrAt_in 0 rfl _).trans (A_eq1 (V2 m ρ) c 0))).trans ((W2_arr m ρ c 0).trans (((dat0 (V1 m ρ) c).arrAt_in 0 rfl _).trans (A_eq0 (V1 m ρ) c 0))))
theorem V2_main_v2_eq_V1 (c : Dev nD) : W2 m ρ c (Proc.devRef .tc main_v2) = W1 m ρ c (Proc.devRef .tc main_v2) :=
  (W2_of_ne m ρ c main_v2 (by decide))
theorem V2_main_arg4_eq_V1 (c : Dev nD) : W2 m ρ c (Proc.devRef .tc main_arg4) = W1 m ρ c (Proc.devRef .tc main_arg4) :=
  (W2_of_ne m ρ c main_arg4 (by decide))
theorem V3_main_v3_eq_V1 (c : Dev nD) : W3 m ρ c (Proc.devRef .tc main_v3) = W1 m ρ c (Proc.devRef .tc main_v3) :=
  ((W3_of_ne m ρ c main_v3 (by decide)).trans (W2_of_ne m ρ c main_v3 (by decide)))
theorem V3_main_arg6_eq_V1 (c : Dev nD) : W3 m ρ c (Proc.devRef .tc main_arg6) = W1 m ρ c (Proc.devRef .tc main_arg6) :=
  ((W3_of_ne m ρ c main_arg6 (by decide)).trans (W2_of_ne m ρ c main_arg6 (by decide)))
theorem V4_main_v6_eq_V3 (c : Dev nD) : W4 m ρ c (Proc.devRef .tc main_v6) = W3 m ρ c (Proc.devRef .tc main_v6) :=
  (W4_of_ne m ρ c main_v6 (by decide))
theorem V4_main_v5_eq_V2 (c : Dev nD) : W4 m ρ c (Proc.devRef .tc main_v5) = W2 m ρ c (Proc.devRef .tc main_v5) :=
  ((W4_of_ne m ρ c main_v5 (by decide)).trans (W3_of_ne m ρ c main_v5 (by decide)))
theorem V5_main_v4_eq_V1 (c : Dev nD) : W5 m ρ c (Proc.devRef .tc main_v4) = W1 m ρ c (Proc.devRef .tc main_v4) :=
  ((W5_of_ne m ρ c main_v4 (by decide)).trans ((W4_of_ne m ρ c main_v4 (by decide)).trans ((W3_of_ne m ρ c main_v4 (by decide)).trans (W2_of_ne m ρ c main_v4 (by decide)))))
theorem V5_main_arg8_eq_V1 (c : Dev nD) : W5 m ρ c (Proc.devRef .tc main_arg8) = W1 m ρ c (Proc.devRef .tc main_arg8) :=
  ((W5_of_ne m ρ c main_arg8 (by decide)).trans ((W4_of_ne m ρ c main_arg8 (by decide)).trans ((W3_of_ne m ρ c main_arg8 (by decide)).trans (W2_of_ne m ρ c main_arg8 (by decide)))))

end Cert.KernelIdeal.Frames

end
-- ==== Proof.AttnSpec.lean ====
/-
  The attention stage over three arbitrary 4096 × 4096 arrays of extended reals — queries, keys, values, cut into
  sixteen chunks of 256 rows — so that the block's specification is its instance at the three linear layers.
-/
import proofs.«160876_j7095285973076_1_alg».proof.Proof.Spec

noncomputable section

namespace Cert.Spec

open Idealize.ShloMosaic Idealize.ShloMosaic.ValueIdx

section

variable (Qm Km Vm : Fin 4096 → Fin 4096 → EReal)

/-- The scaled score of row `a` against row `b` of chunk `h`. -/
def scoreOf (h : Fin 16) (a b : Fin 256) : EReal :=
  (∑ d : Fin 4096, Qm (row h a) d * Km (row h b) d) * scale
/-- The row's largest score, from −∞ and once more against −∞. -/
def rowMaxOf (h : Fin 16) (a : Fin 256) : EReal :=
  max negInf ((Finset.univ : Finset (Fin 256)).fold max negInf fun b => scoreOf Qm Km h a b)
def expoOf (h : Fin 16) (a b : Fin 256) : EReal :=
  Ideal.exp (scoreOf Qm Km h a b - rowMaxOf Qm Km h a)
def rowSumOf (h : Fin 16) (a : Fin 256) : EReal :=
  ∑ b : Fin 256, expoOf Qm Km h a b
def weightOf (h : Fin 16) (a b : Fin 256) : EReal :=
  Ideal.div (expoOf Qm Km h a b) (rowSumOf Qm Km h a)
/-- Chunk `h`'s weights against its rows of the values. -/
def attnOf (h : Fin 16) (a : Fin 256) (d : Fin 4096) : EReal :=
  ∑ b : Fin 256, weightOf Qm Km h a b * Vm (row h b) d

end

/-- The block's attention stage is the general one at the three linear layers: the (Wv, bv) projection the queries,
    the (Wk, bk) projection the keys, the (Wq, bq) projection the values. -/
theorem mixed_eq_attnOf (x Wq : Mat) (bq : Row) (Wk : Mat) (bk : Row) (Wv : Mat) (bv : Row) (h : Fin 16) (a : Fin 256) (d : Fin 4096) :
    mixed x Wq bq Wk bk Wv bv h a d = attnOf (linear x Wv bv) (linear x Wk bk) (linear x Wq bq) h a d := rfl

end Cert.Spec

end
-- ==== Proof.PayLinear.lean ====
/-
  The linear kernels' stored values read at one entry, on the extended reals.

  Each linear kernel works on 1024 × 1024 blocks and stores three values: the zero fill of its accumulator; the
  accumulator plus the product of an input block and a weight block, both contracted along their SECOND axis, so
  that entry (p, q) gains row p of the input block against row q of the weight block; and, at the last step along
  the contraction, the accumulator plus the bias row repeated down the rows (followed, in the three projections,
  by a change of format, which is the identity on the extended reals). The four kernels print the same three
  terms, so the later ones are read by the first one's lemmas.
-/
import proofs.«160876_j7095285973076_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- The zero fill: the accumulator's first content is the extended real 0 at every entry. -/
theorem k0_pay1_apply (p q : Fin 1024) : Gen.k0_pay1 (F := Ideal) (ix2 p q) = 0 := by
  unfold Gen.k0_pay1
  rw [shapeCast_self]
  exact Ideal.ofBits_zero_f32

theorem lin_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lin_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem lin_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem lin_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A 1024 × 1024 block product contracting the SECOND axis of both operands, into the zero accumulator:
    entry (p, q) is row p of the left operand against row q of the right one. -/
theorem lin_matmul_apply (l r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lin_lhs_0 _ _
    | ⟨1, _⟩ => exact (lin_lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact lin_rhs_0 _ _
    | ⟨1, _⟩ => exact (lin_rhs_1 _ _).trans hk)
  rw [el, er]

/-- The accumulation step: the accumulator plus the block product. -/
theorem k0_pay2_apply (v3 : Vec Ideal S1024x1024 .f32) (v4 v6 : Vec Ideal S1024x1024 .bf16) (p q : Fin 1024) :
    Gen.k0_pay2 (F := Ideal) v3 v4 v6 (ix2 p q) = v3 (ix2 p q) + ∑ k : Fin 1024, v4 (ix2 p k) * v6 (ix2 q k) := by
  unfold Gen.k0_pay2
  simp only [shapeCast_self]
  rw [addf_apply, lin_matmul_apply]

/-- The last step: the accumulator plus the bias at the entry's column. -/
theorem k0_pay3_apply (v16 : Vec Ideal S1024x1024 .f32) (v17 : Vec Ideal S1024 .f32) (p q : Fin 1024) :
    Gen.k0_pay3 (F := Ideal) v16 v17 (ix2 p q) = v16 (ix2 p q) + v17 (ix1 q) := by
  unfold Gen.k0_pay3
  rw [truncf_apply, addf_apply, broadcastTo_1b_ab_apply, shapeCast_a_1a_apply]

/-! ### The same three payloads of the second linear layer -/

theorem k1_pay1_apply (p q : Fin 1024) : Gen.k1_pay1 (F := Ideal) (ix2 p q) = 0 :=
  k0_pay1_apply p q

theorem k1_pay2_apply (v3 : Vec Ideal S1024x1024 .f32) (v4 v6 : Vec Ideal S1024x1024 .bf16) (p q : Fin 1024) :
    Gen.k1_pay2 (F := Ideal) v3 v4 v6 (ix2 p q) = v3 (ix2 p q) + ∑ k : Fin 1024, v4 (ix2 p k) * v6 (ix2 q k) :=
  k0_pay2_apply v3 v4 v6 p q

theorem k1_pay3_apply (v16 : Vec Ideal S1024x1024 .f32) (v17 : Vec Ideal S1024 .f32) (p q : Fin 1024) :
    Gen.k1_pay3 (F := Ideal) v16 v17 (ix2 p q) = v16 (ix2 p q) + v17 (ix1 q) :=
  k0_pay3_apply v16 v17 p q

/-! ### The same three payloads of the third linear layer -/

theorem k2_pay1_apply (p q : Fin 1024) : Gen.k2_pay1 (F := Ideal) (ix2 p q) = 0 :=
  k0_pay1_apply p q

theorem k2_pay2_apply (v3 : Vec Ideal S1024x1024 .f32) (v4 v6 : Vec Ideal S1024x1024 .bf16) (p q : Fin 1024) :
    Gen.k2_pay2 (F := Ideal) v3 v4 v6 (ix2 p q) = v3 (ix2 p q) + ∑ k : Fin 1024, v4 (ix2 p k) * v6 (ix2 q k) :=
  k0_pay2_apply v3 v4 v6 p q

theorem k2_pay3_apply (v16 : Vec Ideal S1024x1024 .f32) (v17 : Vec Ideal S1024 .f32) (p q : Fin 1024) :
    Gen.k2_pay3 (F := Ideal) v16 v17 (ix2 p q) = v16 (ix2 p q) + v17 (ix1 q) :=
  k0_pay3_apply v16 v17 p q

/-! ### The same three payloads of the output linear layer -/

theorem k4_pay1_apply (p q : Fin 1024) : Gen.k4_pay1 (F := Ideal) (ix2 p q) = 0 :=
  k0_pay1_apply p q

theorem k4_pay2_apply (v3 : Vec Ideal S1024x1024 .f32) (v4 v6 : Vec Ideal S1024x1024 .bf16) (p q : Fin 1024) :
    Gen.k4_pay2 (F := Ideal) v3 v4 v6 (ix2 p q) = v3 (ix2 p q) + ∑ k : Fin 1024, v4 (ix2 p k) * v6 (ix2 q k) :=
  k0_pay2_apply v3 v4 v6 p q

/-- The output layer stores the biased accumulator as it is, with no change of format. -/
theorem k4_pay3_apply (v16 : Vec Ideal S1024x1024 .f32) (v17 : Vec Ideal S1024 .f32) (p q : Fin 1024) :
    Gen.k4_pay3 (F := Ideal) v16 v17 (ix2 p q) = v16 (ix2 p q) + v17 (ix1 q) := by
  unfold Gen.k4_pay3
  rw [addf_apply, broadcastTo_1b_ab_apply, shapeCast_a_1a_apply]

end Cert.KernelIdeal.PayValue

end
-- ==== Proof.BlockSum.lean ====
/-
  A sum over 4096 consecutive terms, cut into four runs of 1024: term `1024 s + kk` is term `kk` of run `s`.
  Only the commutative monoid structure of the sum is used.
-/
import Mathlib.Algebra.BigOperators.Fin
import Mathlib.Logic.Equiv.Fin.Basic

namespace Cert.BlockSum

/-- Term `1024 s + kk` of a run of 4096, `s` below 4 and `kk` below 1024. -/
def at4 (s : Fin 4) (kk : Fin 1024) : Fin 4096 := ⟨1024 * s.val + kk.val, by have := s.isLt; have := kk.isLt; omega⟩

theorem at4_val (s : Fin 4) (kk : Fin 1024) : (at4 s kk).val = 1024 * s.val + kk.val := rfl

/-- The whole sum is the sum of the four runs' sums. -/
theorem sum_four_runs {β : Type*} [AddCommMonoid β] (f : Fin 4096 → β) :
    ∑ k : Fin 4096, f k = ∑ s : Fin 4, ∑ kk : Fin 1024, f (at4 s kk) := by
  rw [← Equiv.sum_comp (finProdFinEquiv (m := 4) (n := 1024)) f, Fintype.sum_prod_type]
  refine Finset.sum_congr rfl fun s _ => Finset.sum_congr rfl fun kk _ => congrArg f (Fin.ext ?_)
  show kk.val + 1024 * s.val = 1024 * s.val + kk.val
  omega

end Cert.BlockSum
-- ==== Proof.LinValue0.lean ====
/-
  Linear region 0, read as values: the 1024 × 1024 block a last k-block stores is the block of the linear layer.

  The region walks a 4 × 4 × 4 grid, point `t = 16 i + 4 j + k`. At point t it holds block (i, k) of the input
  (rows 1024 i …, columns 1024 k …), block (j, k) of the weight and block j of the bias. Its accumulator is zero
  filled at k = 0 and gains, at every k, the product of the two blocks contracted along their second axis: entry
  (p, q) gains ∑ kk, input(1024 i + p, 1024 k + kk) · weight(1024 j + q, 1024 k + kk). After k = 3 the four partial
  sums, from zero, are the whole row product over the 4096 columns (a sum over 4096 terms is the sum of its four
  runs of 1024; only associativity and commutativity of + and 0 + x = x are used), and the stored block adds the
  bias at column 1024 j + q.

  First what each case of the body leaves is read off the pieces the run found (any float values); then the
  accumulator is followed along a run of four points as a fold; then, on the extended reals, the fold is opened
  at an entry and regrouped.
-/
import proofs.«160876_j7095285973076_1_alg».proof.Proof.LinFrame0
import proofs.«160876_j7095285973076_1_alg».proof.Proof.PayLinear
import proofs.«160876_j7095285973076_1_alg».proof.Proof.BlockSum
import proofs.«160876_j7095285973076_1_alg».proof.Proof.Spec
import Idealize.ShloMosaic.Lib.Pipeline.Value
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section AnyF
variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl
theorem hz0' : (![0] : Fin 1 → Nat) = fun _ => 0 := funext fun a => by fin_cases a; rfl

theorem soutA0_eq (c : Dev nD) (t : Fin cfg0.N) (h0 : t.val % 4 = 0) (h1 : ¬t.val % 4 = 3) :
    soutA0 V c t h0 h1 = k0_pay2 (k0_pay1 (F := F)) (iblk0 V c 0 t) (iblk0 V c 1 t) := by
  unfold soutA0
  rw [View.read_writes_eq_canon _ _ _ (scoverA0 V c t h0 h1)]
  unfold kernelRun0_A
  dsimp only
  sl_unfold_words
  rw [View.canon_cons_unit_zero (S := S1024x1024) hz0, View.readCov_unit_zero (S := S1024x1024) _ hz0]
  simp only [View.readAt_eq_ld, (hs0_0 t).read_unread, (hs0_1 t).read_unread, View.ld_unit_zero (S := S1024x1024) hz0]

theorem soutB0_eq (c : Dev nD) (t : Fin cfg0.N) (h0 : ¬t.val % 4 = 0) (h1 : ¬t.val % 4 = 3) (xs : Vec F S1024x1024 .f32) :
    soutB0 V c t h0 h1 xs = k0_pay2 xs (iblk0 V c 0 t) (iblk0 V c 1 t) := by
  unfold soutB0
  rw [View.read_writes_eq_canon _ _ _ (scoverB0 V c t h0 h1 xs)]
  unfold kernelRun0_B
  dsimp only
  sl_unfold_words
  rw [View.canon_unit_zero (S := S1024x1024) hz0]
  simp only [View.readAt_eq_ld, (hs0_0 t).read_unread, (hs0_1 t).read_unread, (Memref.isWhole_whole cc0_scratch0).read_unread, View.ld_unit_zero (S := S1024x1024) hz0]

theorem soutC0_eq (c : Dev nD) (t : Fin cfg0.N) (h0 : ¬t.val % 4 = 0) (h1 : t.val % 4 = 3) (xs : Vec F S1024x1024 .f32) :
    soutC0 V c t h0 h1 xs = k0_pay2 xs (iblk0 V c 0 t) (iblk0 V c 1 t) := by
  unfold soutC0
  rw [View.read_writes_eq_canon _ _ _ (scoverC0 V c t h0 h1 xs)]
  unfold kernelRun0_C
  dsimp only
  sl_unfold_words
  rw [View.canon_unit_zero (S := S1024x1024) hz0]
  simp only [View.readAt_eq_ld, (hs0_0 t).read_unread, (hs0_1 t).read_unread, (Memref.isWhole_whole cc0_scratch0).read_unread, View.ld_unit_zero (S := S1024x1024) hz0]

theorem outC0_eq (c : Dev nD) (t : Fin cfg0.N) (h0 : ¬t.val % 4 = 0) (h1 : t.val % 4 = 3) (xs : Vec F S1024x1024 .f32) :
    outC0 V c t h0 h1 xs = k0_pay3 (k0_pay2 xs (iblk0 V c 0 t) (iblk0 V c 1 t)) (iblk0 V c 2 t) := by
  unfold outC0
  rw [View.read_writes_eq_canon _ _ _ (coverC0 V c t h0 h1 xs)]
  unfold kernelRun0_C
  dsimp only
  sl_unfold_words
  rw [View.canon_unit_zero (S := S1024x1024) hz0, View.readCov_unit_zero (S := S1024x1024) _ hz0]
  simp only [View.readAt_eq_ld, (hs0_0 t).read_unread, (hs0_1 t).read_unread, (hs0_2 t).read_unread, (Memref.isWhole_whole cc0_scratch0).read_unread, View.ld_unit_zero (S := S1024x1024) hz0, View.ld_unit_zero (S := S1024) hz0']

/-! ## The accumulator and the stored block, point by point (any float values)

From here on what each case leaves is used only through the lemmas above and the three case equations of the
recursion, never by unfolding. -/

attribute [local irreducible] soutA0 soutB0 soutC0 outC0 outIdle0 outsAt0

/-- The accumulator after a first k-block: zero filled, then the first product added. -/
theorem acc_A0 (c : Dev nD) (t : Fin cfg0.N) (h0 : t.val % 4 = 0) (h1 : ¬t.val % 4 = 3) :
    (outsAt0 V c t.val t.isLt).2 = k0_pay2 (k0_pay1 (F := F)) (iblk0 V c 0 t) (iblk0 V c 1 t) :=
  (congrArg Prod.snd (outsAt0_A V c t h0 h1)).trans (soutA0_eq V c t h0 h1)

/-- The accumulator after a later k-block: a product added to what the point before left. -/
theorem acc_BC0 (c : Dev nD) (t : Fin cfg0.N) (h0 : ¬t.val % 4 = 0) :
    (outsAt0 V c t.val t.isLt).2
      = k0_pay2 (outsAt0 V c (t.val - 1) (Nat.lt_of_le_of_lt (Nat.sub_le _ _) t.isLt)).2 (iblk0 V c 0 t) (iblk0 V c 1 t) := by
  by_cases h1 : t.val % 4 = 3
  · exact (congrArg Prod.snd (outsAt0_C V c t h0 h1)).trans (soutC0_eq V c t h0 h1 _)
  · exact (congrArg Prod.snd (outsAt0_B V c t h0 h1)).trans (soutB0_eq V c t h0 h1 _)

/-- The block a last k-block stores: the accumulator it leaves, plus the bias row. -/
theorem out_C0 (c : Dev nD) (t : Fin cfg0.N) (h0 : ¬t.val % 4 = 0) (h3 : t.val % 4 = 3) :
    (outsAt0 V c t.val t.isLt).1 = k0_pay3 (outsAt0 V c t.val t.isLt).2 (iblk0 V c 2 t) :=
  (congrArg Prod.fst (outsAt0_C V c t h0 h3)).trans ((outC0_eq V c t h0 h3 _).trans
    (congrArg (fun a => k0_pay3 a (iblk0 V c 2 t))
      ((soutC0_eq V c t h0 h3 _).symm.trans (congrArg Prod.snd (outsAt0_C V c t h0 h3)).symm)))

end AnyF

/-! ## The value at the ideal instance -/

section AtIdeal

variable (V : (c : Dev nD) → (b : Ref sig .tc) → Buf (Elt Ideal) ((c : Thread nD τ).loc b))

/-- The printed index maps, decided once over the grid: at point `t = 16 i + 4 j + k` the input block is (i, k), the
    weight block (j, k), the bias block j and the output block (i, j). -/
theorem idx_facts0 : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- The input block at a point, its weight block and its bias block, typed as the body types them. -/
def xblk0 (c : Dev nD) (n : Fin cfg0.N) : Vec Ideal S1024x1024 .bf16 := iblk0 V c 0 n
def wblk0 (c : Dev nD) (n : Fin cfg0.N) : Vec Ideal S1024x1024 .bf16 := iblk0 V c 1 n
def bblk0 (c : Dev nD) (n : Fin cfg0.N) : Vec Ideal S1024 .f32 := iblk0 V c 2 n

/-- Entry (p, kk) of the input block at point `n` is entry (1024 (n / 16) + p, 1024 (n % 4) + kk) of the array. -/
theorem xblk0_apply (c : Dev nD) (n : Fin cfg0.N) (p kk : Fin 1024) (I K : Fin 4096)
    (hI : I.val = 1024 * (n.val / 16) + p.val) (hK : K.val = 1024 * (n.val % 4) + kk.val) :
    xblk0 V c n (ix2 p kk) = (V c main_v0 : S4096x4096.Idx → EReal) (ix2 I K) := by
  obtain ⟨e0, e1, -⟩ := idx_facts0 n
  unfold xblk0 iblk0
  rw [View.read_apply]
  show V c main_v0 _ = V c main_v0 _
  congr 1
  funext a; apply Fin.ext
  match a with
  | ⟨0, _⟩ => show win0_0.index n (0 : Fin 2) * 1024 + 1 * p.val = I.val; rw [e0, hI]; omega
  | ⟨1, _⟩ => show win0_0.index n (1 : Fin 2) * 1024 + 1 * kk.val = K.val; rw [e1, hK]; omega

/-- Entry (q, kk) of the weight block at point `n` is entry (1024 (n / 4 % 4) + q, 1024 (n % 4) + kk) of the array. -/
theorem wblk0_apply (c : Dev nD) (n : Fin cfg0.N) (q kk : Fin 1024) (J K : Fin 4096)
    (hJ : J.val = 1024 * (n.val / 4 % 4) + q.val) (hK : K.val = 1024 * (n.val % 4) + kk.val) :
    wblk0 V c n (ix2 q kk) = (V c main_v1 : S4096x4096.Idx → EReal) (ix2 J K) := by
  obtain ⟨-, -, e0, e1, -⟩ := idx_facts0 n
  unfold wblk0 iblk0
  rw [View.read_apply]
  show V c main_v1 _ = V c main_v1 _
  congr 1
  funext a; apply Fin.ext
  match a with
  | ⟨0, _⟩ => show win0_1.index n (0 : Fin 2) * 1024 + 1 * q.val = J.val; rw [e0, hJ]; omega
  | ⟨1, _⟩ => show win0_1.index n (1 : Fin 2) * 1024 + 1 * kk.val = K.val; rw [e1, hK]; omega

/-- Entry q of the bias block at point `n` is entry 1024 (n / 4 % 4) + q of the bias. -/
theorem bblk0_apply (c : Dev nD) (n : Fin cfg0.N) (q : Fin 1024) (J : Fin 4096)
    (hJ : J.val = 1024 * (n.val / 4 % 4) + q.val) :
    bblk0 V c n (ix1 q) = (V c main_arg2 : S4096.Idx → EReal) (ix1 J) := by
  obtain ⟨-, -, -, -, e0, -⟩ := idx_facts0 n
  unfold bblk0 iblk0
  rw [View.read_apply]
  show V c main_arg2 _ = V c main_arg2 _
  congr 1
  funext a; apply Fin.ext
  match a with
  | ⟨0, _⟩ => show win0_2.index n (0 : Fin 1) * 1024 + 1 * q.val = J.val; rw [e0, hJ]; omega

/-! ### The accumulator, point by point -/

/-- What point `n` adds to the accumulator at an entry: row p of its input block against row q of its weight block. -/
def addend0 (c : Dev nD) (n : ℕ) (y : S1024x1024.Idx) : EReal :=
  if h : n < cfg0.N then ∑ kk : Fin 1024, xblk0 V c ⟨n, h⟩ (ix2 (y 0) kk) * wblk0 V c ⟨n, h⟩ (ix2 (y 1) kk) else 0

/-- The accumulator after point `n`; what a first k-block leaves; what a later k-block makes of what it finds. -/
def accF0 (c : Dev nD) : (n : ℕ) → n < cfg0.N → Vec Ideal S1024x1024 .f32 := fun n h => (outsAt0 V c n h).2
def accReset0 (c : Dev nD) : (n : ℕ) → n < cfg0.N → Vec Ideal S1024x1024 .f32 :=
  fun n h => k0_pay2 (k0_pay1 (F := Ideal)) (xblk0 V c ⟨n, h⟩) (wblk0 V c ⟨n, h⟩)
def accStep0 (c : Dev nD) : (n : ℕ) → n < cfg0.N → Vec Ideal S1024x1024 .f32 → Vec Ideal S1024x1024 .f32 :=
  fun n h acc => k0_pay2 acc (xblk0 V c ⟨n, h⟩) (wblk0 V c ⟨n, h⟩)

theorem acc_reset0 (c : Dev nD) (n : ℕ) (h : n < cfg0.N) (h0 : n % 4 = 0) : accF0 V c n h = accReset0 V c n h :=
  acc_A0 V c ⟨n, h⟩ h0 (by show ¬n % 4 = 3; omega)

theorem acc_step0 (c : Dev nD) (n : ℕ) (h : n + 1 < cfg0.N) (hne : ¬(n + 1) % 4 = 0) :
    accF0 V c (n + 1) h = accStep0 V c (n + 1) h (accF0 V c n (Nat.lt_of_succ_lt h)) :=
  acc_BC0 V c ⟨n + 1, h⟩ hne

theorem accReset0_apply (c : Dev nD) (n : ℕ) (h : n < cfg0.N) (y : S1024x1024.Idx) :
    accReset0 V c n h y = 0 + addend0 V c n y := by
  obtain ⟨p, q, rfl⟩ : ∃ p q : Fin 1024, y = ix2 p q := ⟨y 0, y 1, eq_ix2 y⟩
  unfold accReset0 addend0
  rw [dif_pos h]
  exact (PayValue.k0_pay2_apply _ (xblk0 V c ⟨n, h⟩) (wblk0 V c ⟨n, h⟩) p q).trans (by rw [PayValue.k0_pay1_apply])

theorem accStep0_apply (c : Dev nD) (n : ℕ) (h : n < cfg0.N) (acc : Vec Ideal S1024x1024 .f32) (y : S1024x1024.Idx) :
    accStep0 V c n h acc y = acc y + addend0 V c n y := by
  obtain ⟨p, q, rfl⟩ : ∃ p q : Fin 1024, y = ix2 p q := ⟨y 0, y 1, eq_ix2 y⟩
  unfold accStep0 addend0
  rw [dif_pos h]
  exact PayValue.k0_pay2_apply acc (xblk0 V c ⟨n, h⟩) (wblk0 V c ⟨n, h⟩) p q

/-- After a last k-block the accumulator holds, from zero, the four points' products of its run. -/
theorem acc_closed0 (c : Dev nD) (t : Fin cfg0.N) (h3 : t.val % 4 = 3) (y : S1024x1024.Idx) :
    (outsAt0 V c t.val t.isLt).2 y = 0 + ∑ s ∈ Finset.range 4, addend0 V c (4 * (t.val / 4) + s) y := by
  have hN : cfg0.N = 64 := N_0
  have hb : 4 * (t.val / 4) + t.val % 4 < cfg0.N := by have := t.isLt; omega
  have e1 := Pipeline.eq_accAt_of_mod (accF0 V c) 4 (accReset0 V c) (accStep0 V c) (acc_reset0 V c) (acc_step0 V c)
    (by decide) t.val t.isLt hb
  have e2 := Pipeline.accAt_add_apply (accReset0 V c) (accStep0 V c) (fun _ => (0 : EReal)) (addend0 V c) (4 * (t.val / 4)) 3
    (fun h i => accReset0_apply V c _ h i) (fun n h acc i _ _ => accStep0_apply V c n h acc i) (t.val % 4) (by omega) hb y
  refine (congrFun e1 y).trans (e2.trans ?_)
  rw [h3]

/-! ### The block a last k-block stores -/

/-- Entry (p, q) of the block a last k-block stores is entry (1024 i + p, 1024 j + q) of the linear layer: the four
    k-blocks' partial sums, from zero, are the whole row product, and the bias block is the bias at 1024 j + q. -/
theorem block0_value (c : Dev nD) (t : Fin cfg0.N) (h3 : t.val % 4 = 3) (p q : Fin 1024) (I J : Fin 4096)
    (hI : I.val = 1024 * (t.val / 16) + p.val) (hJ : J.val = 1024 * (t.val / 4 % 4) + q.val) :
    ((outsAt0 (F := Ideal) V c t.val t.isLt).1 : S1024x1024.Idx → EReal) (ix2 p q)
      = Cert.Spec.linear (V c main_v0) (V c main_v1) (V c main_arg2) I J := by
  have hN : cfg0.N = 64 := N_0
  have ht := t.isLt
  have h0 : ¬t.val % 4 = 0 := by omega
  have hacc := acc_closed0 V c t h3 (ix2 p q)
  refine (congrFun (out_C0 V c t h0 h3) (ix2 p q)).trans ((PayValue.k0_pay3_apply _ (bblk0 V c t) p q).trans ?_)
  unfold Cert.Spec.linear
  refine congrArg₂ (· + ·) (hacc.trans ?_) (bblk0_apply V c t q J hJ)
  rw [zero_add, Finset.sum_range, Cert.BlockSum.sum_four_runs]
  refine Finset.sum_congr rfl fun s _ => ?_
  have hs := s.isLt
  have hlt : 4 * (t.val / 4) + s.val < cfg0.N := by omega
  unfold addend0
  rw [dif_pos hlt]
  refine Finset.sum_congr rfl fun kk _ => ?_
  exact congrArg₂ (· * ·)
    (xblk0_apply V c ⟨_, hlt⟩ p kk I (Cert.BlockSum.at4 s kk) (by rw [hI]; show _ = 1024 * ((4 * (t.val / 4) + s.val) / 16) + p.val; omega)
      (by rw [Cert.BlockSum.at4_val]; show _ = 1024 * ((4 * (t.val / 4) + s.val) % 4) + kk.val; omega))
    (wblk0_apply V c ⟨_, hlt⟩ q kk J (Cert.BlockSum.at4 s kk) (by rw [hJ]; show _ = 1024 * ((4 * (t.val / 4) + s.val) / 4 % 4) + q.val; omega)
      (by rw [Cert.BlockSum.at4_val]; show _ = 1024 * ((4 * (t.val / 4) + s.val) % 4) + kk.val; omega))

end AtIdeal

end Cert.KernelIdeal.Frames

end
-- ==== Proof.LinCover0.lean ====
/-
  Linear region 0 (the first linear layer) from blocks to the array, on the extended reals.

  The region runs over sixty-four points t = 16 i + 4 j + k. The output window's block at t is block (i, j) of its
  array, 1024 × 1024 entries, and it is written back only at the last step k = 3 of each (i, j), when it holds the
  linear layer's entries of rows 1024 i to 1024 i + 1023 and columns 1024 j to 1024 j + 1023. So every write-back
  is a block of ONE function of the three arrays the region reads, the sixteen written blocks cover the array
  (entry (r, s) lies in the block written at the point 16 (r / 1024) + 4 (s / 1024) + 3), and after the region the
  output array is that function.
-/
import proofs.«160876_j7095285973076_1_alg».proof.Proof.LinFrame0
import proofs.«160876_j7095285973076_1_alg».proof.Proof.Spec
import proofs.«160876_j7095285973076_1_alg».proof.Proof.LinValue0
import Idealize.ShloMosaic.Lib.Pipeline.Value
import Idealize.ShloMosaic.Lib.ValueIdx

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output window's index map over the sixty-four points: at point `t = 16 i + 4 j + k` its block is block (i, j). -/
theorem idx_facts0_3 : ∀ t : Fin cfg0.N, win0_3.index t (0 : Fin 2) = t.val / 16 ∧ win0_3.index t (1 : Fin 2) = t.val / 4 % 4 :=
  (by decide +kernel : ∀ t : Fin grid0.N, _)

/-- The output array after the region, as one function of the three arrays it reads: the linear layer, entry by entry. -/
def arr0 (c : Dev nD) : Buf (Elt Ideal) ((c : Thread nD τ).loc main_v5) :=
  fun (i : S4096x4096.Idx) => Cert.Spec.linear (V c main_v0) (V c main_v1) (V c main_arg2) (i 0) (i 1)

theorem arr0_apply (c : Dev nD) (i j : Fin 4096) : arr0 V c (ix2 i j) = Cert.Spec.linear (V c main_v0) (V c main_v1) (V c main_arg2) i j := rfl

/-- WHAT A LAST-STEP POINT WRITES BACK is its block of that function: block entry (p, q) at point `t` is array entry
    (1024 (t / 16) + p, 1024 ((t / 4) % 4) + q). -/
theorem flushed0_eq (c : Dev nD) (t : Fin cfg0.N) (hf : (cfg0.win 3).flush t = true) :
    (dat0 V c).flushed 3 t = ((cfg0.win 3).blk t).view.read (Elt Ideal) (arr0 V c) := by
  have ht : t.val % 4 = 3 := (flush0_3 t).mp hf
  have hN : t.val < 64 := lt_of_lt_of_eq t.isLt N_0
  show (cfg0.win 3).cut (grid0.coords t) ((dat0 V c).after 3 t) = _
  rw [after0_3]
  obtain ⟨e0, e1⟩ := idx_facts0_3 t
  refine funext fun (y : S1024x1024.Idx) => ?_
  obtain ⟨p, q, rfl⟩ : ∃ (p q : Fin 1024), y = ix2 p q := ⟨y 0, y 1, eq_ix2 y⟩
  have hp := p.isLt
  have hq := q.isLt
  show ((outsAt0 (F := Ideal) V c t.val t.isLt).1 : S1024x1024.Idx → EReal) (ix2 p q)
    = arr0 V c (((cfg0.win 3).blk t).view.emb (ix2 p q))
  have hemb : ((cfg0.win 3).blk t).view.emb (ix2 p q)
      = ix2 (⟨1024 * (t.val / 16) + p.val, by omega⟩ : Fin 4096) (⟨1024 * (t.val / 4 % 4) + q.val, by omega⟩ : Fin 4096) := by
    funext b; apply Fin.ext
    match b with
    | ⟨0, _⟩ => show win0_3.index t (0 : Fin 2) * 1024 + 1 * p.val = 1024 * (t.val / 16) + p.val; omega
    | ⟨1, _⟩ => show win0_3.index t (1 : Fin 2) * 1024 + 1 * q.val = 1024 * (t.val / 4 % 4) + q.val; omega
  rw [hemb, arr0_apply]
  exact block0_value V c t ht p q _ _ rfl rfl

/-- An index of the array is in point `t`'s block iff each coordinate is in the block's range on its axis. -/
theorem mem_blk0 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- THE COVER: entry (r, s) of the array lies in the block written back at the point 16 (r / 1024) + 4 (s / 1024) + 3. -/
theorem cover0 (i : S4096x4096.Idx) :
    ∃ t : Fin cfg0.N, (cfg0.win 3).flush t = true ∧ i ∈ ((cfg0.win 3).blk t).view.set := by
  have hi0 : (i 0).val < 4096 := idx2_lt0 i
  have hi1 : (i 1).val < 4096 := idx2_lt1 i
  have hN : cfg0.N = 64 := N_0
  have hlt : 16 * ((i 0).val / 1024) + 4 * ((i 1).val / 1024) + 3 < cfg0.N := by rw [hN]; omega
  obtain ⟨e0, e1⟩ := idx_facts0_3 ⟨16 * ((i 0).val / 1024) + 4 * ((i 1).val / 1024) + 3, hlt⟩
  refine ⟨⟨16 * ((i 0).val / 1024) + 4 * ((i 1).val / 1024) + 3, hlt⟩, (flush0_3 _).mpr (by show (16 * ((i 0).val / 1024) + 4 * ((i 1).val / 1024) + 3) % 4 = 3; omega), ?_⟩
  rw [mem_blk0]
  intro a
  match a with
  | ⟨0, _⟩ =>
    show win0_3.index ⟨16 * ((i 0).val / 1024) + 4 * ((i 1).val / 1024) + 3, hlt⟩ (0 : Fin 2) * 1024 ≤ (i 0).val ∧ (i 0).val < win0_3.index ⟨16 * ((i 0).val / 1024) + 4 * ((i 1).val / 1024) + 3, hlt⟩ (0 : Fin 2) * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ =>
    show win0_3.index ⟨16 * ((i 0).val / 1024) + 4 * ((i 1).val / 1024) + 3, hlt⟩ (1 : Fin 2) * 1024 ≤ (i 1).val ∧ (i 1).val < win0_3.index ⟨16 * ((i 0).val / 1024) + 4 * ((i 1).val / 1024) + 3, hlt⟩ (1 : Fin 2) * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

/-- THE ARRAY after the region is that function. -/
theorem arr0_eq (c : Dev nD) : (dat0 V c).arrAt 3 cfg0.N = arr0 V c :=
  (dat0 V c).arrAt_eq_of_cover 3 (arr0 V c) (fun t hf => flushed0_eq V c t hf) cover0

/-- THE REGION'S VALUE: after the sixty-four points the output array holds the linear layer of the three arrays the
    region reads, as the region finds them, entry by entry. -/
theorem arr0_value (c : Dev nD) (i j : Fin 4096) :
    ((dat0 (F := Ideal) V c).arrAt 3 cfg0.N : S4096x4096.Idx → EReal) (ix2 i j) = Cert.Spec.linear (V c main_v0) (V c main_v1) (V c main_arg2) i j := by
  rw [arr0_eq, arr0_apply]

end Cert.KernelIdeal.Frames

end
-- ==== Proof.LinValue1.lean ====
/-
  Linear region 1, read as values: the 1024 × 1024 block a last k-block stores is the block of the linear layer.

  The region walks a 4 × 4 × 4 grid, point `t = 16 i + 4 j + k`. At point t it holds block (i, k) of the input
  (rows 1024 i …, columns 1024 k …), block (j, k) of the weight and block j of the bias. Its accumulator is zero
  filled at k = 0 and gains, at every k, the product of the two blocks contracted along their second axis: entry
  (p, q) gains ∑ kk, input(1024 i + p, 1024 k + kk) · weight(1024 j + q, 1024 k + kk). After k = 3 the four partial
  sums, from zero, are the whole row product over the 4096 columns (a sum over 4096 terms is the sum of its four
  runs of 1024; only associativity and commutativity of + and 0 + x = x are used), and the stored block adds the
  bias at column 1024 j + q.

  First what each case of the body leaves is read off the pieces the run found (any float values); then the
  accumulator is followed along a run of four points as a fold; then, on the extended reals, the fold is opened
  at an entry and regrouped.
-/
import proofs.«160876_j7095285973076_1_alg».proof.Proof.LinFrame1
import proofs.«160876_j7095285973076_1_alg».proof.Proof.PayLinear
import proofs.«160876_j7095285973076_1_alg».proof.Proof.BlockSum
import proofs.«160876_j7095285973076_1_alg».proof.Proof.Spec
import Idealize.ShloMosaic.Lib.Pipeline.Value
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section AnyF
variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl
theorem hz1' : (![0] : Fin 1 → Nat) = fun _ => 0 := funext fun a => by fin_cases a; rfl

theorem soutA1_eq (c : Dev nD) (t : Fin cfg1.N) (h0 : t.val % 4 = 0) (h1 : ¬t.val % 4 = 3) :
    soutA1 V c t h0 h1 = k1_pay2 (k1_pay1 (F := F)) (iblk1 V c 0 t) (iblk1 V c 1 t) := by
  unfold soutA1
  rw [View.read_writes_eq_canon _ _ _ (scoverA1 V c t h0 h1)]
  unfold kernelRun1_A
  dsimp only
  sl_unfold_words
  rw [View.canon_cons_unit_zero (S := S1024x1024) hz1, View.readCov_unit_zero (S := S1024x1024) _ hz1]
  simp only [View.readAt_eq_ld, (hs1_0 t).read_unread, (hs1_1 t).read_unread, View.ld_unit_zero (S := S1024x1024) hz1]

theorem soutB1_eq (c : Dev nD) (t : Fin cfg1.N) (h0 : ¬t.val % 4 = 0) (h1 : ¬t.val % 4 = 3) (xs : Vec F S1024x1024 .f32) :
    soutB1 V c t h0 h1 xs = k1_pay2 xs (iblk1 V c 0 t) (iblk1 V c 1 t) := by
  unfold soutB1
  rw [View.read_writes_eq_canon _ _ _ (scoverB1 V c t h0 h1 xs)]
  unfold kernelRun1_B
  dsimp only
  sl_unfold_words
  rw [View.canon_unit_zero (S := S1024x1024) hz1]
  simp only [View.readAt_eq_ld, (hs1_0 t).read_unread, (hs1_1 t).read_unread, (Memref.isWhole_whole cc1_scratch0).read_unread, View.ld_unit_zero (S := S1024x1024) hz1]

theorem soutC1_eq (c : Dev nD) (t : Fin cfg1.N) (h0 : ¬t.val % 4 = 0) (h1 : t.val % 4 = 3) (xs : Vec F S1024x1024 .f32) :
    soutC1 V c t h0 h1 xs = k1_pay2 xs (iblk1 V c 0 t) (iblk1 V c 1 t) := by
  unfold soutC1
  rw [View.read_writes_eq_canon _ _ _ (scoverC1 V c t h0 h1 xs)]
  unfold kernelRun1_C
  dsimp only
  sl_unfold_words
  rw [View.canon_unit_zero (S := S1024x1024) hz1]
  simp only [View.readAt_eq_ld, (hs1_0 t).read_unread, (hs1_1 t).read_unread, (Memref.isWhole_whole cc1_scratch0).read_unread, View.ld_unit_zero (S := S1024x1024) hz1]

theorem outC1_eq (c : Dev nD) (t : Fin cfg1.N) (h0 : ¬t.val % 4 = 0) (h1 : t.val % 4 = 3) (xs : Vec F S1024x1024 .f32) :
    outC1 V c t h0 h1 xs = k1_pay3 (k1_pay2 xs (iblk1 V c 0 t) (iblk1 V c 1 t)) (iblk1 V c 2 t) := by
  unfold outC1
  rw [View.read_writes_eq_canon _ _ _ (coverC1 V c t h0 h1 xs)]
  unfold kernelRun1_C
  dsimp only
  sl_unfold_words
  rw [View.canon_unit_zero (S := S1024x1024) hz1, View.readCov_unit_zero (S := S1024x1024) _ hz1]
  simp only [View.readAt_eq_ld, (hs1_0 t).read_unread, (hs1_1 t).read_unread, (hs1_2 t).read_unread, (Memref.isWhole_whole cc1_scratch0).read_unread, View.ld_unit_zero (S := S1024x1024) hz1, View.ld_unit_zero (S := S1024) hz1']

/-! ## The accumulator and the stored block, point by point (any float values)

From here on what each case leaves is used only through the lemmas above and the three case equations of the
recursion, never by unfolding. -/

attribute [local irreducible] soutA1 soutB1 soutC1 outC1 outIdle1 outsAt1

/-- The accumulator after a first k-block: zero filled, then the first product added. -/
theorem acc_A1 (c : Dev nD) (t : Fin cfg1.N) (h0 : t.val % 4 = 0) (h1 : ¬t.val % 4 = 3) :
    (outsAt1 V c t.val t.isLt).2 = k1_pay2 (k1_pay1 (F := F)) (iblk1 V c 0 t) (iblk1 V c 1 t) :=
  (congrArg Prod.snd (outsAt1_A V c t h0 h1)).trans (soutA1_eq V c t h0 h1)

/-- The accumulator after a later k-block: a product added to what the point before left. -/
theorem acc_BC1 (c : Dev nD) (t : Fin cfg1.N) (h0 : ¬t.val % 4 = 0) :
    (outsAt1 V c t.val t.isLt).2
      = k1_pay2 (outsAt1 V c (t.val - 1) (Nat.lt_of_le_of_lt (Nat.sub_le _ _) t.isLt)).2 (iblk1 V c 0 t) (iblk1 V c 1 t) := by
  by_cases h1 : t.val % 4 = 3
  · exact (congrArg Prod.snd (outsAt1_C V c t h0 h1)).trans (soutC1_eq V c t h0 h1 _)
  · exact (congrArg Prod.snd (outsAt1_B V c t h0 h1)).trans (soutB1_eq V c t h0 h1 _)

/-- The block a last k-block stores: the accumulator it leaves, plus the bias row. -/
theorem out_C1 (c : Dev nD) (t : Fin cfg1.N) (h0 : ¬t.val % 4 = 0) (h3 : t.val % 4 = 3) :
    (outsAt1 V c t.val t.isLt).1 = k1_pay3 (outsAt1 V c t.val t.isLt).2 (iblk1 V c 2 t) :=
  (congrArg Prod.fst (outsAt1_C V c t h0 h3)).trans ((outC1_eq V c t h0 h3 _).trans
    (congrArg (fun a => k1_pay3 a (iblk1 V c 2 t))
      ((soutC1_eq V c t h0 h3 _).symm.trans (congrArg Prod.snd (outsAt1_C V c t h0 h3)).symm)))

end AnyF

/-! ## The value at the ideal instance -/

section AtIdeal

variable (V : (c : Dev nD) → (b : Ref sig .tc) → Buf (Elt Ideal) ((c : Thread nD τ).loc b))

/-- The printed index maps, decided once over the grid: at point `t = 16 i + 4 j + k` the input block is (i, k), the
    weight block (j, k), the bias block j and the output block (i, j). -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4 :=
  (by decide +kernel : ∀ t : Fin grid1.N, _)

/-- The input block at a point, its weight block and its bias block, typed as the body types them. -/
def xblk1 (c : Dev nD) (n : Fin cfg1.N) : Vec Ideal S1024x1024 .bf16 := iblk1 V c 0 n
def wblk1 (c : Dev nD) (n : Fin cfg1.N) : Vec Ideal S1024x1024 .bf16 := iblk1 V c 1 n
def bblk1 (c : Dev nD) (n : Fin cfg1.N) : Vec Ideal S1024 .f32 := iblk1 V c 2 n

/-- Entry (p, kk) of the input block at point `n` is entry (1024 (n / 16) + p, 1024 (n % 4) + kk) of the array. -/
theorem xblk1_apply (c : Dev nD) (n : Fin cfg1.N) (p kk : Fin 1024) (I K : Fin 4096)
    (hI : I.val = 1024 * (n.val / 16) + p.val) (hK : K.val = 1024 * (n.val % 4) + kk.val) :
    xblk1 V c n (ix2 p kk) = (V c main_v0 : S4096x4096.Idx → EReal) (ix2 I K) := by
  obtain ⟨e0, e1, -⟩ := idx_facts1 n
  unfold xblk1 iblk1
  rw [View.read_apply]
  show V c main_v0 _ = V c main_v0 _
  congr 1
  funext a; apply Fin.ext
  match a with
  | ⟨0, _⟩ => show win1_0.index n (0 : Fin 2) * 1024 + 1 * p.val = I.val; rw [e0, hI]; omega
  | ⟨1, _⟩ => show win1_0.index n (1 : Fin 2) * 1024 + 1 * kk.val = K.val; rw [e1, hK]; omega

/-- Entry (q, kk) of the weight block at point `n` is entry (1024 (n / 4 % 4) + q, 1024 (n % 4) + kk) of the array. -/
theorem wblk1_apply (c : Dev nD) (n : Fin cfg1.N) (q kk : Fin 1024) (J K : Fin 4096)
    (hJ : J.val = 1024 * (n.val / 4 % 4) + q.val) (hK : K.val = 1024 * (n.val % 4) + kk.val) :
    wblk1 V c n (ix2 q kk) = (V c main_v2 : S4096x4096.Idx → EReal) (ix2 J K) := by
  obtain ⟨-, -, e0, e1, -⟩ := idx_facts1 n
  unfold wblk1 iblk1
  rw [View.read_apply]
  show V c main_v2 _ = V c main_v2 _
  congr 1
  funext a; apply Fin.ext
  match a with
  | ⟨0, _⟩ => show win1_1.index n (0 : Fin 2) * 1024 + 1 * q.val = J.val; rw [e0, hJ]; omega
  | ⟨1, _⟩ => show win1_1.index n (1 : Fin 2) * 1024 + 1 * kk.val = K.val; rw [e1, hK]; omega

/-- Entry q of the bias block at point `n` is entry 1024 (n / 4 % 4) + q of the bias. -/
theorem bblk1_apply (c : Dev nD) (n : Fin cfg1.N) (q : Fin 1024) (J : Fin 4096)
    (hJ : J.val = 1024 * (n.val / 4 % 4) + q.val) :
    bblk1 V c n (ix1 q) = (V c main_arg4 : S4096.Idx → EReal) (ix1 J) := by
  obtain ⟨-, -, -, -, e0, -⟩ := idx_facts1 n
  unfold bblk1 iblk1
  rw [View.read_apply]
  show V c main_arg4 _ = V c main_arg4 _
  congr 1
  funext a; apply Fin.ext
  match a with
  | ⟨0, _⟩ => show win1_2.index n (0 : Fin 1) * 1024 + 1 * q.val = J.val; rw [e0, hJ]; omega

/-! ### The accumulator, point by point -/

/-- What point `n` adds to the accumulator at an entry: row p of its input block against row q of its weight block. -/
def addend1 (c : Dev nD) (n : ℕ) (y : S1024x1024.Idx) : EReal :=
  if h : n < cfg1.N then ∑ kk : Fin 1024, xblk1 V c ⟨n, h⟩ (ix2 (y 0) kk) * wblk1 V c ⟨n, h⟩ (ix2 (y 1) kk) else 0

/-- The accumulator after point `n`; what a first k-block leaves; what a later k-block makes of what it finds. -/
def accF1 (c : Dev nD) : (n : ℕ) → n < cfg1.N → Vec Ideal S1024x1024 .f32 := fun n h => (outsAt1 V c n h).2
def accReset1 (c : Dev nD) : (n : ℕ) → n < cfg1.N → Vec Ideal S1024x1024 .f32 :=
  fun n h => k1_pay2 (k1_pay1 (F := Ideal)) (xblk1 V c ⟨n, h⟩) (wblk1 V c ⟨n, h⟩)
def accStep1 (c : Dev nD) : (n : ℕ) → n < cfg1.N → Vec Ideal S1024x1024 .f32 → Vec Ideal S1024x1024 .f32 :=
  fun n h acc => k1_pay2 acc (xblk1 V c ⟨n, h⟩) (wblk1 V c ⟨n, h⟩)

theorem acc_reset1 (c : Dev nD) (n : ℕ) (h : n < cfg1.N) (h0 : n % 4 = 0) : accF1 V c n h = accReset1 V c n h :=
  acc_A1 V c ⟨n, h⟩ h0 (by show ¬n % 4 = 3; omega)

theorem acc_step1 (c : Dev nD) (n : ℕ) (h : n + 1 < cfg1.N) (hne : ¬(n + 1) % 4 = 0) :
    accF1 V c (n + 1) h = accStep1 V c (n + 1) h (accF1 V c n (Nat.lt_of_succ_lt h)) :=
  acc_BC1 V c ⟨n + 1, h⟩ hne

theorem accReset1_apply (c : Dev nD) (n : ℕ) (h : n < cfg1.N) (y : S1024x1024.Idx) :
    accReset1 V c n h y = 0 + addend1 V c n y := by
  obtain ⟨p, q, rfl⟩ : ∃ p q : Fin 1024, y = ix2 p q := ⟨y 0, y 1, eq_ix2 y⟩
  unfold accReset1 addend1
  rw [dif_pos h]
  exact (PayValue.k1_pay2_apply _ (xblk1 V c ⟨n, h⟩) (wblk1 V c ⟨n, h⟩) p q).trans (by rw [PayValue.k1_pay1_apply])

theorem accStep1_apply (c : Dev nD) (n : ℕ) (h : n < cfg1.N) (acc : Vec Ideal S1024x1024 .f32) (y : S1024x1024.Idx) :
    accStep1 V c n h acc y = acc y + addend1 V c n y := by
  obtain ⟨p, q, rfl⟩ : ∃ p q : Fin 1024, y = ix2 p q := ⟨y 0, y 1, eq_ix2 y⟩
  unfold accStep1 addend1
  rw [dif_pos h]
  exact PayValue.k1_pay2_apply acc (xblk1 V c ⟨n, h⟩) (wblk1 V c ⟨n, h⟩) p q

/-- After a last k-block the accumulator holds, from zero, the four points' products of its run. -/
theorem acc_closed1 (c : Dev nD) (t : Fin cfg1.N) (h3 : t.val % 4 = 3) (y : S1024x1024.Idx) :
    (outsAt1 V c t.val t.isLt).2 y = 0 + ∑ s ∈ Finset.range 4, addend1 V c (4 * (t.val / 4) + s) y := by
  have hN : cfg1.N = 64 := N_1
  have hb : 4 * (t.val / 4) + t.val % 4 < cfg1.N := by have := t.isLt; omega
  have e1 := Pipeline.eq_accAt_of_mod (accF1 V c) 4 (accReset1 V c) (accStep1 V c) (acc_reset1 V c) (acc_step1 V c)
    (by decide) t.val t.isLt hb
  have e2 := Pipeline.accAt_add_apply (accReset1 V c) (accStep1 V c) (fun _ => (0 : EReal)) (addend1 V c) (4 * (t.val / 4)) 3
    (fun h i => accReset1_apply V c _ h i) (fun n h acc i _ _ => accStep1_apply V c n h acc i) (t.val % 4) (by omega) hb y
  refine (congrFun e1 y).trans (e2.trans ?_)
  rw [h3]

/-! ### The block a last k-block stores -/

/-- Entry (p, q) of the block a last k-block stores is entry (1024 i + p, 1024 j + q) of the linear layer: the four
    k-blocks' partial sums, from zero, are the whole row product, and the bias block is the bias at 1024 j + q. -/
theorem block1_value (c : Dev nD) (t : Fin cfg1.N) (h3 : t.val % 4 = 3) (p q : Fin 1024) (I J : Fin 4096)
    (hI : I.val = 1024 * (t.val / 16) + p.val) (hJ : J.val = 1024 * (t.val / 4 % 4) + q.val) :
    ((outsAt1 (F := Ideal) V c t.val t.isLt).1 : S1024x1024.Idx → EReal) (ix2 p q)
      = Cert.Spec.linear (V c main_v0) (V c main_v2) (V c main_arg4) I J := by
  have hN : cfg1.N = 64 := N_1
  have ht := t.isLt
  have h0 : ¬t.val % 4 = 0 := by omega
  have hacc := acc_closed1 V c t h3 (ix2 p q)
  refine (congrFun (out_C1 V c t h0 h3) (ix2 p q)).trans ((PayValue.k1_pay3_apply _ (bblk1 V c t) p q).trans ?_)
  unfold Cert.Spec.linear
  refine congrArg₂ (· + ·) (hacc.trans ?_) (bblk1_apply V c t q J hJ)
  rw [zero_add, Finset.sum_range, Cert.BlockSum.sum_four_runs]
  refine Finset.sum_congr rfl fun s _ => ?_
  have hs := s.isLt
  have hlt : 4 * (t.val / 4) + s.val < cfg1.N := by omega
  unfold addend1
  rw [dif_pos hlt]
  refine Finset.sum_congr rfl fun kk _ => ?_
  exact congrArg₂ (· * ·)
    (xblk1_apply V c ⟨_, hlt⟩ p kk I (Cert.BlockSum.at4 s kk) (by rw [hI]; show _ = 1024 * ((4 * (t.val / 4) + s.val) / 16) + p.val; omega)
      (by rw [Cert.BlockSum.at4_val]; show _ = 1024 * ((4 * (t.val / 4) + s.val) % 4) + kk.val; omega))
    (wblk1_apply V c ⟨_, hlt⟩ q kk J (Cert.BlockSum.at4 s kk) (by rw [hJ]; show _ = 1024 * ((4 * (t.val / 4) + s.val) / 4 % 4) + q.val; omega)
      (by rw [Cert.BlockSum.at4_val]; show _ = 1024 * ((4 * (t.val / 4) + s.val) % 4) + kk.val; omega))

end AtIdeal

end Cert.KernelIdeal.Frames

end
-- ==== Proof.LinCover1.lean ====
/-
  Linear region 1 (the second linear layer) from blocks to the array, on the extended reals.

  The region runs over sixty-four points t = 16 i + 4 j + k. The output window's block at t is block (i, j) of its
  array, 1024 × 1024 entries, and it is written back only at the last step k = 3 of each (i, j), when it holds the
  linear layer's entries of rows 1024 i to 1024 i + 1023 and columns 1024 j to 1024 j + 1023. So every write-back
  is a block of ONE function of the three arrays the region reads, the sixteen written blocks cover the array
  (entry (r, s) lies in the block written at the point 16 (r / 1024) + 4 (s / 1024) + 3), and after the region the
  output array is that function.
-/
import proofs.«160876_j7095285973076_1_alg».proof.Proof.LinFrame1
import proofs.«160876_j7095285973076_1_alg».proof.Proof.Spec
import proofs.«160876_j7095285973076_1_alg».proof.Proof.LinValue1
import Idealize.ShloMosaic.Lib.Pipeline.Value
import Idealize.ShloMosaic.Lib.ValueIdx

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output window's index map over the sixty-four points: at point `t = 16 i + 4 j + k` its block is block (i, j). -/
theorem idx_facts1_3 : ∀ t : Fin cfg1.N, win1_3.index t (0 : Fin 2) = t.val / 16 ∧ win1_3.index t (1 : Fin 2) = t.val / 4 % 4 :=
  (by decide +kernel : ∀ t : Fin grid1.N, _)

/-- The output array after the region, as one function of the three arrays it reads: the linear layer, entry by entry. -/
def arr1 (c : Dev nD) : Buf (Elt Ideal) ((c : Thread nD τ).loc main_v6) :=
  fun (i : S4096x4096.Idx) => Cert.Spec.linear (V c main_v0) (V c main_v2) (V c main_arg4) (i 0) (i 1)

theorem arr1_apply (c : Dev nD) (i j : Fin 4096) : arr1 V c (ix2 i j) = Cert.Spec.linear (V c main_v0) (V c main_v2) (V c main_arg4) i j := rfl

/-- WHAT A LAST-STEP POINT WRITES BACK is its block of that function: block entry (p, q) at point `t` is array entry
    (1024 (t / 16) + p, 1024 ((t / 4) % 4) + q). -/
theorem flushed1_eq (c : Dev nD) (t : Fin cfg1.N) (hf : (cfg1.win 3).flush t = true) :
    (dat1 V c).flushed 3 t = ((cfg1.win 3).blk t).view.read (Elt Ideal) (arr1 V c) := by
  have ht : t.val % 4 = 3 := (flush1_3 t).mp hf
  have hN : t.val < 64 := lt_of_lt_of_eq t.isLt N_1
  show (cfg1.win 3).cut (grid1.coords t) ((dat1 V c).after 3 t) = _
  rw [after1_3]
  obtain ⟨e0, e1⟩ := idx_facts1_3 t
  refine funext fun (y : S1024x1024.Idx) => ?_
  obtain ⟨p, q, rfl⟩ : ∃ (p q : Fin 1024), y = ix2 p q := ⟨y 0, y 1, eq_ix2 y⟩
  have hp := p.isLt
  have hq := q.isLt
  show ((outsAt1 (F := Ideal) V c t.val t.isLt).1 : S1024x1024.Idx → EReal) (ix2 p q)
    = arr1 V c (((cfg1.win 3).blk t).view.emb (ix2 p q))
  have hemb : ((cfg1.win 3).blk t).view.emb (ix2 p q)
      = ix2 (⟨1024 * (t.val / 16) + p.val, by omega⟩ : Fin 4096) (⟨1024 * (t.val / 4 % 4) + q.val, by omega⟩ : Fin 4096) := by
    funext b; apply Fin.ext
    match b with
    | ⟨0, _⟩ => show win1_3.index t (0 : Fin 2) * 1024 + 1 * p.val = 1024 * (t.val / 16) + p.val; omega
    | ⟨1, _⟩ => show win1_3.index t (1 : Fin 2) * 1024 + 1 * q.val = 1024 * (t.val / 4 % 4) + q.val; omega
  rw [hemb, arr1_apply]
  exact block1_value V c t ht p q _ _ rfl rfl

/-- An index of the array is in point `t`'s block iff each coordinate is in the block's range on its axis. -/
theorem mem_blk1 (t : Fin cfg1.N) (i : S4096x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v6).slice (win1_3.rect t)).set ↔ _
  rw [View.set_slice_whole, Rect.mem_set_unit]
  exact Iff.rfl

/-- THE COVER: entry (r, s) of the array lies in the block written back at the point 16 (r / 1024) + 4 (s / 1024) + 3. -/
theorem cover1 (i : S4096x4096.Idx) :
    ∃ t : Fin cfg1.N, (cfg1.win 3).flush t = true ∧ i ∈ ((cfg1.win 3).blk t).view.set := by
  have hi0 : (i 0).val < 4096 := idx2_lt0 i
  have hi1 : (i 1).val < 4096 := idx2_lt1 i
  have hN : cfg1.N = 64 := N_1
  have hlt : 16 * ((i 0).val / 1024) + 4 * ((i 1).val / 1024) + 3 < cfg1.N := by rw [hN]; omega
  obtain ⟨e0, e1⟩ := idx_facts1_3 ⟨16 * ((i 0).val / 1024) + 4 * ((i 1).val / 1024) + 3, hlt⟩
  refine ⟨⟨16 * ((i 0).val / 1024) + 4 * ((i 1).val / 1024) + 3, hlt⟩, (flush1_3 _).mpr (by show (16 * ((i 0).val / 1024) + 4 * ((i 1).val / 1024) + 3) % 4 = 3; omega), ?_⟩
  rw [mem_blk1]
  intro a
  match a with
  | ⟨0, _⟩ =>
    show win1_3.index ⟨16 * ((i 0).val / 1024) + 4 * ((i 1).val / 1024) + 3, hlt⟩ (0 : Fin 2) * 1024 ≤ (i 0).val ∧ (i 0).val < win1_3.index ⟨16 * ((i 0).val / 1024) + 4 * ((i 1).val / 1024) + 3, hlt⟩ (0 : Fin 2) * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ =>
    show win1_3.index ⟨16 * ((i 0).val / 1024) + 4 * ((i 1).val / 1024) + 3, hlt⟩ (1 : Fin 2) * 1024 ≤ (i 1).val ∧ (i 1).val < win1_3.index ⟨16 * ((i 0).val / 1024) + 4 * ((i 1).val / 1024) + 3, hlt⟩ (1 : Fin 2) * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

/-- THE ARRAY after the region is that function. -/
theorem arr1_eq (c : Dev nD) : (dat1 V c).arrAt 3 cfg1.N = arr1 V c :=
  (dat1 V c).arrAt_eq_of_cover 3 (arr1 V c) (fun t hf => flushed1_eq V c t hf) cover1

/-- THE REGION'S VALUE: after the sixty-four points the output array holds the linear layer of the three arrays the
    region reads, as the region finds them, entry by entry. -/
theorem arr1_value (c : Dev nD) (i j : Fin 4096) :
    ((dat1 (F := Ideal) V c).arrAt 3 cfg1.N : S4096x4096.Idx → EReal) (ix2 i j) = Cert.Spec.linear (V c main_v0) (V c main_v2) (V c main_arg4) i j := by
  rw [arr1_eq, arr1_apply]

end Cert.KernelIdeal.Frames

end
-- ==== Proof.LinValue2.lean ====
/-
  Linear region 2, read as values: the 1024 × 1024 block a last k-block stores is the block of the linear layer.

  The region walks a 4 × 4 × 4 grid, point `t = 16 i + 4 j + k`. At point t it holds block (i, k) of the input
  (rows 1024 i …, columns 1024 k …), block (j, k) of the weight and block j of the bias. Its accumulator is zero
  filled at k = 0 and gains, at every k, the product of the two blocks contracted along their second axis: entry
  (p, q) gains ∑ kk, input(1024 i + p, 1024 k + kk) · weight(1024 j + q, 1024 k + kk). After k = 3 the four partial
  sums, from zero, are the whole row product over the 4096 columns (a sum over 4096 terms is the sum of its four
  runs of 1024; only associativity and commutativity of + and 0 + x = x are used), and the stored block adds the
  bias at column 1024 j + q.

  First what each case of the body leaves is read off the pieces the run found (any float values); then the
  accumulator is followed along a run of four points as a fold; then, on the extended reals, the fold is opened
  at an entry and regrouped.
-/
import proofs.«160876_j7095285973076_1_alg».proof.Proof.LinFrame2
import proofs.«160876_j7095285973076_1_alg».proof.Proof.PayLinear
import proofs.«160876_j7095285973076_1_alg».proof.Proof.BlockSum
import proofs.«160876_j7095285973076_1_alg».proof.Proof.Spec
import Idealize.ShloMosaic.Lib.Pipeline.Value
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section AnyF
variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz2' : (![0] : Fin 1 → Nat) = fun _ => 0 := funext fun a => by fin_cases a; rfl

theorem soutA2_eq (c : Dev nD) (t : Fin cfg2.N) (h0 : t.val % 4 = 0) (h1 : ¬t.val % 4 = 3) :
    soutA2 V c t h0 h1 = k2_pay2 (k2_pay1 (F := F)) (iblk2 V c 0 t) (iblk2 V c 1 t) := by
  unfold soutA2
  rw [View.read_writes_eq_canon _ _ _ (scoverA2 V c t h0 h1)]
  unfold kernelRun2_A
  dsimp only
  sl_unfold_words
  rw [View.canon_cons_unit_zero (S := S1024x1024) hz2, View.readCov_unit_zero (S := S1024x1024) _ hz2]
  simp only [View.readAt_eq_ld, (hs2_0 t).read_unread, (hs2_1 t).read_unread, View.ld_unit_zero (S := S1024x1024) hz2]

theorem soutB2_eq (c : Dev nD) (t : Fin cfg2.N) (h0 : ¬t.val % 4 = 0) (h1 : ¬t.val % 4 = 3) (xs : Vec F S1024x1024 .f32) :
    soutB2 V c t h0 h1 xs = k2_pay2 xs (iblk2 V c 0 t) (iblk2 V c 1 t) := by
  unfold soutB2
  rw [View.read_writes_eq_canon _ _ _ (scoverB2 V c t h0 h1 xs)]
  unfold kernelRun2_B
  dsimp only
  sl_unfold_words
  rw [View.canon_unit_zero (S := S1024x1024) hz2]
  simp only [View.readAt_eq_ld, (hs2_0 t).read_unread, (hs2_1 t).read_unread, (Memref.isWhole_whole cc2_scratch0).read_unread, View.ld_unit_zero (S := S1024x1024) hz2]

theorem soutC2_eq (c : Dev nD) (t : Fin cfg2.N) (h0 : ¬t.val % 4 = 0) (h1 : t.val % 4 = 3) (xs : Vec F S1024x1024 .f32) :
    soutC2 V c t h0 h1 xs = k2_pay2 xs (iblk2 V c 0 t) (iblk2 V c 1 t) := by
  unfold soutC2
  rw [View.read_writes_eq_canon _ _ _ (scoverC2 V c t h0 h1 xs)]
  unfold kernelRun2_C
  dsimp only
  sl_unfold_words
  rw [View.canon_unit_zero (S := S1024x1024) hz2]
  simp only [View.readAt_eq_ld, (hs2_0 t).read_unread, (hs2_1 t).read_unread, (Memref.isWhole_whole cc2_scratch0).read_unread, View.ld_unit_zero (S := S1024x1024) hz2]

theorem outC2_eq (c : Dev nD) (t : Fin cfg2.N) (h0 : ¬t.val % 4 = 0) (h1 : t.val % 4 = 3) (xs : Vec F S1024x1024 .f32) :
    outC2 V c t h0 h1 xs = k2_pay3 (k2_pay2 xs (iblk2 V c 0 t) (iblk2 V c 1 t)) (iblk2 V c 2 t) := by
  unfold outC2
  rw [View.read_writes_eq_canon _ _ _ (coverC2 V c t h0 h1 xs)]
  unfold kernelRun2_C
  dsimp only
  sl_unfold_words
  rw [View.canon_unit_zero (S := S1024x1024) hz2, View.readCov_unit_zero (S := S1024x1024) _ hz2]
  simp only [View.readAt_eq_ld, (hs2_0 t).read_unread, (hs2_1 t).read_unread, (hs2_2 t).read_unread, (Memref.isWhole_whole cc2_scratch0).read_unread, View.ld_unit_zero (S := S1024x1024) hz2, View.ld_unit_zero (S := S1024) hz2']

/-! ## The accumulator and the stored block, point by point (any float values)

From here on what each case leaves is used only through the lemmas above and the three case equations of the
recursion, never by unfolding. -/

attribute [local irreducible] soutA2 soutB2 soutC2 outC2 outIdle2 outsAt2

/-- The accumulator after a first k-block: zero filled, then the first product added. -/
theorem acc_A2 (c : Dev nD) (t : Fin cfg2.N) (h0 : t.val % 4 = 0) (h1 : ¬t.val % 4 = 3) :
    (outsAt2 V c t.val t.isLt).2 = k2_pay2 (k2_pay1 (F := F)) (iblk2 V c 0 t) (iblk2 V c 1 t) :=
  (congrArg Prod.snd (outsAt2_A V c t h0 h1)).trans (soutA2_eq V c t h0 h1)

/-- The accumulator after a later k-block: a product added to what the point before left. -/
theorem acc_BC2 (c : Dev nD) (t : Fin cfg2.N) (h0 : ¬t.val % 4 = 0) :
    (outsAt2 V c t.val t.isLt).2
      = k2_pay2 (outsAt2 V c (t.val - 1) (Nat.lt_of_le_of_lt (Nat.sub_le _ _) t.isLt)).2 (iblk2 V c 0 t) (iblk2 V c 1 t) := by
  by_cases h1 : t.val % 4 = 3
  · exact (congrArg Prod.snd (outsAt2_C V c t h0 h1)).trans (soutC2_eq V c t h0 h1 _)
  · exact (congrArg Prod.snd (outsAt2_B V c t h0 h1)).trans (soutB2_eq V c t h0 h1 _)

/-- The block a last k-block stores: the accumulator it leaves, plus the bias row. -/
theorem out_C2 (c : Dev nD) (t : Fin cfg2.N) (h0 : ¬t.val % 4 = 0) (h3 : t.val % 4 = 3) :
    (outsAt2 V c t.val t.isLt).1 = k2_pay3 (outsAt2 V c t.val t.isLt).2 (iblk2 V c 2 t) :=
  (congrArg Prod.fst (outsAt2_C V c t h0 h3)).trans ((outC2_eq V c t h0 h3 _).trans
    (congrArg (fun a => k2_pay3 a (iblk2 V c 2 t))
      ((soutC2_eq V c t h0 h3 _).symm.trans (congrArg Prod.snd (outsAt2_C V c t h0 h3)).symm)))

end AnyF

/-! ## The value at the ideal instance -/

section AtIdeal

variable (V : (c : Dev nD) → (b : Ref sig .tc) → Buf (Elt Ideal) ((c : Thread nD τ).loc b))

/-- The printed index maps, decided once over the grid: at point `t = 16 i + 4 j + k` the input block is (i, k), the
    weight block (j, k), the bias block j and the output block (i, j). -/
theorem idx_facts2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 1) = t.val / 4 % 4
    ∧ win2_3.index t (0 : Fin 2) = t.val / 16 ∧ win2_3.index t (1 : Fin 2) = t.val / 4 % 4 :=
  (by decide +kernel : ∀ t : Fin grid2.N, _)

/-- The input block at a point, its weight block and its bias block, typed as the body types them. -/
def xblk2 (c : Dev nD) (n : Fin cfg2.N) : Vec Ideal S1024x1024 .bf16 := iblk2 V c 0 n
def wblk2 (c : Dev nD) (n : Fin cfg2.N) : Vec Ideal S1024x1024 .bf16 := iblk2 V c 1 n
def bblk2 (c : Dev nD) (n : Fin cfg2.N) : Vec Ideal S1024 .f32 := iblk2 V c 2 n

/-- Entry (p, kk) of the input block at point `n` is entry (1024 (n / 16) + p, 1024 (n % 4) + kk) of the array. -/
theorem xblk2_apply (c : Dev nD) (n : Fin cfg2.N) (p kk : Fin 1024) (I K : Fin 4096)
    (hI : I.val = 1024 * (n.val / 16) + p.val) (hK : K.val = 1024 * (n.val % 4) + kk.val) :
    xblk2 V c n (ix2 p kk) = (V c main_v0 : S4096x4096.Idx → EReal) (ix2 I K) := by
  obtain ⟨e0, e1, -⟩ := idx_facts2 n
  unfold xblk2 iblk2
  rw [View.read_apply]
  show V c main_v0 _ = V c main_v0 _
  congr 1
  funext a; apply Fin.ext
  match a with
  | ⟨0, _⟩ => show win2_0.index n (0 : Fin 2) * 1024 + 1 * p.val = I.val; rw [e0, hI]; omega
  | ⟨1, _⟩ => show win2_0.index n (1 : Fin 2) * 1024 + 1 * kk.val = K.val; rw [e1, hK]; omega

/-- Entry (q, kk) of the weight block at point `n` is entry (1024 (n / 4 % 4) + q, 1024 (n % 4) + kk) of the array. -/
theorem wblk2_apply (c : Dev nD) (n : Fin cfg2.N) (q kk : Fin 1024) (J K : Fin 4096)
    (hJ : J.val = 1024 * (n.val / 4 % 4) + q.val) (hK : K.val = 1024 * (n.val % 4) + kk.val) :
    wblk2 V c n (ix2 q kk) = (V c main_v3 : S4096x4096.Idx → EReal) (ix2 J K) := by
  obtain ⟨-, -, e0, e1, -⟩ := idx_facts2 n
  unfold wblk2 iblk2
  rw [View.read_apply]
  show V c main_v3 _ = V c main_v3 _
  congr 1
  funext a; apply Fin.ext
  match a with
  | ⟨0, _⟩ => show win2_1.index n (0 : Fin 2) * 1024 + 1 * q.val = J.val; rw [e0, hJ]; omega
  | ⟨1, _⟩ => show win2_1.index n (1 : Fin 2) * 1024 + 1 * kk.val = K.val; rw [e1, hK]; omega

/-- Entry q of the bias block at point `n` is entry 1024 (n / 4 % 4) + q of the bias. -/
theorem bblk2_apply (c : Dev nD) (n : Fin cfg2.N) (q : Fin 1024) (J : Fin 4096)
    (hJ : J.val = 1024 * (n.val / 4 % 4) + q.val) :
    bblk2 V c n (ix1 q) = (V c main_arg6 : S4096.Idx → EReal) (ix1 J) := by
  obtain ⟨-, -, -, -, e0, -⟩ := idx_facts2 n
  unfold bblk2 iblk2
  rw [View.read_apply]
  show V c main_arg6 _ = V c main_arg6 _
  congr 1
  funext a; apply Fin.ext
  match a with
  | ⟨0, _⟩ => show win2_2.index n (0 : Fin 1) * 1024 + 1 * q.val = J.val; rw [e0, hJ]; omega

/-! ### The accumulator, point by point -/

/-- What point `n` adds to the accumulator at an entry: row p of its input block against row q of its weight block. -/
def addend2 (c : Dev nD) (n : ℕ) (y : S1024x1024.Idx) : EReal :=
  if h : n < cfg2.N then ∑ kk : Fin 1024, xblk2 V c ⟨n, h⟩ (ix2 (y 0) kk) * wblk2 V c ⟨n, h⟩ (ix2 (y 1) kk) else 0

/-- The accumulator after point `n`; what a first k-block leaves; what a later k-block makes of what it finds. -/
def accF2 (c : Dev nD) : (n : ℕ) → n < cfg2.N → Vec Ideal S1024x1024 .f32 := fun n h => (outsAt2 V c n h).2
def accReset2 (c : Dev nD) : (n : ℕ) → n < cfg2.N → Vec Ideal S1024x1024 .f32 :=
  fun n h => k2_pay2 (k2_pay1 (F := Ideal)) (xblk2 V c ⟨n, h⟩) (wblk2 V c ⟨n, h⟩)
def accStep2 (c : Dev nD) : (n : ℕ) → n < cfg2.N → Vec Ideal S1024x1024 .f32 → Vec Ideal S1024x1024 .f32 :=
  fun n h acc => k2_pay2 acc (xblk2 V c ⟨n, h⟩) (wblk2 V c ⟨n, h⟩)

theorem acc_reset2 (c : Dev nD) (n : ℕ) (h : n < cfg2.N) (h0 : n % 4 = 0) : accF2 V c n h = accReset2 V c n h :=
  acc_A2 V c ⟨n, h⟩ h0 (by show ¬n % 4 = 3; omega)

theorem acc_step2 (c : Dev nD) (n : ℕ) (h : n + 1 < cfg2.N) (hne : ¬(n + 1) % 4 = 0) :
    accF2 V c (n + 1) h = accStep2 V c (n + 1) h (accF2 V c n (Nat.lt_of_succ_lt h)) :=
  acc_BC2 V c ⟨n + 1, h⟩ hne

theorem accReset2_apply (c : Dev nD) (n : ℕ) (h : n < cfg2.N) (y : S1024x1024.Idx) :
    accReset2 V c n h y = 0 + addend2 V c n y := by
  obtain ⟨p, q, rfl⟩ : ∃ p q : Fin 1024, y = ix2 p q := ⟨y 0, y 1, eq_ix2 y⟩
  unfold accReset2 addend2
  rw [dif_pos h]
  exact (PayValue.k2_pay2_apply _ (xblk2 V c ⟨n, h⟩) (wblk2 V c ⟨n, h⟩) p q).trans (by rw [PayValue.k2_pay1_apply])

theorem accStep2_apply (c : Dev nD) (n : ℕ) (h : n < cfg2.N) (acc : Vec Ideal S1024x1024 .f32) (y : S1024x1024.Idx) :
    accStep2 V c n h acc y = acc y + addend2 V c n y := by
  obtain ⟨p, q, rfl⟩ : ∃ p q : Fin 1024, y = ix2 p q := ⟨y 0, y 1, eq_ix2 y⟩
  unfold accStep2 addend2
  rw [dif_pos h]
  exact PayValue.k2_pay2_apply acc (xblk2 V c ⟨n, h⟩) (wblk2 V c ⟨n, h⟩) p q

/-- After a last k-block the accumulator holds, from zero, the four points' products of its run. -/
theorem acc_closed2 (c : Dev nD) (t : Fin cfg2.N) (h3 : t.val % 4 = 3) (y : S1024x1024.Idx) :
    (outsAt2 V c t.val t.isLt).2 y = 0 + ∑ s ∈ Finset.range 4, addend2 V c (4 * (t.val / 4) + s) y := by
  have hN : cfg2.N = 64 := N_2
  have hb : 4 * (t.val / 4) + t.val % 4 < cfg2.N := by have := t.isLt; omega
  have e1 := Pipeline.eq_accAt_of_mod (accF2 V c) 4 (accReset2 V c) (accStep2 V c) (acc_reset2 V c) (acc_step2 V c)
    (by decide) t.val t.isLt hb
  have e2 := Pipeline.accAt_add_apply (accReset2 V c) (accStep2 V c) (fun _ => (0 : EReal)) (addend2 V c) (4 * (t.val / 4)) 3
    (fun h i => accReset2_apply V c _ h i) (fun n h acc i _ _ => accStep2_apply V c n h acc i) (t.val % 4) (by omega) hb y
  refine (congrFun e1 y).trans (e2.trans ?_)
  rw [h3]

/-! ### The block a last k-block stores -/

/-- Entry (p, q) of the block a last k-block stores is entry (1024 i + p, 1024 j + q) of the linear layer: the four
    k-blocks' partial sums, from zero, are the whole row product, and the bias block is the bias at 1024 j + q. -/
theorem block2_value (c : Dev nD) (t : Fin cfg2.N) (h3 : t.val % 4 = 3) (p q : Fin 1024) (I J : Fin 4096)
    (hI : I.val = 1024 * (t.val / 16) + p.val) (hJ : J.val = 1024 * (t.val / 4 % 4) + q.val) :
    ((outsAt2 (F := Ideal) V c t.val t.isLt).1 : S1024x1024.Idx → EReal) (ix2 p q)
      = Cert.Spec.linear (V c main_v0) (V c main_v3) (V c main_arg6) I J := by
  have hN : cfg2.N = 64 := N_2
  have ht := t.isLt
  have h0 : ¬t.val % 4 = 0 := by omega
  have hacc := acc_closed2 V c t h3 (ix2 p q)
  refine (congrFun (out_C2 V c t h0 h3) (ix2 p q)).trans ((PayValue.k2_pay3_apply _ (bblk2 V c t) p q).trans ?_)
  unfold Cert.Spec.linear
  refine congrArg₂ (· + ·) (hacc.trans ?_) (bblk2_apply V c t q J hJ)
  rw [zero_add, Finset.sum_range, Cert.BlockSum.sum_four_runs]
  refine Finset.sum_congr rfl fun s _ => ?_
  have hs := s.isLt
  have hlt : 4 * (t.val / 4) + s.val < cfg2.N := by omega
  unfold addend2
  rw [dif_pos hlt]
  refine Finset.sum_congr rfl fun kk _ => ?_
  exact congrArg₂ (· * ·)
    (xblk2_apply V c ⟨_, hlt⟩ p kk I (Cert.BlockSum.at4 s kk) (by rw [hI]; show _ = 1024 * ((4 * (t.val / 4) + s.val) / 16) + p.val; omega)
      (by rw [Cert.BlockSum.at4_val]; show _ = 1024 * ((4 * (t.val / 4) + s.val) % 4) + kk.val; omega))
    (wblk2_apply V c ⟨_, hlt⟩ q kk J (Cert.BlockSum.at4 s kk) (by rw [hJ]; show _ = 1024 * ((4 * (t.val / 4) + s.val) / 4 % 4) + q.val; omega)
      (by rw [Cert.BlockSum.at4_val]; show _ = 1024 * ((4 * (t.val / 4) + s.val) % 4) + kk.val; omega))

end AtIdeal

end Cert.KernelIdeal.Frames

end
-- ==== Proof.LinCover2.lean ====
/-
  Linear region 2 (the third linear layer) from blocks to the array, on the extended reals.

  The region runs over sixty-four points t = 16 i + 4 j + k. The output window's block at t is block (i, j) of its
  array, 1024 × 1024 entries, and it is written back only at the last step k = 3 of each (i, j), when it holds the
  linear layer's entries of rows 1024 i to 1024 i + 1023 and columns 1024 j to 1024 j + 1023. So every write-back
  is a block of ONE function of the three arrays the region reads, the sixteen written blocks cover the array
  (entry (r, s) lies in the block written at the point 16 (r / 1024) + 4 (s / 1024) + 3), and after the region the
  output array is that function.
-/
import proofs.«160876_j7095285973076_1_alg».proof.Proof.LinFrame2
import proofs.«160876_j7095285973076_1_alg».proof.Proof.Spec
import proofs.«160876_j7095285973076_1_alg».proof.Proof.LinValue2
import Idealize.ShloMosaic.Lib.Pipeline.Value
import Idealize.ShloMosaic.Lib.ValueIdx

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output window's index map over the sixty-four points: at point `t = 16 i + 4 j + k` its block is block (i, j). -/
theorem idx_facts2_3 : ∀ t : Fin cfg2.N, win2_3.index t (0 : Fin 2) = t.val / 16 ∧ win2_3.index t (1 : Fin 2) = t.val / 4 % 4 :=
  (by decide +kernel : ∀ t : Fin grid2.N, _)

/-- The output array after the region, as one function of the three arrays it reads: the linear layer, entry by entry. -/
def arr2 (c : Dev nD) : Buf (Elt Ideal) ((c : Thread nD τ).loc main_v7) :=
  fun (i : S4096x4096.Idx) => Cert.Spec.linear (V c main_v0) (V c main_v3) (V c main_arg6) (i 0) (i 1)

theorem arr2_apply (c : Dev nD) (i j : Fin 4096) : arr2 V c (ix2 i j) = Cert.Spec.linear (V c main_v0) (V c main_v3) (V c main_arg6) i j := rfl

/-- WHAT A LAST-STEP POINT WRITES BACK is its block of that function: block entry (p, q) at point `t` is array entry
    (1024 (t / 16) + p, 1024 ((t / 4) % 4) + q). -/
theorem flushed2_eq (c : Dev nD) (t : Fin cfg2.N) (hf : (cfg2.win 3).flush t = true) :
    (dat2 V c).flushed 3 t = ((cfg2.win 3).blk t).view.read (Elt Ideal) (arr2 V c) := by
  have ht : t.val % 4 = 3 := (flush2_3 t).mp hf
  have hN : t.val < 64 := lt_of_lt_of_eq t.isLt N_2
  show (cfg2.win 3).cut (grid2.coords t) ((dat2 V c).after 3 t) = _
  rw [after2_3]
  obtain ⟨e0, e1⟩ := idx_facts2_3 t
  refine funext fun (y : S1024x1024.Idx) => ?_
  obtain ⟨p, q, rfl⟩ : ∃ (p q : Fin 1024), y = ix2 p q := ⟨y 0, y 1, eq_ix2 y⟩
  have hp := p.isLt
  have hq := q.isLt
  show ((outsAt2 (F := Ideal) V c t.val t.isLt).1 : S1024x1024.Idx → EReal) (ix2 p q)
    = arr2 V c (((cfg2.win 3).blk t).view.emb (ix2 p q))
  have hemb : ((cfg2.win 3).blk t).view.emb (ix2 p q)
      = ix2 (⟨1024 * (t.val / 16) + p.val, by omega⟩ : Fin 4096) (⟨1024 * (t.val / 4 % 4) + q.val, by omega⟩ : Fin 4096) := by
    funext b; apply Fin.ext
    match b with
    | ⟨0, _⟩ => show win2_3.index t (0 : Fin 2) * 1024 + 1 * p.val = 1024 * (t.val / 16) + p.val; omega
    | ⟨1, _⟩ => show win2_3.index t (1 : Fin 2) * 1024 + 1 * q.val = 1024 * (t.val / 4 % 4) + q.val; omega
  rw [hemb, arr2_apply]
  exact block2_value V c t ht p q _ _ rfl rfl

/-- An index of the array is in point `t`'s block iff each coordinate is in the block's range on its axis. -/
theorem mem_blk2 (t : Fin cfg2.N) (i : S4096x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v7).slice (win2_3.rect t)).set ↔ _
  rw [View.set_slice_whole, Rect.mem_set_unit]
  exact Iff.rfl

/-- THE COVER: entry (r, s) of the array lies in the block written back at the point 16 (r / 1024) + 4 (s / 1024) + 3. -/
theorem cover2 (i : S4096x4096.Idx) :
    ∃ t : Fin cfg2.N, (cfg2.win 3).flush t = true ∧ i ∈ ((cfg2.win 3).blk t).view.set := by
  have hi0 : (i 0).val < 4096 := idx2_lt0 i
  have hi1 : (i 1).val < 4096 := idx2_lt1 i
  have hN : cfg2.N = 64 := N_2
  have hlt : 16 * ((i 0).val / 1024) + 4 * ((i 1).val / 1024) + 3 < cfg2.N := by rw [hN]; omega
  obtain ⟨e0, e1⟩ := idx_facts2_3 ⟨16 * ((i 0).val / 1024) + 4 * ((i 1).val / 1024) + 3, hlt⟩
  refine ⟨⟨16 * ((i 0).val / 1024) + 4 * ((i 1).val / 1024) + 3, hlt⟩, (flush2_3 _).mpr (by show (16 * ((i 0).val / 1024) + 4 * ((i 1).val / 1024) + 3) % 4 = 3; omega), ?_⟩
  rw [mem_blk2]
  intro a
  match a with
  | ⟨0, _⟩ =>
    show win2_3.index ⟨16 * ((i 0).val / 1024) + 4 * ((i 1).val / 1024) + 3, hlt⟩ (0 : Fin 2) * 1024 ≤ (i 0).val ∧ (i 0).val < win2_3.index ⟨16 * ((i 0).val / 1024) + 4 * ((i 1).val / 1024) + 3, hlt⟩ (0 : Fin 2) * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ =>
    show win2_3.index ⟨16 * ((i 0).val / 1024) + 4 * ((i 1).val / 1024) + 3, hlt⟩ (1 : Fin 2) * 1024 ≤ (i 1).val ∧ (i 1).val < win2_3.index ⟨16 * ((i 0).val / 1024) + 4 * ((i 1).val / 1024) + 3, hlt⟩ (1 : Fin 2) * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

/-- THE ARRAY after the region is that function. -/
theorem arr2_eq (c : Dev nD) : (dat2 V c).arrAt 3 cfg2.N = arr2 V c :=
  (dat2 V c).arrAt_eq_of_cover 3 (arr2 V c) (fun t hf => flushed2_eq V c t hf) cover2

/-- THE REGION'S VALUE: after the sixty-four points the output array holds the linear layer of the three arrays the
    region reads, as the region finds them, entry by entry. -/
theorem arr2_value (c : Dev nD) (i j : Fin 4096) :
    ((dat2 (F := Ideal) V c).arrAt 3 cfg2.N : S4096x4096.Idx → EReal) (ix2 i j) = Cert.Spec.linear (V c main_v0) (V c main_v3) (V c main_arg6) i j := by
  rw [arr2_eq, arr2_apply]

end Cert.KernelIdeal.Frames

end
-- ==== Proof.LinValue4.lean ====
/-
  Linear region 4, read as values: the 1024 × 1024 block a last k-block stores is the block of the linear layer.

  The region walks a 4 × 4 × 4 grid, point `t = 16 i + 4 j + k`. At point t it holds block (i, k) of the input
  (rows 1024 i …, columns 1024 k …), block (j, k) of the weight and block j of the bias. Its accumulator is zero
  filled at k = 0 and gains, at every k, the product of the two blocks contracted along their second axis: entry
  (p, q) gains ∑ kk, input(1024 i + p, 1024 k + kk) · weight(1024 j + q, 1024 k + kk). After k = 3 the four partial
  sums, from zero, are the whole row product over the 4096 columns (a sum over 4096 terms is the sum of its four
  runs of 1024; only associativity and commutativity of + and 0 + x = x are used), and the stored block adds the
  bias at column 1024 j + q.

  First what each case of the body leaves is read off the pieces the run found (any float values); then the
  accumulator is followed along a run of four points as a fold; then, on the extended reals, the fold is opened
  at an entry and regrouped.
-/
import proofs.«160876_j7095285973076_1_alg».proof.Proof.LinFrame4
import proofs.«160876_j7095285973076_1_alg».proof.Proof.PayLinear
import proofs.«160876_j7095285973076_1_alg».proof.Proof.BlockSum
import proofs.«160876_j7095285973076_1_alg».proof.Proof.Spec
import Idealize.ShloMosaic.Lib.Pipeline.Value
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section AnyF
variable {F : FTy → Type} [FloatOps F]
variable (V : (c : Dev nD) → (b : Ref sig .tc) → Buf (Elt F) ((c : Thread nD τ).loc b))

theorem hz4 : (![0, 0] : Fin 2 → Nat) = fun _ => 0 := funext fun a => by fin_cases a <;> rfl
theorem hz4' : (![0] : Fin 1 → Nat) = fun _ => 0 := funext fun a => by fin_cases a; rfl

theorem soutA4_eq (c : Dev nD) (t : Fin cfg4.N) (h0 : t.val % 4 = 0) (h1 : ¬t.val % 4 = 3) :
    soutA4 V c t h0 h1 = k4_pay2 (k4_pay1 (F := F)) (iblk4 V c 0 t) (iblk4 V c 1 t) := by
  unfold soutA4
  rw [View.read_writes_eq_canon _ _ _ (scoverA4 V c t h0 h1)]
  unfold kernelRun4_A
  dsimp only
  sl_unfold_words
  rw [View.canon_cons_unit_zero (S := S1024x1024) hz4, View.readCov_unit_zero (S := S1024x1024) _ hz4]
  simp only [View.readAt_eq_ld, (hs4_0 t).read_unread, (hs4_1 t).read_unread, View.ld_unit_zero (S := S1024x1024) hz4]

theorem soutB4_eq (c : Dev nD) (t : Fin cfg4.N) (h0 : ¬t.val % 4 = 0) (h1 : ¬t.val % 4 = 3) (xs : Vec F S1024x1024 .f32) :
    soutB4 V c t h0 h1 xs = k4_pay2 xs (iblk4 V c 0 t) (iblk4 V c 1 t) := by
  unfold soutB4
  rw [View.read_writes_eq_canon _ _ _ (scoverB4 V c t h0 h1 xs)]
  unfold kernelRun4_B
  dsimp only
  sl_unfold_words
  rw [View.canon_unit_zero (S := S1024x1024) hz4]
  simp only [View.readAt_eq_ld, (hs4_0 t).read_unread, (hs4_1 t).read_unread, (Memref.isWhole_whole cc4_scratch0).read_unread, View.ld_unit_zero (S := S1024x1024) hz4]

theorem soutC4_eq (c : Dev nD) (t : Fin cfg4.N) (h0 : ¬t.val % 4 = 0) (h1 : t.val % 4 = 3) (xs : Vec F S1024x1024 .f32) :
    soutC4 V c t h0 h1 xs = k4_pay2 xs (iblk4 V c 0 t) (iblk4 V c 1 t) := by
  unfold soutC4
  rw [View.read_writes_eq_canon _ _ _ (scoverC4 V c t h0 h1 xs)]
  unfold kernelRun4_C
  dsimp only
  sl_unfold_words
  rw [View.canon_unit_zero (S := S1024x1024) hz4]
  simp only [View.readAt_eq_ld, (hs4_0 t).read_unread, (hs4_1 t).read_unread, (Memref.isWhole_whole cc4_scratch0).read_unread, View.ld_unit_zero (S := S1024x1024) hz4]

theorem outC4_eq (c : Dev nD) (t : Fin cfg4.N) (h0 : ¬t.val % 4 = 0) (h1 : t.val % 4 = 3) (xs : Vec F S1024x1024 .f32) :
    outC4 V c t h0 h1 xs = k4_pay3 (k4_pay2 xs (iblk4 V c 0 t) (iblk4 V c 1 t)) (iblk4 V c 2 t) := by
  unfold outC4
  rw [View.read_writes_eq_canon _ _ _ (coverC4 V c t h0 h1 xs)]
  unfold kernelRun4_C
  dsimp only
  sl_unfold_words
  rw [View.canon_unit_zero (S := S1024x1024) hz4, View.readCov_unit_zero (S := S1024x1024) _ hz4]
  simp only [View.readAt_eq_ld, (hs4_0 t).read_unread, (hs4_1 t).read_unread, (hs4_2 t).read_unread, (Memref.isWhole_whole cc4_scratch0).read_unread, View.ld_unit_zero (S := S1024x1024) hz4, View.ld_unit_zero (S := S1024) hz4']

/-! ## The accumulator and the stored block, point by point (any float values)

From here on what each case leaves is used only through the lemmas above and the three case equations of the
recursion, never by unfolding. -/

attribute [local irreducible] soutA4 soutB4 soutC4 outC4 outIdle4 outsAt4

/-- The accumulator after a first k-block: zero filled, then the first product added. -/
theorem acc_A4 (c : Dev nD) (t : Fin cfg4.N) (h0 : t.val % 4 = 0) (h1 : ¬t.val % 4 = 3) :
    (outsAt4 V c t.val t.isLt).2 = k4_pay2 (k4_pay1 (F := F)) (iblk4 V c 0 t) (iblk4 V c 1 t) :=
  (congrArg Prod.snd (outsAt4_A V c t h0 h1)).trans (soutA4_eq V c t h0 h1)

/-- The accumulator after a later k-block: a product added to what the point before left. -/
theorem acc_BC4 (c : Dev nD) (t : Fin cfg4.N) (h0 : ¬t.val % 4 = 0) :
    (outsAt4 V c t.val t.isLt).2
      = k4_pay2 (outsAt4 V c (t.val - 1) (Nat.lt_of_le_of_lt (Nat.sub_le _ _) t.isLt)).2 (iblk4 V c 0 t) (iblk4 V c 1 t) := by
  by_cases h1 : t.val % 4 = 3
  · exact (congrArg Prod.snd (outsAt4_C V c t h0 h1)).trans (soutC4_eq V c t h0 h1 _)
  · exact (congrArg Prod.snd (outsAt4_B V c t h0 h1)).trans (soutB4_eq V c t h0 h1 _)

/-- The block a last k-block stores: the accumulator it leaves, plus the bias row. -/
theorem out_C4 (c : Dev nD) (t : Fin cfg4.N) (h0 : ¬t.val % 4 = 0) (h3 : t.val % 4 = 3) :
    (outsAt4 V c t.val t.isLt).1 = k4_pay3 (outsAt4 V c t.val t.isLt).2 (iblk4 V c 2 t) :=
  (congrArg Prod.fst (outsAt4_C V c t h0 h3)).trans ((outC4_eq V c t h0 h3 _).trans
    (congrArg (fun a => k4_pay3 a (iblk4 V c 2 t))
      ((soutC4_eq V c t h0 h3 _).symm.trans (congrArg Prod.snd (outsAt4_C V c t h0 h3)).symm)))

end AnyF

/-! ## The value at the ideal instance -/

section AtIdeal

variable (V : (c : Dev nD) → (b : Ref sig .tc) → Buf (Elt Ideal) ((c : Thread nD τ).loc b))

/-- The printed index maps, decided once over the grid: at point `t = 16 i + 4 j + k` the input block is (i, k), the
    weight block (j, k), the bias block j and the output block (i, j). -/
theorem idx_facts4 : ∀ t : Fin cfg4.N,
    win4_0.index t (0 : Fin 2) = t.val / 16 ∧ win4_0.index t (1 : Fin 2) = t.val % 4
    ∧ win4_1.index t (0 : Fin 2) = t.val / 4 % 4 ∧ win4_1.index t (1 : Fin 2) = t.val % 4
    ∧ win4_2.index t (0 : Fin 1) = t.val / 4 % 4
    ∧ win4_3.index t (0 : Fin 2) = t.val / 16 ∧ win4_3.index t (1 : Fin 2) = t.val / 4 % 4 :=
  (by decide +kernel : ∀ t : Fin grid4.N, _)

/-- The input block at a point, its weight block and its bias block, typed as the body types them. -/
def xblk4 (c : Dev nD) (n : Fin cfg4.N) : Vec Ideal S1024x1024 .bf16 := iblk4 V c 0 n
def wblk4 (c : Dev nD) (n : Fin cfg4.N) : Vec Ideal S1024x1024 .bf16 := iblk4 V c 1 n
def bblk4 (c : Dev nD) (n : Fin cfg4.N) : Vec Ideal S1024 .f32 := iblk4 V c 2 n

/-- Entry (p, kk) of the input block at point `n` is entry (1024 (n / 16) + p, 1024 (n % 4) + kk) of the array. -/
theorem xblk4_apply (c : Dev nD) (n : Fin cfg4.N) (p kk : Fin 1024) (I K : Fin 4096)
    (hI : I.val = 1024 * (n.val / 16) + p.val) (hK : K.val = 1024 * (n.val % 4) + kk.val) :
    xblk4 V c n (ix2 p kk) = (V c main_v8 : S4096x4096.Idx → EReal) (ix2 I K) := by
  obtain ⟨e0, e1, -⟩ := idx_facts4 n
  unfold xblk4 iblk4
  rw [View.read_apply]
  show V c main_v8 _ = V c main_v8 _
  congr 1
  funext a; apply Fin.ext
  match a with
  | ⟨0, _⟩ => show win4_0.index n (0 : Fin 2) * 1024 + 1 * p.val = I.val; rw [e0, hI]; omega
  | ⟨1, _⟩ => show win4_0.index n (1 : Fin 2) * 1024 + 1 * kk.val = K.val; rw [e1, hK]; omega

/-- Entry (q, kk) of the weight block at point `n` is entry (1024 (n / 4 % 4) + q, 1024 (n % 4) + kk) of the array. -/
theorem wblk4_apply (c : Dev nD) (n : Fin cfg4.N) (q kk : Fin 1024) (J K : Fin 4096)
    (hJ : J.val = 1024 * (n.val / 4 % 4) + q.val) (hK : K.val = 1024 * (n.val % 4) + kk.val) :
    wblk4 V c n (ix2 q kk) = (V c main_v4 : S4096x4096.Idx → EReal) (ix2 J K) := by
  obtain ⟨-, -, e0, e1, -⟩ := idx_facts4 n
  unfold wblk4 iblk4
  rw [View.read_apply]
  show V c main_v4 _ = V c main_v4 _
  congr 1
  funext a; apply Fin.ext
  match a with
  | ⟨0, _⟩ => show win4_1.index n (0 : Fin 2) * 1024 + 1 * q.val = J.val; rw [e0, hJ]; omega
  | ⟨1, _⟩ => show win4_1.index n (1 : Fin 2) * 1024 + 1 * kk.val = K.val; rw [e1, hK]; omega

/-- Entry q of the bias block at point `n` is entry 1024 (n / 4 % 4) + q of the bias. -/
theorem bblk4_apply (c : Dev nD) (n : Fin cfg4.N) (q : Fin 1024) (J : Fin 4096)
    (hJ : J.val = 1024 * (n.val / 4 % 4) + q.val) :
    bblk4 V c n (ix1 q) = (V c main_arg8 : S4096.Idx → EReal) (ix1 J) := by
  obtain ⟨-, -, -, -, e0, -⟩ := idx_facts4 n
  unfold bblk4 iblk4
  rw [View.read_apply]
  show V c main_arg8 _ = V c main_arg8 _
  congr 1
  funext a; apply Fin.ext
  match a with
  | ⟨0, _⟩ => show win4_2.index n (0 : Fin 1) * 1024 + 1 * q.val = J.val; rw [e0, hJ]; omega

/-! ### The accumulator, point by point -/

/-- What point `n` adds to the accumulator at an entry: row p of its input block against row q of its weight block. -/
def addend4 (c : Dev nD) (n : ℕ) (y : S1024x1024.Idx) : EReal :=
  if h : n < cfg4.N then ∑ kk : Fin 1024, xblk4 V c ⟨n, h⟩ (ix2 (y 0) kk) * wblk4 V c ⟨n, h⟩ (ix2 (y 1) kk) else 0

/-- The accumulator after point `n`; what a first k-block leaves; what a later k-block makes of what it finds. -/
def accF4 (c : Dev nD) : (n : ℕ) → n < cfg4.N → Vec Ideal S1024x1024 .f32 := fun n h => (outsAt4 V c n h).2
def accReset4 (c : Dev nD) : (n : ℕ) → n < cfg4.N → Vec Ideal S1024x1024 .f32 :=
  fun n h => k4_pay2 (k4_pay1 (F := Ideal)) (xblk4 V c ⟨n, h⟩) (wblk4 V c ⟨n, h⟩)
def accStep4 (c : Dev nD) : (n : ℕ) → n < cfg4.N → Vec Ideal S1024x1024 .f32 → Vec Ideal S1024x1024 .f32 :=
  fun n h acc => k4_pay2 acc (xblk4 V c ⟨n, h⟩) (wblk4 V c ⟨n, h⟩)

theorem acc_reset4 (c : Dev nD) (n : ℕ) (h : n < cfg4.N) (h0 : n % 4 = 0) : accF4 V c n h = accReset4 V c n h :=
  acc_A4 V c ⟨n, h⟩ h0 (by show ¬n % 4 = 3; omega)

theorem acc_step4 (c : Dev nD) (n : ℕ) (h : n + 1 < cfg4.N) (hne : ¬(n + 1) % 4 = 0) :
    accF4 V c (n + 1) h = accStep4 V c (n + 1) h (accF4 V c n (Nat.lt_of_succ_lt h)) :=
  acc_BC4 V c ⟨n + 1, h⟩ hne

theorem accReset4_apply (c : Dev nD) (n : ℕ) (h : n < cfg4.N) (y : S1024x1024.Idx) :
    accReset4 V c n h y = 0 + addend4 V c n y := by
  obtain ⟨p, q, rfl⟩ : ∃ p q : Fin 1024, y = ix2 p q := ⟨y 0, y 1, eq_ix2 y⟩
  unfold accReset4 addend4
  rw [dif_pos h]
  exact (PayValue.k4_pay2_apply _ (xblk4 V c ⟨n, h⟩) (wblk4 V c ⟨n, h⟩) p q).trans (by rw [PayValue.k4_pay1_apply])

theorem accStep4_apply (c : Dev nD) (n : ℕ) (h : n < cfg4.N) (acc : Vec Ideal S1024x1024 .f32) (y : S1024x1024.Idx) :
    accStep4 V c n h acc y = acc y + addend4 V c n y := by
  obtain ⟨p, q, rfl⟩ : ∃ p q : Fin 1024, y = ix2 p q := ⟨y 0, y 1, eq_ix2 y⟩
  unfold accStep4 addend4
  rw [dif_pos h]
  exact PayValue.k4_pay2_apply acc (xblk4 V c ⟨n, h⟩) (wblk4 V c ⟨n, h⟩) p q

/-- After a last k-block the accumulator holds, from zero, the four points' products of its run. -/
theorem acc_closed4 (c : Dev nD) (t : Fin cfg4.N) (h3 : t.val % 4 = 3) (y : S1024x1024.Idx) :
    (outsAt4 V c t.val t.isLt).2 y = 0 + ∑ s ∈ Finset.range 4, addend4 V c (4 * (t.val / 4) + s) y := by
  have hN : cfg4.N = 64 := N_4
  have hb : 4 * (t.val / 4) + t.val % 4 < cfg4.N := by have := t.isLt; omega
  have e1 := Pipeline.eq_accAt_of_mod (accF4 V c) 4 (accReset4 V c) (accStep4 V c) (acc_reset4 V c) (acc_step4 V c)
    (by decide) t.val t.isLt hb
  have e2 := Pipeline.accAt_add_apply (accReset4 V c) (accStep4 V c) (fun _ => (0 : EReal)) (addend4 V c) (4 * (t.val / 4)) 3
    (fun h i => accReset4_apply V c _ h i) (fun n h acc i _ _ => accStep4_apply V c n h acc i) (t.val % 4) (by omega) hb y
  refine (congrFun e1 y).trans (e2.trans ?_)
  rw [h3]

/-! ### The block a last k-block stores -/

/-- Entry (p, q) of the block a last k-block stores is entry (1024 i + p, 1024 j + q) of the linear layer: the four
    k-blocks' partial sums, from zero, are the whole row product, and the bias block is the bias at 1024 j + q. -/
theorem block4_value (c : Dev nD) (t : Fin cfg4.N) (h3 : t.val % 4 = 3) (p q : Fin 1024) (I J : Fin 4096)
    (hI : I.val = 1024 * (t.val / 16) + p.val) (hJ : J.val = 1024 * (t.val / 4 % 4) + q.val) :
    ((outsAt4 (F := Ideal) V c t.val t.isLt).1 : S1024x1024.Idx → EReal) (ix2 p q)
      = Cert.Spec.linear (V c main_v8) (V c main_v4) (V c main_arg8) I J := by
  have hN : cfg4.N = 64 := N_4
  have ht := t.isLt
  have h0 : ¬t.val % 4 = 0 := by omega
  have hacc := acc_closed4 V c t h3 (ix2 p q)
  refine (congrFun (out_C4 V c t h0 h3) (ix2 p q)).trans ((PayValue.k4_pay3_apply _ (bblk4 V c t) p q).trans ?_)
  unfold Cert.Spec.linear
  refine congrArg₂ (· + ·) (hacc.trans ?_) (bblk4_apply V c t q J hJ)
  rw [zero_add, Finset.sum_range, Cert.BlockSum.sum_four_runs]
  refine Finset.sum_congr rfl fun s _ => ?_
  have hs := s.isLt
  have hlt : 4 * (t.val / 4) + s.val < cfg4.N := by omega
  unfold addend4
  rw [dif_pos hlt]
  refine Finset.sum_congr rfl fun kk _ => ?_
  exact congrArg₂ (· * ·)
    (xblk4_apply V c ⟨_, hlt⟩ p kk I (Cert.BlockSum.at4 s kk) (by rw [hI]; show _ = 1024 * ((4 * (t.val / 4) + s.val) / 16) + p.val; omega)
      (by rw [Cert.BlockSum.at4_val]; show _ = 1024 * ((4 * (t.val / 4) + s.val) % 4) + kk.val; omega))
    (wblk4_apply V c ⟨_, hlt⟩ q kk J (Cert.BlockSum.at4 s kk) (by rw [hJ]; show _ = 1024 * ((4 * (t.val / 4) + s.val) / 4 % 4) + q.val; omega)
      (by rw [Cert.BlockSum.at4_val]; show _ = 1024 * ((4 * (t.val / 4) + s.val) % 4) + kk.val; omega))

end AtIdeal

end Cert.KernelIdeal.Frames

end
-- ==== Proof.LinCover4.lean ====
/-
  Linear region 4 (the output linear layer) from blocks to the array, on the extended reals.

  The region runs over sixty-four points t = 16 i + 4 j + k. The output window's block at t is block (i, j) of its
  array, 1024 × 1024 entries, and it is written back only at the last step k = 3 of each (i, j), when it holds the
  linear layer's entries of rows 1024 i to 1024 i + 1023 and columns 1024 j to 1024 j + 1023. So every write-back
  is a block of ONE function of the three arrays the region reads, the sixteen written blocks cover the array
  (entry (r, s) lies in the block written at the point 16 (r / 1024) + 4 (s / 1024) + 3), and after the region the
  output array is that function.
-/
import proofs.«160876_j7095285973076_1_alg».proof.Proof.LinFrame4
import proofs.«160876_j7095285973076_1_alg».proof.Proof.Spec
import proofs.«160876_j7095285973076_1_alg».proof.Proof.LinValue4
import Idealize.ShloMosaic.Lib.Pipeline.Value
import Idealize.ShloMosaic.Lib.ValueIdx

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output window's index map over the sixty-four points: at point `t = 16 i + 4 j + k` its block is block (i, j). -/
theorem idx_facts4_3 : ∀ t : Fin cfg4.N, win4_3.index t (0 : Fin 2) = t.val / 16 ∧ win4_3.index t (1 : Fin 2) = t.val / 4 % 4 :=
  (by decide +kernel : ∀ t : Fin grid4.N, _)

/-- The output array after the region, as one function of the three arrays it reads: the linear layer, entry by entry. -/
def arr4 (c : Dev nD) : Buf (Elt Ideal) ((c : Thread nD τ).loc main_v9) :=
  fun (i : S4096x4096.Idx) => Cert.Spec.linear (V c main_v8) (V c main_v4) (V c main_arg8) (i 0) (i 1)

theorem arr4_apply (c : Dev nD) (i j : Fin 4096) : arr4 V c (ix2 i j) = Cert.Spec.linear (V c main_v8) (V c main_v4) (V c main_arg8) i j := rfl

/-- WHAT A LAST-STEP POINT WRITES BACK is its block of that function: block entry (p, q) at point `t` is array entry
    (1024 (t / 16) + p, 1024 ((t / 4) % 4) + q). -/
theorem flushed4_eq (c : Dev nD) (t : Fin cfg4.N) (hf : (cfg4.win 3).flush t = true) :
    (dat4 V c).flushed 3 t = ((cfg4.win 3).blk t).view.read (Elt Ideal) (arr4 V c) := by
  have ht : t.val % 4 = 3 := (flush4_3 t).mp hf
  have hN : t.val < 64 := lt_of_lt_of_eq t.isLt N_4
  show (cfg4.win 3).cut (grid4.coords t) ((dat4 V c).after 3 t) = _
  rw [after4_3]
  obtain ⟨e0, e1⟩ := idx_facts4_3 t
  refine funext fun (y : S1024x1024.Idx) => ?_
  obtain ⟨p, q, rfl⟩ : ∃ (p q : Fin 1024), y = ix2 p q := ⟨y 0, y 1, eq_ix2 y⟩
  have hp := p.isLt
  have hq := q.isLt
  show ((outsAt4 (F := Ideal) V c t.val t.isLt).1 : S1024x1024.Idx → EReal) (ix2 p q)
    = arr4 V c (((cfg4.win 3).blk t).view.emb (ix2 p q))
  have hemb : ((cfg4.win 3).blk t).view.emb (ix2 p q)
      = ix2 (⟨1024 * (t.val / 16) + p.val, by omega⟩ : Fin 4096) (⟨1024 * (t.val / 4 % 4) + q.val, by omega⟩ : Fin 4096) := by
    funext b; apply Fin.ext
    match b with
    | ⟨0, _⟩ => show win4_3.index t (0 : Fin 2) * 1024 + 1 * p.val = 1024 * (t.val / 16) + p.val; omega
    | ⟨1, _⟩ => show win4_3.index t (1 : Fin 2) * 1024 + 1 * q.val = 1024 * (t.val / 4 % 4) + q.val; omega
  rw [hemb, arr4_apply]
  exact block4_value V c t ht p q _ _ rfl rfl

/-- An index of the array is in point `t`'s block iff each coordinate is in the block's range on its axis. -/
theorem mem_blk4 (t : Fin cfg4.N) (i : S4096x4096.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v9).slice (win4_3.rect t)).set ↔ _
  rw [View.set_slice_whole, Rect.mem_set_unit]
  exact Iff.rfl

/-- THE COVER: entry (r, s) of the array lies in the block written back at the point 16 (r / 1024) + 4 (s / 1024) + 3. -/
theorem cover4 (i : S4096x4096.Idx) :
    ∃ t : Fin cfg4.N, (cfg4.win 3).flush t = true ∧ i ∈ ((cfg4.win 3).blk t).view.set := by
  have hi0 : (i 0).val < 4096 := idx2_lt0 i
  have hi1 : (i 1).val < 4096 := idx2_lt1 i
  have hN : cfg4.N = 64 := N_4
  have hlt : 16 * ((i 0).val / 1024) + 4 * ((i 1).val / 1024) + 3 < cfg4.N := by rw [hN]; omega
  obtain ⟨e0, e1⟩ := idx_facts4_3 ⟨16 * ((i 0).val / 1024) + 4 * ((i 1).val / 1024) + 3, hlt⟩
  refine ⟨⟨16 * ((i 0).val / 1024) + 4 * ((i 1).val / 1024) + 3, hlt⟩, (flush4_3 _).mpr (by show (16 * ((i 0).val / 1024) + 4 * ((i 1).val / 1024) + 3) % 4 = 3; omega), ?_⟩
  rw [mem_blk4]
  intro a
  match a with
  | ⟨0, _⟩ =>
    show win4_3.index ⟨16 * ((i 0).val / 1024) + 4 * ((i 1).val / 1024) + 3, hlt⟩ (0 : Fin 2) * 1024 ≤ (i 0).val ∧ (i 0).val < win4_3.index ⟨16 * ((i 0).val / 1024) + 4 * ((i 1).val / 1024) + 3, hlt⟩ (0 : Fin 2) * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ =>
    show win4_3.index ⟨16 * ((i 0).val / 1024) + 4 * ((i 1).val / 1024) + 3, hlt⟩ (1 : Fin 2) * 1024 ≤ (i 1).val ∧ (i 1).val < win4_3.index ⟨16 * ((i 0).val / 1024) + 4 * ((i 1).val / 1024) + 3, hlt⟩ (1 : Fin 2) * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

/-- THE ARRAY after the region is that function. -/
theorem arr4_eq (c : Dev nD) : (dat4 V c).arrAt 3 cfg4.N = arr4 V c :=
  (dat4 V c).arrAt_eq_of_cover 3 (arr4 V c) (fun t hf => flushed4_eq V c t hf) cover4

/-- THE REGION'S VALUE: after the sixty-four points the output array holds the linear layer of the three arrays the
    region reads, as the region finds them, entry by entry. -/
theorem arr4_value (c : Dev nD) (i j : Fin 4096) :
    ((dat4 (F := Ideal) V c).arrAt 3 cfg4.N : S4096x4096.Idx → EReal) (ix2 i j) = Cert.Spec.linear (V c main_v8) (V c main_v4) (V c main_arg8) i j := by
  rw [arr4_eq, arr4_apply]

end Cert.KernelIdeal.Frames

end
-- ==== Proof.PayAttn.lean ====
/-
  The attention kernel's stored value read at one entry, on the extended reals.

  The kernel holds three 256 × 4096 blocks: one chunk's rows of three projections. It forms the 256 × 256 block of
  scores (row a of the first block against row b of the second, times the word of 2⁻⁶), takes each row's maximum
  from the word of −∞ and joins it with that word once more, takes the exponential of each score less its row's
  maximum, divides by the row's sum of exponentials, and multiplies the resulting 256 × 256 weights into the third
  block: entry (a, d) is the sum over b of weight (a, b) times entry (b, d). The changes of format in between are
  the identity on the extended reals. `rowMax`, `expo`, `rowSum` and `weight` are stated for an arbitrary table
  of scores, so that another description of the same softmax can be matched against them term by term.
-/
import proofs.«160876_j7095285973076_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## A kept row statistic spread back over its row -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two block products -/

theorem score_lhs_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem score_lhs_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem score_rhs_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem score_rhs_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The 256 × 256 block of raw scores: row a of the left operand against row b of the right one. -/
theorem score_matmul_apply (l r : FVec Ideal S256x4096 .bf16) (a b : Fin 256) :
    matmul dot_S256x4096_S256x4096_S256x256_1_1_0_0_n_n none l r (constant S256x256 .f32 0x00000000#32) (ix2 a b)
      = ∑ e : Fin 4096, l (ix2 a e) * r (ix2 b e) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 a b) ((contrEquiv1 dot_S256x4096_S256x4096_S256x256_1_1_0_0_n_n 4096 rfl rfl).symm k) = ix2 a k := funext fun c => Fin.ext (by
    match c with
    | ⟨0, _⟩ => exact score_lhs_0 _ _
    | ⟨1, _⟩ => exact (score_lhs_1 _ _).trans hk)
  have er : dot_S256x4096_S256x4096_S256x256_1_1_0_0_n_n.rhsIdx (ix2 a b) ((contrEquiv1 dot_S256x4096_S256x4096_S256x256_1_1_0_0_n_n 4096 rfl rfl).symm k) = ix2 b k := funext fun c => Fin.ext (by
    match c with
    | ⟨0, _⟩ => exact score_rhs_0 _ _
    | ⟨1, _⟩ => exact (score_rhs_1 _ _).trans hk)
  rw [el, er]

theorem mix_lhs_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem mix_lhs_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem mix_rhs_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl
theorem mix_rhs_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q

/-- The weights against the value rows: entry (a, d) sums, over the chunk's rows b, weight (a, b) times value (b, d). -/
theorem mix_matmul_apply (l : FVec Ideal S256x256 .bf16) (r : FVec Ideal S256x4096 .bf16) (a : Fin 256) (d : Fin 4096) :
    matmul dot_S256x256_S256x4096_S256x4096_1_0_0_1_n_n none l r (constant S256x4096 .f32 0x00000000#32) (ix2 a d)
      = ∑ b : Fin 256, l (ix2 a b) * r (ix2 b d) := by
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 a d) ((contrEquiv1 dot_S256x256_S256x4096_S256x4096_1_0_0_1_n_n 256 rfl rfl).symm k) = ix2 a k := funext fun c => Fin.ext (by
    match c with
    | ⟨0, _⟩ => exact mix_lhs_0 _ _
    | ⟨1, _⟩ => exact (mix_lhs_1 _ _).trans hk)
  have er : dot_S256x256_S256x4096_S256x4096_1_0_0_1_n_n.rhsIdx (ix2 a d) ((contrEquiv1 dot_S256x256_S256x4096_S256x4096_1_0_0_1_n_n 256 rfl rfl).symm k) = ix2 k d := funext fun c => Fin.ext (by
    match c with
    | ⟨0, _⟩ => exact (mix_rhs_0 _ _).trans hk
    | ⟨1, _⟩ => exact mix_rhs_1 _ _)
  rw [el, er]

/-! ## The two row reductions -/

/-- Over result row `a`, the source index with column `b` put back is `(a, b)`. -/
theorem lift_row (h : S256x256.Reduces [1] S256) (a b : Fin 256) : h.lift (ix1 a) b = ix2 a b := by
  funext c
  apply Fin.ext
  match c with
  | ⟨0, _⟩ => rfl
  | ⟨1, _⟩ => rfl

/-- A row's sum. -/
theorem rowSum_red_apply (src : FVec Ideal S256x256 .f32) (hφ : FKind.Formats .f32)
    (hacc : (0x00000000#32 : BitVec 32) = 0x00000000#32) (a : Fin 256) :
    multiReduction .add [1] S256 src 0x00000000#32 reduces_S256x256_S256 hφ hacc (ix1 a)
      = ∑ b : Fin 256, src (ix2 a b) := by
  refine (Ideal.multiReduction_add_single src 0x00000000#32 reduces_S256x256_S256 hφ hacc (ix1 a)).trans ?_
  exact Finset.sum_congr rfl fun b _ => congrArg src (lift_row _ a b)

/-- A row's maximum, from the word of −∞. -/
theorem rowMax_red_apply (src : FVec Ideal S256x256 .f32) (hφ : FKind.Formats .f32)
    (hacc : (0xFF800000#32 : BitVec 32) = 0xFF800000#32) (a : Fin 256) :
    multiReduction .maximumf [1] S256 src 0xFF800000#32 reduces_S256x256_S256 hφ hacc (ix1 a)
      = (Finset.univ : Finset (Fin 256)).fold max (Ideal.ofBits .f32 0xFF800000#32) fun b => src (ix2 a b) := by
  refine (Ideal.multiReduction_maximumf_single src 0xFF800000#32 reduces_S256x256_S256 hφ hacc (ix1 a)).trans ?_
  have hf : (src ∘ reduces_S256x256_S256.lift (ix1 a)) = fun b : Fin 256 => src (ix2 a b) :=
    funext fun b => congrArg src (lift_row _ a b)
  rw [hf]
  rfl

/-! ## The chunk's attention, entry by entry -/

/-- The exponential of a vector reads, at an index, the exponential of the element. -/
theorem exp_apply {s : Shape} {φ : FTy} (x : FVec Ideal s φ) (i : s.Idx) : exp x i = Ideal.exp (x i) := rfl

/-- The score of row `a` against row `b`: row `a` of the first operand against row `b` of the second, times the
    word of 2⁻⁶. -/
def score (v0 v2 : FVec Ideal S256x4096 .bf16) (a b : Fin 256) : EReal :=
  (∑ e : Fin 4096, v0 (ix2 a e) * v2 (ix2 b e)) * Ideal.ofBits .f32 0x3C800000#32

section Softmax

variable (S : Fin 256 → Fin 256 → EReal)

/-- A row's largest score: the maximum over the row from the word of −∞, joined once more with that word. -/
def rowMax (a : Fin 256) : EReal :=
  max (Ideal.ofBits .f32 0xFF800000#32)
    ((Finset.univ : Finset (Fin 256)).fold max (Ideal.ofBits .f32 0xFF800000#32) fun b => S a b)

/-- The exponential of a score less its row's maximum. -/
def expo (a b : Fin 256) : EReal := Ideal.exp (S a b - rowMax S a)

/-- The sum of a row's exponentials. -/
def rowSum (a : Fin 256) : EReal := ∑ b : Fin 256, expo S a b

/-- The weight: an exponential over its row's sum. -/
def weight (a b : Fin 256) : EReal := Ideal.div (expo S a b) (rowSum S a)

end Softmax

/-! ## The two words -/

/-- The scale word denotes 2⁻⁶ = 1 / 64 = 1 / √4096. -/
theorem scale_eq : Ideal.ofBits .f32 0x3C800000#32 = ((1 / 64 : ℝ) : EReal) := by
  simp [Ideal.ofBits, Ideal.ieee]
  rw [← EReal.coe_mul]; norm_num

/-- The word the row maximum starts from denotes −∞. -/
theorem negInf_eq : Ideal.ofBits .f32 0xFF800000#32 = (⊥ : EReal) := by
  simp [Ideal.ofBits, Ideal.ieee]

/-- The score with its scale as a real number. -/
theorem score_eq (v0 v2 : FVec Ideal S256x4096 .bf16) (a b : Fin 256) :
    score v0 v2 a b = (∑ e : Fin 4096, v0 (ix2 a e) * v2 (ix2 b e)) * ((1 / 64 : ℝ) : EReal) := by
  unfold score; rw [scale_eq]

/-! ## The softmax of a block of scores, entry by entry -/

/-- The block of scores: the raw block product times the word of 2⁻⁶, entry by entry. -/
theorem scoreBlock_apply (v0 v2 : FVec Ideal S256x4096 .bf16) (a b : Fin 256) :
    mulf (matmul dot_S256x4096_S256x4096_S256x256_1_1_0_0_n_n none v0 v2 (constant S256x256 .f32 0x00000000#32))
        (broadcast S256x256 (Scalar.ofBits (F := Ideal) .f32 0x3C800000#32)) (ix2 a b) = score v0 v2 a b := by
  rw [mulf_apply, score_matmul_apply]
  rfl

/-- The exponentials of a block of scores, each row less its maximum: the row maximum is taken from the word of −∞,
    joined with it once more, kept as a column and spread back over the row. -/
abbrev expBlock (s : FVec Ideal S256x256 .f32) (hφ : FKind.Formats .f32)
    (hacc : (0xFF800000#32 : BitVec 32) = 0xFF800000#32) : FVec Ideal S256x256 .f32 :=
  exp (subf s (broadcastTo S256x256 (shapeCast S256x1 (maximumf (broadcast S256 (Scalar.ofBits (F := Ideal) .f32 0xFF800000#32))
    (multiReduction .maximumf [1] S256 s 0xFF800000#32 reduces_S256x256_S256 hφ hacc)) shapeCasts_S256_S256x1) broadcasts_S256x1_S256x256))

theorem expBlock_apply (s : FVec Ideal S256x256 .f32) (hφ : FKind.Formats .f32)
    (hacc : (0xFF800000#32 : BitVec 32) = 0xFF800000#32) (a b : Fin 256) :
    expBlock s hφ hacc (ix2 a b) = expo (fun a b => s (ix2 a b)) a b := by
  unfold expBlock
  rw [exp_apply, subf_apply, broadcastTo_a1_ab_apply, shapeCast_a_a1_apply, maximumf_apply, broadcast_apply]
  exact congrArg (fun m => Ideal.exp (s (ix2 a b) - max (Ideal.ofBits .f32 0xFF800000#32) m)) (rowMax_red_apply s hφ hacc a)

/-- The row sums of those exponentials, kept as a column and spread back over the row. -/
theorem sumBlock_apply (s : FVec Ideal S256x256 .f32) (hφ hφ' : FKind.Formats .f32)
    (hmax : (0xFF800000#32 : BitVec 32) = 0xFF800000#32) (hadd : (0x00000000#32 : BitVec 32) = 0x00000000#32) (a b : Fin 256) :
    broadcastTo S256x256 (shapeCast S256x1 (multiReduction .add [1] S256 (expBlock s hφ hmax) 0x00000000#32
        reduces_S256x256_S256 hφ' hadd) shapeCasts_S256_S256x1) broadcasts_S256x1_S256x256 (ix2 a b)
      = rowSum (fun a b => s (ix2 a b)) a := by
  rw [broadcastTo_a1_ab_apply, shapeCast_a_a1_apply]
  refine (rowSum_red_apply _ hφ' hadd a).trans ?_
  exact Finset.sum_congr rfl fun b' _ => expBlock_apply s hφ hmax a b'

/-- THE ATTENTION PAYLOAD AT AN ENTRY: entry (a, d) of what the chunk stores is the sum, over the chunk's rows b, of
    the weight of row a on row b times entry (b, d) of the third operand; the weights are the row-wise normalised
    exponentials of the scaled scores of the first operand's rows against the second's. -/
theorem k3_pay1_apply (v0 v2 v4 : Vec Ideal S256x4096 .bf16) (a : Fin 256) (d : Fin 4096) :
    Gen.k3_pay1 (F := Ideal) v0 v2 v4 (ix2 a d) = ∑ b : Fin 256, weight (score v0 v2) a b * v4 (ix2 b d) := by
  unfold Gen.k3_pay1
  simp only [shapeCast_self]
  rw [truncf_apply, mix_matmul_apply]
  refine Finset.sum_congr rfl fun b _ => ?_
  refine congrArg (· * v4 (ix2 b d)) ?_
  rw [truncf_apply, divf_apply]
  have hS : (fun a b : Fin 256 => mulf (matmul dot_S256x4096_S256x4096_S256x256_1_1_0_0_n_n none (v0 : FVec Ideal S256x4096 .bf16) (v2 : FVec Ideal S256x4096 .bf16)
        (constant S256x256 .f32 0x00000000#32))
      (broadcast S256x256 (Scalar.ofBits (F := Ideal) .f32 0x3C800000#32)) (ix2 a b)) = score v0 v2 :=
    funext fun a => funext fun b => scoreBlock_apply v0 v2 a b
  unfold weight
  refine congrArg₂ Ideal.div ?_ ?_
  · refine (expBlock_apply _ _ _ a b).trans ?_
    rw [hS]
  · refine (sumBlock_apply _ _ _ _ _ a b).trans ?_
    rw [hS]

end Cert.KernelIdeal.PayValue

end
-- ==== Proof.AttnValue.lean ====
/-
  The attention region from blocks to the array, on the extended reals.

  The region runs over sixteen chunks. At chunk t every window's block is block (t, 0) of its array: rows 256 t to
  256 t + 255, all 4096 columns. The body stores, whole, its arithmetic of the three input blocks; read entry by
  entry that arithmetic is the attention of chunk t of the three arrays (queries, keys, values), so what chunk t
  writes back is block t of ONE function of the three arrays: row i of the result is row i % 256 of the attention
  of chunk i / 256. The sixteen blocks cover the array (row r lies in the block of chunk r / 256), so after the
  region the output array is that function.
-/
import proofs.«160876_j7095285973076_1_alg».proof.Proof.AttnFrame
import proofs.«160876_j7095285973076_1_alg».proof.Proof.PayAttn
import proofs.«160876_j7095285973076_1_alg».proof.Proof.AttnSpec
import Idealize.ShloMosaic.Lib.Pipeline.Value
import Idealize.ShloMosaic.Lib.ValueIdx

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (row chunkOf within attnOf scoreOf weightOf)
open Cert.KernelIdeal.PayValue (k3_pay1_apply score weight scale_eq)

variable (V : (c : Dev nD) → (b : Ref sig .tc) → Buf (Elt Ideal) ((c : Thread nD τ).loc b))

theorem hz3 : (![0, 0] : Fin 2 → Nat) = fun _ => 0 := funext fun a => by fin_cases a <;> rfl

/-- What the body leaves in the output block is its arithmetic of the three input blocks: every load and the one
    store go through the whole block. -/
theorem out3_3_eq (x0 x1 x2 : Vec Ideal S256x4096 .bf16) : out3_3 x0 x1 x2 = k3_pay1 x0 x1 x2 := by
  unfold out3_3
  rw [View.canon_unit_zero hz3]
  simp only [View.ld_unit_zero (S := S256x4096) hz3]

/-- The index maps over the sixteen chunks: every window's block at chunk `t` is block (t, 0) of its array. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `a` of the queries' block at chunk `t` is row `256 t + a` of the array. -/
theorem iblk3_0_apply (c : Dev nD) (t : Fin cfg3.N) (a : Fin 256) (e : Fin 4096) (i : Fin 4096) (hi : i.val = t.val * 256 + a.val) :
    (iblk3 V c 0 t : Vec Ideal S256x4096 .bf16) (ix2 a e) = V c main_v7 (ix2 i e) := by
  obtain ⟨e00, e01, e10, e11, e20, e21, -⟩ := idx_facts3 t
  unfold iblk3
  rw [View.read_apply]
  show V c main_v7 _ = V c main_v7 _
  refine congrArg _ (funext fun b => Fin.ext ?_)
  match b with
  | ⟨0, _⟩ => show win3_0.index t (0 : Fin 2) * 256 + 1 * a.val = i.val; omega
  | ⟨1, _⟩ => show win3_0.index t (1 : Fin 2) * 4096 + 1 * e.val = e.val; omega

/-- Row `a` of the keys' block at chunk `t` is row `256 t + a` of the array. -/
theorem iblk3_1_apply (c : Dev nD) (t : Fin cfg3.N) (a : Fin 256) (e : Fin 4096) (i : Fin 4096) (hi : i.val = t.val * 256 + a.val) :
    (iblk3 V c 1 t : Vec Ideal S256x4096 .bf16) (ix2 a e) = V c main_v6 (ix2 i e) := by
  obtain ⟨e00, e01, e10, e11, e20, e21, -⟩ := idx_facts3 t
  unfold iblk3
  rw [View.read_apply]
  show V c main_v6 _ = V c main_v6 _
  refine congrArg _ (funext fun b => Fin.ext ?_)
  match b with
  | ⟨0, _⟩ => show win3_1.index t (0 : Fin 2) * 256 + 1 * a.val = i.val; omega
  | ⟨1, _⟩ => show win3_1.index t (1 : Fin 2) * 4096 + 1 * e.val = e.val; omega

/-- Row `a` of the values' block at chunk `t` is row `256 t + a` of the array. -/
theorem iblk3_2_apply (c : Dev nD) (t : Fin cfg3.N) (a : Fin 256) (e : Fin 4096) (i : Fin 4096) (hi : i.val = t.val * 256 + a.val) :
    (iblk3 V c 2 t : Vec Ideal S256x4096 .bf16) (ix2 a e) = V c main_v5 (ix2 i e) := by
  obtain ⟨e00, e01, e10, e11, e20, e21, -⟩ := idx_facts3 t
  unfold iblk3
  rw [View.read_apply]
  show V c main_v5 _ = V c main_v5 _
  refine congrArg _ (funext fun b => Fin.ext ?_)
  match b with
  | ⟨0, _⟩ => show win3_2.index t (0 : Fin 2) * 256 + 1 * a.val = i.val; omega
  | ⟨1, _⟩ => show win3_2.index t (1 : Fin 2) * 4096 + 1 * e.val = e.val; omega

/-- ONE CHUNK: the body's arithmetic of the three blocks at chunk `t`, at entry (a, d), is the attention of chunk `t`
    of the three arrays there: the scores, row maxima, exponentials, row sums and weights agree term by term once
    each block row is read as its row of the array and the scale word as 1 / 64. -/
theorem chunk_value (c : Dev nD) (t : Fin cfg3.N) (h : Fin 16) (hh : h.val = t.val) (a : Fin 256) (d : Fin 4096) :
    k3_pay1 (F := Ideal) (iblk3 V c 0 t) (iblk3 V c 1 t) (iblk3 V c 2 t) (ix2 a d)
      = attnOf (fun i e => V c main_v7 (ix2 i e)) (fun i e => V c main_v6 (ix2 i e)) (fun i e => V c main_v5 (ix2 i e)) h a d := by
  refine (k3_pay1_apply (iblk3 V c 0 t) (iblk3 V c 1 t) (iblk3 V c 2 t) a d).trans ?_
  have hS : score (iblk3 V c 0 t) (iblk3 V c 1 t)
      = fun a b => scoreOf (fun i e => V c main_v7 (ix2 i e)) (fun i e => V c main_v6 (ix2 i e)) h a b := by
    funext a b
    unfold score scoreOf
    refine congrArg₂ (· * ·) (Finset.sum_congr rfl fun e _ => ?_) scale_eq
    exact congrArg₂ (· * ·) (iblk3_0_apply V c t a e (row h a) (by rw [Cert.Spec.row_val, hh]))
      (iblk3_1_apply V c t b e (row h b) (by rw [Cert.Spec.row_val, hh]))
  rw [hS]
  unfold attnOf
  refine Finset.sum_congr rfl fun b _ => ?_
  exact congrArg₂ (· * ·) rfl (iblk3_2_apply V c t b d (row h b) (by rw [Cert.Spec.row_val, hh]))

/-- The output array after the region, as one function of the three arrays it reads: row `i` is row `i % 256` of
    the attention of chunk `i / 256`. -/
def arr3 (c : Dev nD) : Buf (Elt Ideal) ((c : Thread nD τ).loc main_v8) :=
  fun (i : S4096x4096.Idx) => attnOf (fun i e => V c main_v7 (ix2 i e)) (fun i e => V c main_v6 (ix2 i e)) (fun i e => V c main_v5 (ix2 i e)) (chunkOf (i 0)) (within (i 0)) (i 1)

theorem arr3_apply (c : Dev nD) (r d : Fin 4096) :
    arr3 V c (ix2 r d) = attnOf (fun i e => V c main_v7 (ix2 i e)) (fun i e => V c main_v6 (ix2 i e)) (fun i e => V c main_v5 (ix2 i e)) (chunkOf r) (within r) d := rfl

/-- WHAT CHUNK `t` WRITES BACK is block `t` of that function. -/
theorem flushed3_eq (c : Dev nD) (t : Fin cfg3.N) :
    (dat3 V c).flushed 3 t = ((cfg3.win 3).blk t).view.read (Elt Ideal) (arr3 V c) := by
  show (cfg3.win 3).cut (grid3.coords t) ((dat3 V c).after 3 t) = _
  rw [after3_3, out3_3_eq]
  obtain ⟨-, -, -, -, -, -, e0, e1⟩ := idx_facts3 t
  have ht : t.val < 16 := lt_of_lt_of_eq t.isLt N_3
  refine funext fun (j : S256x4096.Idx) => ?_
  obtain ⟨a, d, rfl⟩ : ∃ (a : Fin 256) (d : Fin 4096), j = ix2 a d := ⟨j 0, j 1, eq_ix2 j⟩
  show k3_pay1 (F := Ideal) (iblk3 V c 0 t) (iblk3 V c 1 t) (iblk3 V c 2 t) (ix2 a d)
    = arr3 V c (((cfg3.win 3).blk t).view.emb (ix2 a d))
  have hemb : ((cfg3.win 3).blk t).view.emb (ix2 a d) = ix2 (row ⟨t.val, ht⟩ a) d := by
    funext b; apply Fin.ext
    match b with
    | ⟨0, _⟩ => show win3_3.index t (0 : Fin 2) * 256 + 1 * a.val = t.val * 256 + a.val; omega
    | ⟨1, _⟩ => show win3_3.index t (1 : Fin 2) * 4096 + 1 * d.val = d.val; omega
  rw [hemb, arr3_apply, Cert.Spec.chunkOf_row, Cert.Spec.within_row]
  exact chunk_value V c t ⟨t.val, ht⟩ rfl a d

/-- An index of the array is in chunk `t`'s block iff each coordinate is in the block's range on its axis. -/
theorem mem_blk3 (t : Fin cfg3.N) (i : S4096x4096.Idx) :
    i ∈ ((cfg3.win 3).blk t).view.set ↔ ∀ a : Fin 2, win3_3.index t a * S256x4096.size a ≤ (i a).val ∧ (i a).val < win3_3.index t a * S256x4096.size a + S256x4096.size a := by
  show i ∈ ((View.whole main_v8).slice (win3_3.rect t)).set ↔ _
  rw [View.set_slice_whole, Rect.mem_set_unit]
  exact Iff.rfl

/-- THE COVER: row `r` of the array lies in the block of chunk `r / 256`. -/
theorem cover3 (i : S4096x4096.Idx) :
    ∃ t : Fin cfg3.N, (cfg3.win 3).flush t = true ∧ i ∈ ((cfg3.win 3).blk t).view.set := by
  have hi0 : (i 0).val < 4096 := idx2_lt0 i
  have hi1 : (i 1).val < 4096 := idx2_lt1 i
  have hN : cfg3.N = 16 := N_3
  have hlt : (i 0).val / 256 < cfg3.N := by rw [hN]; omega
  obtain ⟨-, -, -, -, -, -, e0, e1⟩ := idx_facts3 ⟨(i 0).val / 256, hlt⟩
  refine ⟨⟨(i 0).val / 256, hlt⟩, flush3_3 _, ?_⟩
  rw [mem_blk3]
  intro a
  match a with
  | ⟨0, _⟩ =>
    show win3_3.index ⟨(i 0).val / 256, hlt⟩ (0 : Fin 2) * 256 ≤ (i 0).val ∧ (i 0).val < win3_3.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win3_3.index ⟨(i 0).val / 256, hlt⟩ (1 : Fin 2) * 4096 ≤ (i 1).val ∧ (i 1).val < win3_3.index ⟨(i 0).val / 256, hlt⟩ (1 : Fin 2) * 4096 + 4096
    rw [e1]; omega

/-- THE ARRAY after the region is that function. -/
theorem arr3_eq (c : Dev nD) : (dat3 V c).arrAt 3 cfg3.N = arr3 V c :=
  (dat3 V c).arrAt_eq_of_cover 3 (arr3 V c) (fun t _ => flushed3_eq V c t) cover3

/-- THE REGION'S VALUE: after the sixteen chunks, row `256 h + a` of the output array holds row `a` of the attention
    of chunk `h` of the three arrays the region reads, as the region finds them. -/
theorem arr3_value (c : Dev nD) (h : Fin 16) (a : Fin 256) (d : Fin 4096) :
    ((dat3 (F := Ideal) V c).arrAt 3 cfg3.N : S4096x4096.Idx → EReal) (ix2 (Cert.Spec.row h a) d)
      = Cert.Spec.attnOf (fun i e => V c main_v7 (ix2 i e)) (fun i e => V c main_v6 (ix2 i e)) (fun i e => V c main_v5 (ix2 i e)) h a d := by
  rw [arr3_eq, arr3_apply, Cert.Spec.chunkOf_row, Cert.Spec.within_row]

end Cert.KernelIdeal.Frames

end
-- ==== Proof.KernelValue.lean ====
import proofs.«160876_j7095285973076_1_alg».proof.Proof.Carry
import proofs.«160876_j7095285973076_1_alg».proof.Proof.Spec
import proofs.«160876_j7095285973076_1_alg».proof.Proof.AttnSpec
import proofs.«160876_j7095285973076_1_alg».proof.Proof.LinCover0
import proofs.«160876_j7095285973076_1_alg».proof.Proof.LinCover1
import proofs.«160876_j7095285973076_1_alg».proof.Proof.LinCover2
import proofs.«160876_j7095285973076_1_alg».proof.Proof.LinCover4
import proofs.«160876_j7095285973076_1_alg».proof.Proof.AttnValue

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! # The kernel's result is the specification

Region by region: the three projections are linear layers of the launch arguments (the converted copies hold the same
extended reals), the attention region mixes each chunk's rows, and the last region is the output layer on the result. -/

/-- After region 0 its output array holds the (Wq, bq) projection. -/
theorem q_val (c : Dev nD) (i j : Fin 4096) :
    (W2 (F := Ideal) m ρ c (Proc.devRef .tc main_v5) : S4096x4096.Idx → EReal) (ix2 i j)
      = Cert.Spec.linear (m ((c : Thread nD τ).loc main_arg0)) (m ((c : Thread nD τ).loc main_arg1)) (m ((c : Thread nD τ).loc main_arg2)) i j := by
  rw [show W2 (F := Ideal) m ρ c (Proc.devRef .tc main_v5) = (dat0 (V1 m ρ) c).arrAt 3 cfg0.N from W2_arr m ρ c 3]
  refine (arr0_value (V1 m ρ) c i j).trans ?_
  unfold Cert.Spec.linear
  exact congrArg₂ (· + ·) (Finset.sum_congr rfl fun k _ => congrArg₂ (· * ·) (W1_main_v0 m ρ c _) (W1_main_v1 m ρ c _))
    (congrFun (W1_main_arg2 m ρ c) _)

/-- After region 1 its output array holds the (Wk, bk) projection. -/
theorem k_val (c : Dev nD) (i j : Fin 4096) :
    (W3 (F := Ideal) m ρ c (Proc.devRef .tc main_v6) : S4096x4096.Idx → EReal) (ix2 i j)
      = Cert.Spec.linear (m ((c : Thread nD τ).loc main_arg0)) (m ((c : Thread nD τ).loc main_arg3)) (m ((c : Thread nD τ).loc main_arg4)) i j := by
  rw [show W3 (F := Ideal) m ρ c (Proc.devRef .tc main_v6) = (dat1 (V2 m ρ) c).arrAt 3 cfg1.N from W3_arr m ρ c 3]
  refine (arr1_value (V2 m ρ) c i j).trans ?_
  unfold Cert.Spec.linear
  exact congrArg₂ (· + ·) (Finset.sum_congr rfl fun k _ => congrArg₂ (· * ·)
      ((congrFun (V2_main_v0_eq_V1 m ρ c) _).trans (W1_main_v0 m ρ c _)) ((congrFun (V2_main_v2_eq_V1 m ρ c) _).trans (W1_main_v2 m ρ c _)))
    (congrFun ((V2_main_arg4_eq_V1 m ρ c).trans (W1_main_arg4 m ρ c)) _)

/-- After region 2 its output array holds the (Wv, bv) projection. -/
theorem v_val (c : Dev nD) (i j : Fin 4096) :
    (W4 (F := Ideal) m ρ c (Proc.devRef .tc main_v7) : S4096x4096.Idx → EReal) (ix2 i j)
      = Cert.Spec.linear (m ((c : Thread nD τ).loc main_arg0)) (m ((c : Thread nD τ).loc main_arg5)) (m ((c : Thread nD τ).loc main_arg6)) i j := by
  rw [show W4 (F := Ideal) m ρ c (Proc.devRef .tc main_v7) = (dat2 (V3 m ρ) c).arrAt 3 cfg2.N from W4_arr m ρ c 3]
  refine (arr2_value (V3 m ρ) c i j).trans ?_
  unfold Cert.Spec.linear
  exact congrArg₂ (· + ·) (Finset.sum_congr rfl fun k _ => congrArg₂ (· * ·)
      ((congrFun (V3_main_v0_eq_V1 m ρ c) _).trans (W1_main_v0 m ρ c _)) ((congrFun (V3_main_v3_eq_V1 m ρ c) _).trans (W1_main_v3 m ρ c _)))
    (congrFun ((V3_main_arg6_eq_V1 m ρ c).trans (W1_main_arg6 m ρ c)) _)

/-- After the attention region its output array holds the stacked chunks. -/
theorem c_val (c : Dev nD) (i d : Fin 4096) :
    (W5 (F := Ideal) m ρ c (Proc.devRef .tc main_v8) : S4096x4096.Idx → EReal) (ix2 i d)
      = Cert.Spec.stacked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i d := by
  rw [show W5 (F := Ideal) m ρ c (Proc.devRef .tc main_v8) = (dat3 (V4 m ρ) c).arrAt 3 cfg3.N from W5_arr m ρ c 3]
  unfold Cert.Spec.stacked
  rw [Cert.Spec.mixed_eq_attnOf]
  have hi : i = Cert.Spec.row (Cert.Spec.chunkOf i) (Cert.Spec.within i) := (Cert.Spec.row_chunkOf_within i).symm
  conv_lhs => rw [hi]
  refine (arr3_value (V4 m ρ) c (Cert.Spec.chunkOf i) (Cert.Spec.within i) d).trans ?_
  have eQ : (fun r e => (V4 (F := Ideal) m ρ c main_v7 : S4096x4096.Idx → EReal) (ix2 r e)) = Cert.Spec.linear (m ((c : Thread nD τ).loc main_arg0)) (m ((c : Thread nD τ).loc main_arg5)) (m ((c : Thread nD τ).loc main_arg6)) :=
    funext fun r => funext fun e => v_val m ρ c r e
  have eK : (fun r e => (V4 (F := Ideal) m ρ c main_v6 : S4096x4096.Idx → EReal) (ix2 r e)) = Cert.Spec.linear (m ((c : Thread nD τ).loc main_arg0)) (m ((c : Thread nD τ).loc main_arg3)) (m ((c : Thread nD τ).loc main_arg4)) :=
    funext fun r => funext fun e => (congrFun (V4_main_v6_eq_V3 m ρ c) _).trans (k_val m ρ c r e)
  have eV : (fun r e => (V4 (F := Ideal) m ρ c main_v5 : S4096x4096.Idx → EReal) (ix2 r e)) = Cert.Spec.linear (m ((c : Thread nD τ).loc main_arg0)) (m ((c : Thread nD τ).loc main_arg1)) (m ((c : Thread nD τ).loc main_arg2)) :=
    funext fun r => funext fun e => (congrFun (V4_main_v5_eq_V2 m ρ c) _).trans (q_val m ρ c r e)
  rw [eQ, eK, eV]

/-- THE KERNEL'S VALUE: after the last region its output array is the specification of the launch arguments. -/
theorem kernel_value (c : Dev nD) :
    (dat4 (F := Ideal) (V5 m ρ) c).arrAt 3 cfg4.N = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  obtain ⟨i, j, rfl⟩ : ∃ (i : Fin 4096) (j : Fin 4096), y = ix2 i j := ⟨y 0, y 1, eq_ix2 y⟩
  rw [Cert.Spec.out_apply]
  refine (arr4_value (V5 m ρ) c i j).trans ?_
  unfold Cert.Spec.outAt
  exact congrArg₂ (· + ·) (Finset.sum_congr rfl fun k _ => congrArg₂ (· * ·)
      (c_val m ρ c i k) ((congrFun (V5_main_v4_eq_V1 m ρ c) _).trans (W1_main_v4 m ρ c _)))
    (congrFun ((V5_main_arg8_eq_V1 m ρ c).trans (W1_main_arg8 m ρ c)) _)

end Cert.KernelIdeal.Frames

end
-- ==== Proof.lean ====
/-
  A multi-head attention block, SEQ = D = 4096, sixteen chunks of 256 rows: three linear layers of one input
  (y = x · Wᵀ + b), per chunk the softmax of the scaled scores of the (Wv, bv) projection's rows against the
  (Wk, bk) projection's rows, applied to the (Wq, bq) projection's rows, and a fourth linear layer on the stacked
  chunks. The kernel computes each linear layer block by block, a 1024 × 1024 output block accumulated over the four
  blocks of the contracted axis in a buffer it keeps between grid points, reset at the first block and joined with
  the bias row at the last; the attention stage one chunk per grid point. The reference is a straight line of whole-array
  operations.

  On the extended reals the two agree: a change of float format is the identity; a sum over 4096 indices is the sum
  of its four blocks of 1024, whatever the grouping (addition there is commutative and associative, and 0 is
  neutral); the kernel's scale 2⁻⁶ is the reference's 1 / √4096; the row maximum, the exponential, the row sum and
  the quotient are the same operations on both sides. Neither side's finiteness is used.

  The claims: each program runs to the end, faults nowhere and leaves its arguments as launched (for the two kernel
  programs, the run of @main's host stretch and five regions, each region's invariant proved point by point; for the
  reference, its run); the idealization rewrote nothing; and both idealized programs end with the block's
  specification `Cert.Spec.out` of the arguments in their result.
-/
import proofs.«160876_j7095285973076_1_alg».proof.Defs
import proofs.«160876_j7095285973076_1_alg».proof.Proof.Gen.Kernel
import proofs.«160876_j7095285973076_1_alg».proof.Proof.Gen.Kernel.Skeleton
import proofs.«160876_j7095285973076_1_alg».proof.Proof.Gen.Kernel.Launch
import proofs.«160876_j7095285973076_1_alg».proof.Proof.Gen.Kernel.Regions
import proofs.«160876_j7095285973076_1_alg».proof.Proof.Gen.Kernel.Points
import proofs.«160876_j7095285973076_1_alg».proof.Proof.Gen.KernelIdeal
import proofs.«160876_j7095285973076_1_alg».proof.Proof.Gen.KernelIdeal.Skeleton
import proofs.«160876_j7095285973076_1_alg».proof.Proof.Gen.KernelIdeal.Launch
import proofs.«160876_j7095285973076_1_alg».proof.Proof.Gen.KernelIdeal.Regions
import proofs.«160876_j7095285973076_1_alg».proof.Proof.Gen.KernelIdeal.Points
import proofs.«160876_j7095285973076_1_alg».proof.Proof.Gen.ReferenceIdeal
import proofs.«160876_j7095285973076_1_alg».proof.Proof.Gen.Pre_finite_inputs
import proofs.«160876_j7095285973076_1_alg».proof.Proof.Gen.ReferenceIdeal.Run
import proofs.«160876_j7095285973076_1_alg».proof.Proof.Gen.ReferenceIdeal.Read
import proofs.«160876_j7095285973076_1_alg».proof.Proof.KRunFrame
import proofs.«160876_j7095285973076_1_alg».proof.Proof.RunFrame
import proofs.«160876_j7095285973076_1_alg».proof.Proof.RefIsSpec
import proofs.«160876_j7095285973076_1_alg».proof.Proof.KernelValue
import Idealize.ShloMosaic.Adequacy
import Idealize.ShloMosaic.Init

noncomputable section

namespace Cert.Proof

open Idealize.ShloMosaic Idealize.SL.Sem

/-- The word-level kernel runs to the end, faults nowhere and leaves its nine arguments as launched: the run of its
    six items, the five regions' frames proved point by point. -/
theorem frame_kernel : Cert.frame_Kernel := fun m ρ _ => Cert.Kernel.Frames.frame m ρ

/-- The same of the idealized kernel, read on the extended reals. -/
theorem frame_kernelIdeal : Cert.frame_KernelIdeal := fun m ρ _ => Cert.KernelIdeal.Frames.frame m ρ

/-- The idealized reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals both programs end at ONE function of the nine arguments, the attention block's
    specification: the kernel's last region leaves it in its output array, the reference's composed term is it, and the
    two memories agree on the arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.KernelIdeal.Frames.kernel_value m ρ c), (h c).2⟩) (Cert.KernelIdeal.Frames.run_value m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.RefValue.res_is_spec, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
